-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x513 : Shape := ⟨2, ![131072, 513]⟩
abbrev S3x4x256x32 : Shape := ⟨4, ![3, 4, 256, 32]⟩
abbrev S3x4x32 : Shape := ⟨3, ![3, 4, 32]⟩
abbrev S3x4x32x256 : Shape := ⟨4, ![3, 4, 32, 256]⟩
abbrev S3x4x256 : Shape := ⟨3, ![3, 4, 256]⟩
abbrev S_ : Shape := ⟨0, ![]⟩

class Facts : Prop where
  bcast_S_S131072x513 : S_.BroadcastsInDim S131072x513 (![] : Fin 0 → Fin S131072x513.rank)
  reducesTo_S131072x513_S_d0_1 : S131072x513.ReducesTo [0, 1] S_
  h_S_ : 0 < S_.numel
  bcast_S_S3x4x256x32 : S_.BroadcastsInDim S3x4x256x32 (![] : Fin 0 → Fin S3x4x256x32.rank)
  reducesTo_S3x4x256x32_S_d0_1_2_3 : S3x4x256x32.ReducesTo [0, 1, 2, 3] S_
  bcast_S_S3x4x32 : S_.BroadcastsInDim S3x4x32 (![] : Fin 0 → Fin S3x4x32.rank)
  reducesTo_S3x4x32_S_d0_1_2 : S3x4x32.ReducesTo [0, 1, 2] S_
  bcast_S_S3x4x32x256 : S_.BroadcastsInDim S3x4x32x256 (![] : Fin 0 → Fin S3x4x32x256.rank)
  reducesTo_S3x4x32x256_S_d0_1_2_3 : S3x4x32x256.ReducesTo [0, 1, 2, 3] S_
  bcast_S_S3x4x256 : S_.BroadcastsInDim S3x4x256 (![] : Fin 0 → Fin S3x4x256.rank)
  reducesTo_S3x4x256_S_d0_1_2 : S3x4x256.ReducesTo [0, 1, 2] S_

variable [Facts]

def fn_part1 {F : FTy → Type} [FloatOps F] (main_arg4 : FVec F S3x4x256 .f32) (main_v13 : IVec S_ 1) (main_v16 : IVec S3x4x32x256 1) : IVec S_ 1 :=
  let main_c_5 : IVec S_ 1 := constantI S_ 1 1#1
  let main_v17 : IVec S_ 1 := (fun x v => Host.reduce IntOp.andi x v reducesTo_S3x4x32x256_S_d0_1_2_3 h_S_) main_v16 main_c_5
  let main_v18 : IVec S_ 1 := andi main_v13 main_v17
  let main_v19 : FVec F S3x4x256 .f32 := Host.absf main_arg4
  let main_cst_6 : FVec F S_ .f32 := constant S_ .f32 0x7F800000#32
  let main_v20 : FVec F S3x4x256 .f32 := broadcastInDim S3x4x256 ![] bcast_S_S3x4x256 main_cst_6
  let main_v21 : IVec S3x4x256 1 := cmpf .olt main_v19 main_v20
  let main_c_7 : IVec S_ 1 := constantI S_ 1 1#1
  let main_v22 : IVec S_ 1 := (fun x v => Host.reduce IntOp.andi x v reducesTo_S3x4x256_S_d0_1_2 h_S_) main_v21 main_c_7
  let main_v23 : IVec S_ 1 := andi main_v18 main_v22
  main_v23

def fn {F : FTy → Type} [FloatOps F] (main_arg0 : FVec F S131072x513 .f32) (main_arg1 : FVec F S3x4x256x32 .f32) (main_arg2 : FVec F S3x4x32 .f32) (main_arg3 : FVec F S3x4x32x256 .f32) (main_arg4 : FVec F S3x4x256 .f32) : IVec S_ 1 :=
  let main_v0 : FVec F S131072x513 .f32 := Host.absf main_arg0
  let main_cst : FVec F S_ .f32 := constant S_ .f32 0x7F800000#32
  let main_v1 : FVec F S131072x513 .f32 := broadcastInDim S131072x513 ![] bcast_S_S131072x513 main_cst
  let main_v2 : IVec S131072x513 1 := cmpf .olt main_v0 main_v1
  let main_c : IVec S_ 1 := constantI S_ 1 1#1
  let main_v3 : IVec S_ 1 := (fun x v => Host.reduce IntOp.andi x v reducesTo_S131072x513_S_d0_1 h_S_) main_v2 main_c
  let main_v4 : FVec F S3x4x256x32 .f32 := Host.absf main_arg1
  let main_cst_0 : FVec F S_ .f32 := constant S_ .f32 0x7F800000#32
  let main_v5 : FVec F S3x4x256x32 .f32 := broadcastInDim S3x4x256x32 ![] bcast_S_S3x4x256x32 main_cst_0
  let main_v6 : IVec S3x4x256x32 1 := cmpf .olt main_v4 main_v5
  let main_c_1 : IVec S_ 1 := constantI S_ 1 1#1
  let main_v7 : IVec S_ 1 := (fun x v => Host.reduce IntOp.andi x v reducesTo_S3x4x256x32_S_d0_1_2_3 h_S_) main_v6 main_c_1
  let main_v8 : IVec S_ 1 := andi main_v3 main_v7
  let main_v9 : FVec F S3x4x32 .f32 := Host.absf main_arg2
  let main_cst_2 : FVec F S_ .f32 := constant S_ .f32 0x7F800000#32
  let main_v10 : FVec F S3x4x32 .f32 := broadcastInDim S3x4x32 ![] bcast_S_S3x4x32 main_cst_2
  let main_v11 : IVec S3x4x32 1 := cmpf .olt main_v9 main_v10
  let main_c_3 : IVec S_ 1 := constantI S_ 1 1#1
  let main_v12 : IVec S_ 1 := (fun x v => Host.reduce IntOp.andi x v reducesTo_S3x4x32_S_d0_1_2 h_S_) main_v11 main_c_3
  let main_v13 : IVec S_ 1 := andi main_v8 main_v12
  let main_v14 : FVec F S3x4x32x256 .f32 := Host.absf main_arg3
  let main_cst_4 : FVec F S_ .f32 := constant S_ .f32 0x7F800000#32
  let main_v15 : FVec F S3x4x32x256 .f32 := broadcastInDim S3x4x32x256 ![] bcast_S_S3x4x32x256 main_cst_4
  let main_v16 : IVec S3x4x32x256 1 := cmpf .olt main_v14 main_v15
  fn_part1 (F := F) main_arg4 main_v13 main_v16
-- ==== Kernel.lean ====
abbrev S131072x513 : Shape := ⟨2, ![131072, 513]⟩
abbrev S3x4x256x32 : Shape := ⟨4, ![3, 4, 256, 32]⟩
abbrev S3x4x32 : Shape := ⟨3, ![3, 4, 32]⟩
abbrev S3x4x32x256 : Shape := ⟨4, ![3, 4, 32, 256]⟩
abbrev S3x4x256 : Shape := ⟨3, ![3, 4, 256]⟩
abbrev S_ : Shape := ⟨0, ![]⟩
abbrev S3x32x256 : Shape := ⟨3, ![3, 32, 256]⟩
abbrev S3x1x256x32 : Shape := ⟨4, ![3, 1, 256, 32]⟩
abbrev S3x256x32 : Shape := ⟨3, ![3, 256, 32]⟩
abbrev S3x256x64 : Shape := ⟨3, ![3, 256, 64]⟩
abbrev S3x1x32 : Shape := ⟨3, ![3, 1, 32]⟩
abbrev S3x32 : Shape := ⟨2, ![3, 32]⟩
abbrev S3x64 : Shape := ⟨2, ![3, 64]⟩
abbrev S3x1x32x256 : Shape := ⟨4, ![3, 1, 32, 256]⟩
abbrev S3x32x512 : Shape := ⟨3, ![3, 32, 512]⟩
abbrev S3x64x512 : Shape := ⟨3, ![3, 64, 512]⟩
abbrev S3x1x256 : Shape := ⟨3, ![3, 1, 256]⟩
abbrev S3x256 : Shape := ⟨2, ![3, 256]⟩
abbrev S3x512 : Shape := ⟨2, ![3, 512]⟩
abbrev S3x1x256x64 : Shape := ⟨4, ![3, 1, 256, 64]⟩
abbrev S3x2x256x64 : Shape := ⟨4, ![3, 2, 256, 64]⟩
abbrev S3x1x64 : Shape := ⟨3, ![3, 1, 64]⟩
abbrev S3x2x64 : Shape := ⟨3, ![3, 2, 64]⟩
abbrev S3x1x64x512 : Shape := ⟨4, ![3, 1, 64, 512]⟩
abbrev S3x2x64x512 : Shape := ⟨4, ![3, 2, 64, 512]⟩
abbrev S3x1x512 : Shape := ⟨3, ![3, 1, 512]⟩
abbrev S3x2x512 : Shape := ⟨3, ![3, 2, 512]⟩
abbrev S2048x513 : Shape := ⟨2, ![2048, 513]⟩
abbrev S2048x256 : Shape := ⟨2, ![2048, 256]⟩
abbrev S2048x1 : Shape := ⟨2, ![2048, 1]⟩
abbrev S1x1x256x64 : Shape := ⟨4, ![1, 1, 256, 64]⟩
abbrev S256x64 : Shape := ⟨2, ![256, 64]⟩
abbrev S1x1x64 : Shape := ⟨3, ![1, 1, 64]⟩
abbrev S64 : Shape := ⟨1, ![64]⟩
abbrev S1x1x64x512 : Shape := ⟨4, ![1, 1, 64, 512]⟩
abbrev S64x512 : Shape := ⟨2, ![64, 512]⟩
abbrev S1x1x512 : Shape := ⟨3, ![1, 1, 512]⟩
abbrev S512 : Shape := ⟨1, ![512]⟩
abbrev S2048x64 : Shape := ⟨2, ![2048, 64]⟩
abbrev S1x64 : Shape := ⟨2, ![1, 64]⟩
abbrev S2048x512 : Shape := ⟨2, ![2048, 512]⟩
abbrev S1x512 : Shape := ⟨2, ![1, 512]⟩

abbrev nBuf : Space → Nat
  | .hbm => 66
  | .vmem => 8
  | .smem => 0
  | _ => 0

abbrev bufTy : (tb : Table) → Fin (tcTables nBuf tb) → BufTy
  | .hbm, ⟨0, _⟩ => ⟨S131072x513, .f32⟩
  | .hbm, ⟨1, _⟩ => ⟨S3x4x256x32, .f32⟩
  | .hbm, ⟨2, _⟩ => ⟨S3x4x32, .f32⟩
  | .hbm, ⟨3, _⟩ => ⟨S3x4x32x256, .f32⟩
  | .hbm, ⟨4, _⟩ => ⟨S3x4x256, .f32⟩
  | .hbm, ⟨5, _⟩ => ⟨S_, .f32⟩
  | .hbm, ⟨6, _⟩ => ⟨S3x32x256, .f32⟩
  | .hbm, ⟨7, _⟩ => ⟨S3x1x256x32, .f32⟩
  | .hbm, ⟨8, _⟩ => ⟨S3x256x32, .f32⟩
  | .hbm, ⟨9, _⟩ => ⟨S3x1x256x32, .f32⟩
  | .hbm, ⟨10, _⟩ => ⟨S3x256x32, .f32⟩
  | .hbm, ⟨11, _⟩ => ⟨S3x256x64, .f32⟩
  | .hbm, ⟨12, _⟩ => ⟨S3x1x32, .f32⟩
  | .hbm, ⟨13, _⟩ => ⟨S3x32, .f32⟩
  | .hbm, ⟨14, _⟩ => ⟨S3x1x32, .f32⟩
  | .hbm, ⟨15, _⟩ => ⟨S3x32, .f32⟩
  | .hbm, ⟨16, _⟩ => ⟨S3x64, .f32⟩
  | .hbm, ⟨17, _⟩ => ⟨S3x1x32x256, .f32⟩
  | .hbm, ⟨18, _⟩ => ⟨S3x32x256, .f32⟩
  | .hbm, ⟨19, _⟩ => ⟨S3x32x512, .f32⟩
  | .hbm, ⟨20, _⟩ => ⟨S3x1x32x256, .f32⟩
  | .hbm, ⟨21, _⟩ => ⟨S3x32x256, .f32⟩
  | .hbm, ⟨22, _⟩ => ⟨S3x32x512, .f32⟩
  | .hbm, ⟨23, _⟩ => ⟨S3x64x512, .f32⟩
  | .hbm, ⟨24, _⟩ => ⟨S3x1x256, .f32⟩
  | .hbm, ⟨25, _⟩ => ⟨S3x256, .f32⟩
  | .hbm, ⟨26, _⟩ => ⟨S3x1x256, .f32⟩
  | .hbm, ⟨27, _⟩ => ⟨S3x256, .f32⟩
  | .hbm, ⟨28, _⟩ => ⟨S3x512, .f32⟩
  | .hbm, ⟨29, _⟩ => ⟨S3x1x256x32, .f32⟩
  | .hbm, ⟨30, _⟩ => ⟨S3x256x32, .f32⟩
  | .hbm, ⟨31, _⟩ => ⟨S3x1x256x32, .f32⟩
  | .hbm, ⟨32, _⟩ => ⟨S3x256x32, .f32⟩
  | .hbm, ⟨33, _⟩ => ⟨S3x256x64, .f32⟩
  | .hbm, ⟨34, _⟩ => ⟨S3x1x32, .f32⟩
  | .hbm, ⟨35, _⟩ => ⟨S3x32, .f32⟩
  | .hbm, ⟨36, _⟩ => ⟨S3x1x32, .f32⟩
  | .hbm, ⟨37, _⟩ => ⟨S3x32, .f32⟩
  | .hbm, ⟨38, _⟩ => ⟨S3x64, .f32⟩
  | .hbm, ⟨39, _⟩ => ⟨S3x1x32x256, .f32⟩
  | .hbm, ⟨40, _⟩ => ⟨S3x32x256, .f32⟩
  | .hbm, ⟨41, _⟩ => ⟨S3x32x512, .f32⟩
  | .hbm, ⟨42, _⟩ => ⟨S3x1x32x256, .f32⟩
  | .hbm, ⟨43, _⟩ => ⟨S3x32x256, .f32⟩
  | .hbm, ⟨44, _⟩ => ⟨S3x32x512, .f32⟩
  | .hbm, ⟨45, _⟩ => ⟨S3x64x512, .f32⟩
  | .hbm, ⟨46, _⟩ => ⟨S3x1x256, .f32⟩
  | .hbm, ⟨47, _⟩ => ⟨S3x256, .f32⟩
  | .hbm, ⟨48, _⟩ => ⟨S3x1x256, .f32⟩
  | .hbm, ⟨49, _⟩ => ⟨S3x256, .f32⟩
  | .hbm, ⟨50, _⟩ => ⟨S3x512, .f32⟩
  | .hbm, ⟨51, _⟩ => ⟨S3x1x256x64, .f32⟩
  | .hbm, ⟨52, _⟩ => ⟨S3x1x256x64, .f32⟩
  | .hbm, ⟨53, _⟩ => ⟨S3x2x256x64, .f32⟩
  | .hbm, ⟨54, _⟩ => ⟨S3x1x64, .f32⟩
  | .hbm, ⟨55, _⟩ => ⟨S3x1x64, .f32⟩
  | .hbm, ⟨56, _⟩ => ⟨S3x2x64, .f32⟩
  | .hbm, ⟨57, _⟩ => ⟨S3x1x64x512, .f32⟩
  | .hbm, ⟨58, _⟩ => ⟨S3x1x64x512, .f32⟩
  | .hbm, ⟨59, _⟩ => ⟨S3x2x64x512, .f32⟩
  | .hbm, ⟨60, _⟩ => ⟨S3x1x512, .f32⟩
  | .hbm, ⟨61, _⟩ => ⟨S3x1x512, .f32⟩
  | .hbm, ⟨62, _⟩ => ⟨S3x2x512, .f32⟩
  | .hbm, ⟨63, _⟩ => ⟨S3x2x256x64, .bf16⟩
  | .hbm, ⟨64, _⟩ => ⟨S3x2x64x512, .bf16⟩
  | .hbm, ⟨65, _⟩ => ⟨S131072x513, .f32⟩
  | .local _ .vmem, ⟨0, _⟩ => ⟨S2048x513, .f32⟩
  | .local _ .vmem, ⟨1, _⟩ => ⟨S2048x513, .f32⟩
  | .local _ .vmem, ⟨2, _⟩ => ⟨S3x2x256x64, .bf16⟩
  | .local _ .vmem, ⟨3, _⟩ => ⟨S3x2x64, .f32⟩
  | .local _ .vmem, ⟨4, _⟩ => ⟨S3x2x64x512, .bf16⟩
  | .local _ .vmem, ⟨5, _⟩ => ⟨S3x2x512, .f32⟩
  | .local _ .vmem, ⟨6, _⟩ => ⟨S2048x513, .f32⟩
  | .local _ .vmem, ⟨7, _⟩ => ⟨S2048x513, .f32⟩
  | _, _ => ⟨S131072x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x513 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x513 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S3x32x256 : S_.BroadcastsInDim S3x32x256 (![] : Fin 0 → Fin S3x32x256.rank)
  slices_S3x4x256x32_S3x1x256x32_0_1_0_0 : S3x4x256x32.Slices ![0, 1, 0, 0] S3x1x256x32
  shapeCasts_S3x1x256x32_S3x256x32 : S3x1x256x32.ShapeCasts S3x256x32
  slices_S3x4x256x32_S3x1x256x32_0_3_0_0 : S3x4x256x32.Slices ![0, 3, 0, 0] S3x1x256x32
  concatenates_S3x256x32_S3x256x32_S3x256x64_d2 : Shape.Concatenates [S3x256x32, S3x256x32] S3x256x64 2
  slices_S3x4x32_S3x1x32_0_1_0 : S3x4x32.Slices ![0, 1, 0] S3x1x32
  shapeCasts_S3x1x32_S3x32 : S3x1x32.ShapeCasts S3x32
  slices_S3x4x32_S3x1x32_0_3_0 : S3x4x32.Slices ![0, 3, 0] S3x1x32
  concatenates_S3x32_S3x32_S3x64_d1 : Shape.Concatenates [S3x32, S3x32] S3x64 1
  slices_S3x4x32x256_S3x1x32x256_0_1_0_0 : S3x4x32x256.Slices ![0, 1, 0, 0] S3x1x32x256
  shapeCasts_S3x1x32x256_S3x32x256 : S3x1x32x256.ShapeCasts S3x32x256
  concatenates_S3x32x256_S3x32x256_S3x32x512_d2 : Shape.Concatenates [S3x32x256, S3x32x256] S3x32x512 2
  slices_S3x4x32x256_S3x1x32x256_0_3_0_0 : S3x4x32x256.Slices ![0, 3, 0, 0] S3x1x32x256
  concatenates_S3x32x512_S3x32x512_S3x64x512_d1 : Shape.Concatenates [S3x32x512, S3x32x512] S3x64x512 1
  slices_S3x4x256_S3x1x256_0_1_0 : S3x4x256.Slices ![0, 1, 0] S3x1x256
  shapeCasts_S3x1x256_S3x256 : S3x1x256.ShapeCasts S3x256
  slices_S3x4x256_S3x1x256_0_3_0 : S3x4x256.Slices ![0, 3, 0] S3x1x256
  concatenates_S3x256_S3x256_S3x512_d1 : Shape.Concatenates [S3x256, S3x256] S3x512 1
  slices_S3x4x256x32_S3x1x256x32_0_0_0_0 : S3x4x256x32.Slices ![0, 0, 0, 0] S3x1x256x32
  slices_S3x4x256x32_S3x1x256x32_0_2_0_0 : S3x4x256x32.Slices ![0, 2, 0, 0] S3x1x256x32
  slices_S3x4x32_S3x1x32_0_0_0 : S3x4x32.Slices ![0, 0, 0] S3x1x32
  slices_S3x4x32_S3x1x32_0_2_0 : S3x4x32.Slices ![0, 2, 0] S3x1x32
  slices_S3x4x32x256_S3x1x32x256_0_0_0_0 : S3x4x32x256.Slices ![0, 0, 0, 0] S3x1x32x256
  slices_S3x4x32x256_S3x1x32x256_0_2_0_0 : S3x4x32x256.Slices ![0, 2, 0, 0] S3x1x32x256
  slices_S3x4x256_S3x1x256_0_0_0 : S3x4x256.Slices ![0, 0, 0] S3x1x256
  slices_S3x4x256_S3x1x256_0_2_0 : S3x4x256.Slices ![0, 2, 0] S3x1x256
  bcast_S3x256x64_S3x1x256x64_0_2_3 : S3x256x64.BroadcastsInDim S3x1x256x64 (![0, 2, 3] : Fin 3 → Fin S3x1x256x64.rank)
  concatenates_S3x1x256x64_S3x1x256x64_S3x2x256x64_d1 : Shape.Concatenates [S3x1x256x64, S3x1x256x64] S3x2x256x64 1
  bcast_S3x64_S3x1x64_0_2 : S3x64.BroadcastsInDim S3x1x64 (![0, 2] : Fin 2 → Fin S3x1x64.rank)
  concatenates_S3x1x64_S3x1x64_S3x2x64_d1 : Shape.Concatenates [S3x1x64, S3x1x64] S3x2x64 1
  bcast_S3x64x512_S3x1x64x512_0_2_3 : S3x64x512.BroadcastsInDim S3x1x64x512 (![0, 2, 3] : Fin 3 → Fin S3x1x64x512.rank)
  concatenates_S3x1x64x512_S3x1x64x512_S3x2x64x512_d1 : Shape.Concatenates [S3x1x64x512, S3x1x64x512] S3x2x64x512 1
  bcast_S3x512_S3x1x512_0_2 : S3x512.BroadcastsInDim S3x1x512 (![0, 2] : Fin 2 → Fin S3x1x512.rank)
  concatenates_S3x1x512_S3x1x512_S3x2x512_d1 : Shape.Concatenates [S3x1x512, S3x1x512] S3x2x512 1
  bitsLt_bf16_f32 : FTy.bits .bf16 < FTy.bits .f32
  inb_S2048x513_S2048x256_0_0 : ∀ a, (![0, 0] : Fin 2 → Nat) a + S2048x256.size a ≤ S2048x513.size a
  h_S2048x256 : 0 < S2048x256.numel
  inb_S2048x513_S2048x256_0_256 : ∀ a, (![0, 256] : Fin 2 → Nat) a + S2048x256.size a ≤ S2048x513.size a
  inb_S2048x513_S2048x1_0_512 : ∀ a, (![0, 512] : Fin 2 → Nat) a + S2048x1.size a ≤ S2048x513.size a
  h_S2048x1 : 0 < S2048x1.numel
  inb_S3x2x256x64_S1x1x256x64_0_0_0_0 : ∀ a, (![0, 0, 0, 0] : Fin 4 → Nat) a + S1x1x256x64.size a ≤ S3x2x256x64.size a
  h_S1x1x256x64 : 0 < S1x1x256x64.numel
  shapeCasts_S1x1x256x64_S256x64 : S1x1x256x64.ShapeCasts S256x64
  inb_S3x2x64_S1x1x64_0_0_0 : ∀ a, (![0, 0, 0] : Fin 3 → Nat) a + S1x1x64.size a ≤ S3x2x64.size a
  h_S1x1x64 : 0 < S1x1x64.numel
  shapeCasts_S1x1x64_S64 : S1x1x64.ShapeCasts S64
  inb_S3x2x64x512_S1x1x64x512_0_0_0_0 : ∀ a, (![0, 0, 0, 0] : Fin 4 → Nat) a + S1x1x64x512.size a ≤ S3x2x64x512.size a
  h_S1x1x64x512 : 0 < S1x1x64x512.numel
  shapeCasts_S1x1x64x512_S64x512 : S1x1x64x512.ShapeCasts S64x512
  inb_S3x2x512_S1x1x512_0_0_0 : ∀ a, (![0, 0, 0] : Fin 3 → Nat) a + S1x1x512.size a ≤ S3x2x512.size a
  h_S1x1x512 : 0 < S1x1x512.numel
  shapeCasts_S1x1x512_S512 : S1x1x512.ShapeCasts S512
  shapeCasts_S64_S1x64 : S64.ShapeCasts S1x64
  broadcasts_S1x64_S2048x64 : S1x64.Broadcasts S2048x64
  shapeCasts_S512_S1x512 : S512.ShapeCasts S1x512
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  inb_S3x2x256x64_S1x1x256x64_0_1_0_0 : ∀ a, (![0, 1, 0, 0] : Fin 4 → Nat) a + S1x1x256x64.size a ≤ S3x2x256x64.size a
  inb_S3x2x64_S1x1x64_0_1_0 : ∀ a, (![0, 1, 0] : Fin 3 → Nat) a + S1x1x64.size a ≤ S3x2x64.size a
  inb_S3x2x64x512_S1x1x64x512_0_1_0_0 : ∀ a, (![0, 1, 0, 0] : Fin 4 → Nat) a + S1x1x64x512.size a ≤ S3x2x64x512.size a
  inb_S3x2x512_S1x1x512_0_1_0 : ∀ a, (![0, 1, 0] : Fin 3 → Nat) a + S1x1x512.size a ≤ S3x2x512.size a
  inb_S3x2x256x64_S1x1x256x64_1_0_0_0 : ∀ a, (![1, 0, 0, 0] : Fin 4 → Nat) a + S1x1x256x64.size a ≤ S3x2x256x64.size a
  inb_S3x2x64_S1x1x64_1_0_0 : ∀ a, (![1, 0, 0] : Fin 3 → Nat) a + S1x1x64.size a ≤ S3x2x64.size a
  inb_S3x2x64x512_S1x1x64x512_1_0_0_0 : ∀ a, (![1, 0, 0, 0] : Fin 4 → Nat) a + S1x1x64x512.size a ≤ S3x2x64x512.size a
  inb_S3x2x512_S1x1x512_1_0_0 : ∀ a, (![1, 0, 0] : Fin 3 → Nat) a + S1x1x512.size a ≤ S3x2x512.size a
  inb_S3x2x256x64_S1x1x256x64_1_1_0_0 : ∀ a, (![1, 1, 0, 0] : Fin 4 → Nat) a + S1x1x256x64.size a ≤ S3x2x256x64.size a
  inb_S3x2x64_S1x1x64_1_1_0 : ∀ a, (![1, 1, 0] : Fin 3 → Nat) a + S1x1x64.size a ≤ S3x2x64.size a
  inb_S3x2x64x512_S1x1x64x512_1_1_0_0 : ∀ a, (![1, 1, 0, 0] : Fin 4 → Nat) a + S1x1x64x512.size a ≤ S3x2x64x512.size a
  inb_S3x2x512_S1x1x512_1_1_0 : ∀ a, (![1, 1, 0] : Fin 3 → Nat) a + S1x1x512.size a ≤ S3x2x512.size a
  inb_S3x2x256x64_S1x1x256x64_2_0_0_0 : ∀ a, (![2, 0, 0, 0] : Fin 4 → Nat) a + S1x1x256x64.size a ≤ S3x2x256x64.size a
  inb_S3x2x64_S1x1x64_2_0_0 : ∀ a, (![2, 0, 0] : Fin 3 → Nat) a + S1x1x64.size a ≤ S3x2x64.size a
  inb_S3x2x64x512_S1x1x64x512_2_0_0_0 : ∀ a, (![2, 0, 0, 0] : Fin 4 → Nat) a + S1x1x64x512.size a ≤ S3x2x64x512.size a
  inb_S3x2x512_S1x1x512_2_0_0 : ∀ a, (![2, 0, 0] : Fin 3 → Nat) a + S1x1x512.size a ≤ S3x2x512.size a
  inb_S3x2x256x64_S1x1x256x64_2_1_0_0 : ∀ a, (![2, 1, 0, 0] : Fin 4 → Nat) a + S1x1x256x64.size a ≤ S3x2x256x64.size a
  inb_S3x2x64_S1x1x64_2_1_0 : ∀ a, (![2, 1, 0] : Fin 3 → Nat) a + S1x1x64.size a ≤ S3x2x64.size a
  inb_S3x2x64x512_S1x1x64x512_2_1_0_0 : ∀ a, (![2, 1, 0, 0] : Fin 4 → Nat) a + S1x1x64x512.size a ≤ S3x2x64x512.size a
  inb_S3x2x512_S1x1x512_2_1_0 : ∀ a, (![2, 1, 0] : Fin 3 → Nat) a + S1x1x512.size a ≤ S3x2x512.size a
  dot_S2048x256_S256x64_S2048x64_1_0_0_1_n_n_wf : DotDims.WF S2048x256 S256x64 S2048x64 [1] [0] [0] [1] [] []
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x513.size a ≤ S131072x513.size a
  hwx0_0 : ∀ i : grid0.Coords, EltTy.bits .f32 = 32 ∨ (Rect.block (s := S131072x513) S2048x513.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x2x256x64.size a ≤ S3x2x256x64.size a
  hwx0_1 : ∀ i : grid0.Coords, EltTy.bits .bf16 = 32 ∨ (Rect.block (s := S3x2x256x64) S3x2x256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x2x64.size a ≤ S3x2x64.size a
  hwx0_2 : ∀ i : grid0.Coords, EltTy.bits .f32 = 32 ∨ (Rect.block (s := S3x2x64) S3x2x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2x64x512.size a ≤ S3x2x64x512.size a
  hwx0_3 : ∀ i : grid0.Coords, EltTy.bits .bf16 = 32 ∨ (Rect.block (s := S3x2x64x512) S3x2x64x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2x512.size a ≤ S3x2x512.size a
  hwx0_4 : ∀ i : grid0.Coords, EltTy.bits .f32 = 32 ∨ (Rect.block (s := S3x2x512) S3x2x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x513.size a ≤ S131072x513.size a
  hwx0_5 : ∀ i : grid0.Coords, EltTy.bits .f32 = 32 ∨ (Rect.block (s := S131072x513) S2048x513.size (cc0_transform_5 i) (hinb0_5 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_arg0) S2048x513.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S3x2x256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S3x2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S3x2x64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S3x2x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S2048x513.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x513 : Shape := ⟨2, ![131072, 513]⟩
abbrev S3x4x256x32 : Shape := ⟨4, ![3, 4, 256, 32]⟩
abbrev S3x4x32 : Shape := ⟨3, ![3, 4, 32]⟩
abbrev S3x4x32x256 : Shape := ⟨4, ![3, 4, 32, 256]⟩
abbrev S3x4x256 : Shape := ⟨3, ![3, 4, 256]⟩
abbrev S131072x256 : Shape := ⟨2, ![131072, 256]⟩
abbrev S131072x1 : Shape := ⟨2, ![131072, 1]⟩
abbrev S1x1x256x32 : Shape := ⟨4, ![1, 1, 256, 32]⟩
abbrev S256x32 : Shape := ⟨2, ![256, 32]⟩
abbrev S1x1x32 : Shape := ⟨3, ![1, 1, 32]⟩
abbrev S32 : Shape := ⟨1, ![32]⟩
abbrev S1x1x32x256 : Shape := ⟨4, ![1, 1, 32, 256]⟩
abbrev S32x256 : Shape := ⟨2, ![32, 256]⟩
abbrev S1x1x256 : Shape := ⟨3, ![1, 1, 256]⟩
abbrev S256 : Shape := ⟨1, ![256]⟩
abbrev S131072x32 : Shape := ⟨2, ![131072, 32]⟩
abbrev S1x32 : Shape := ⟨2, ![1, 32]⟩
abbrev S1x256 : Shape := ⟨2, ![1, 256]⟩

abbrev nBuf : Space → Nat
  | .hbm => 231
  | .vmem => 0
  | .smem => 0
  | _ => 0

abbrev hbmTy0_0 (i : Nat) : BufTy := match i % 128 with
  | 0 => ⟨S131072x513, .f32⟩
  | 1 => ⟨S3x4x256x32, .f32⟩
  | 2 => ⟨S3x4x32, .f32⟩
  | 3 => ⟨S3x4x32x256, .f32⟩
  | 4 => ⟨S3x4x256, .f32⟩
  | 5 => ⟨S131072x256, .f32⟩
  | 6 => ⟨S131072x256, .f32⟩
  | 7 => ⟨S131072x1, .f32⟩
  | 8 => ⟨S1x1x256x32, .f32⟩
  | 9 => ⟨S256x32, .f32⟩
  | 10 => ⟨S1x1x32, .f32⟩
  | 11 => ⟨S32, .f32⟩
  | 12 => ⟨S1x1x32x256, .f32⟩
  | 13 => ⟨S32x256, .f32⟩
  | 14 => ⟨S1x1x256, .f32⟩
  | 15 => ⟨S256, .f32⟩
  | 16 => ⟨S131072x32, .f32⟩
  | 17 => ⟨S1x32, .f32⟩
  | 18 => ⟨S131072x32, .f32⟩
  | 19 => ⟨S131072x32, .f32⟩
  | 20 => ⟨S131072x32, .f32⟩
  | 21 => ⟨S131072x256, .f32⟩
  | 22 => ⟨S1x256, .f32⟩
  | 23 => ⟨S131072x256, .f32⟩
  | 24 => ⟨S131072x256, .f32⟩
  | 25 => ⟨S131072x256, .f32⟩
  | 26 => ⟨S131072x256, .f32⟩
  | 27 => ⟨S1x1x256x32, .f32⟩
  | 28 => ⟨S256x32, .f32⟩
  | 29 => ⟨S1x1x32, .f32⟩
  | 30 => ⟨S32, .f32⟩
  | 31 => ⟨S1x1x32x256, .f32⟩
  | 32 => ⟨S32x256, .f32⟩
  | 33 => ⟨S1x1x256, .f32⟩
  | 34 => ⟨S256, .f32⟩
  | 35 => ⟨S131072x32, .f32⟩
  | 36 => ⟨S1x32, .f32⟩
  | 37 => ⟨S131072x32, .f32⟩
  | 38 => ⟨S131072x32, .f32⟩
  | 39 => ⟨S131072x32, .f32⟩
  | 40 => ⟨S131072x256, .f32⟩
  | 41 => ⟨S1x256, .f32⟩
  | 42 => ⟨S131072x256, .f32⟩
  | 43 => ⟨S131072x256, .f32⟩
  | 44 => ⟨S131072x256, .f32⟩
  | 45 => ⟨S1x1x256x32, .f32⟩
  | 46 => ⟨S256x32, .f32⟩
  | 47 => ⟨S1x1x32, .f32⟩
  | 48 => ⟨S32, .f32⟩
  | 49 => ⟨S1x1x32x256, .f32⟩
  | 50 => ⟨S32x256, .f32⟩
  | 51 => ⟨S1x1x256, .f32⟩
  | 52 => ⟨S256, .f32⟩
  | 53 => ⟨S131072x32, .f32⟩
  | 54 => ⟨S1x32, .f32⟩
  | 55 => ⟨S131072x32, .f32⟩
  | 56 => ⟨S131072x32, .f32⟩
  | 57 => ⟨S131072x32, .f32⟩
  | 58 => ⟨S131072x256, .f32⟩
  | 59 => ⟨S1x256, .f32⟩
  | 60 => ⟨S131072x256, .f32⟩
  | 61 => ⟨S131072x256, .f32⟩
  | 62 => ⟨S131072x256, .f32⟩
  | 63 => ⟨S131072x256, .f32⟩
  | 64 => ⟨S1x1x256x32, .f32⟩
  | 65 => ⟨S256x32, .f32⟩
  | 66 => ⟨S1x1x32, .f32⟩
  | 67 => ⟨S32, .f32⟩
  | 68 => ⟨S1x1x32x256, .f32⟩
  | 69 => ⟨S32x256, .f32⟩
  | 70 => ⟨S1x1x256, .f32⟩
  | 71 => ⟨S256, .f32⟩
  | 72 => ⟨S131072x32, .f32⟩
  | 73 => ⟨S1x32, .f32⟩
  | 74 => ⟨S131072x32, .f32⟩
  | 75 => ⟨S131072x32, .f32⟩
  | 76 => ⟨S131072x32, .f32⟩
  | 77 => ⟨S131072x256, .f32⟩
  | 78 => ⟨S1x256, .f32⟩
  | 79 => ⟨S131072x256, .f32⟩
  | 80 => ⟨S131072x256, .f32⟩
  | 81 => ⟨S131072x256, .f32⟩
  | 82 => ⟨S1x1x256x32, .f32⟩
  | 83 => ⟨S256x32, .f32⟩
  | 84 => ⟨S1x1x32, .f32⟩
  | 85 => ⟨S32, .f32⟩
  | 86 => ⟨S1x1x32x256, .f32⟩
  | 87 => ⟨S32x256, .f32⟩
  | 88 => ⟨S1x1x256, .f32⟩
  | 89 => ⟨S256, .f32⟩
  | 90 => ⟨S131072x32, .f32⟩
  | 91 => ⟨S1x32, .f32⟩
  | 92 => ⟨S131072x32, .f32⟩
  | 93 => ⟨S131072x32, .f32⟩
  | 94 => ⟨S131072x32, .f32⟩
  | 95 => ⟨S131072x256, .f32⟩
  | 96 => ⟨S1x256, .f32⟩
  | 97 => ⟨S131072x256, .f32⟩
  | 98 => ⟨S131072x256, .f32⟩
  | 99 => ⟨S131072x256, .f32⟩
  | 100 => ⟨S131072x256, .f32⟩
  | 101 => ⟨S1x1x256x32, .f32⟩
  | 102 => ⟨S256x32, .f32⟩
  | 103 => ⟨S1x1x32, .f32⟩
  | 104 => ⟨S32, .f32⟩
  | 105 => ⟨S1x1x32x256, .f32⟩
  | 106 => ⟨S32x256, .f32⟩
  | 107 => ⟨S1x1x256, .f32⟩
  | 108 => ⟨S256, .f32⟩
  | 109 => ⟨S131072x32, .f32⟩
  | 110 => ⟨S1x32, .f32⟩
  | 111 => ⟨S131072x32, .f32⟩
  | 112 => ⟨S131072x32, .f32⟩
  | 113 => ⟨S131072x32, .f32⟩
  | 114 => ⟨S131072x256, .f32⟩
  | 115 => ⟨S1x256, .f32⟩
  | 116 => ⟨S131072x256, .f32⟩
  | 117 => ⟨S131072x256, .f32⟩
  | 118 => ⟨S131072x256, .f32⟩
  | 119 => ⟨S1x1x256x32, .f32⟩
  | 120 => ⟨S256x32, .f32⟩
  | 121 => ⟨S1x1x32, .f32⟩
  | 122 => ⟨S32, .f32⟩
  | 123 => ⟨S1x1x32x256, .f32⟩
  | 124 => ⟨S32x256, .f32⟩
  | 125 => ⟨S1x1x256, .f32⟩
  | 126 => ⟨S256, .f32⟩
  | 127 => ⟨S131072x32, .f32⟩
  | _ => ⟨S131072x513, .f32⟩

abbrev hbmTy0_1 (i : Nat) : BufTy := match i % 128 with
  | 0 => ⟨S1x32, .f32⟩
  | 1 => ⟨S131072x32, .f32⟩
  | 2 => ⟨S131072x32, .f32⟩
  | 3 => ⟨S131072x32, .f32⟩
  | 4 => ⟨S131072x256, .f32⟩
  | 5 => ⟨S1x256, .f32⟩
  | 6 => ⟨S131072x256, .f32⟩
  | 7 => ⟨S131072x256, .f32⟩
  | 8 => ⟨S131072x256, .f32⟩
  | 9 => ⟨S131072x256, .f32⟩
  | 10 => ⟨S1x1x256x32, .f32⟩
  | 11 => ⟨S256x32, .f32⟩
  | 12 => ⟨S1x1x32, .f32⟩
  | 13 => ⟨S32, .f32⟩
  | 14 => ⟨S1x1x32x256, .f32⟩
  | 15 => ⟨S32x256, .f32⟩
  | 16 => ⟨S1x1x256, .f32⟩
  | 17 => ⟨S256, .f32⟩
  | 18 => ⟨S131072x32, .f32⟩
  | 19 => ⟨S1x32, .f32⟩
  | 20 => ⟨S131072x32, .f32⟩
  | 21 => ⟨S131072x32, .f32⟩
  | 22 => ⟨S131072x32, .f32⟩
  | 23 => ⟨S131072x256, .f32⟩
  | 24 => ⟨S1x256, .f32⟩
  | 25 => ⟨S131072x256, .f32⟩
  | 26 => ⟨S131072x256, .f32⟩
  | 27 => ⟨S131072x256, .f32⟩
  | 28 => ⟨S1x1x256x32, .f32⟩
  | 29 => ⟨S256x32, .f32⟩
  | 30 => ⟨S1x1x32, .f32⟩
  | 31 => ⟨S32, .f32⟩
  | 32 => ⟨S1x1x32x256, .f32⟩
  | 33 => ⟨S32x256, .f32⟩
  | 34 => ⟨S1x1x256, .f32⟩
  | 35 => ⟨S256, .f32⟩
  | 36 => ⟨S131072x32, .f32⟩
  | 37 => ⟨S1x32, .f32⟩
  | 38 => ⟨S131072x32, .f32⟩
  | 39 => ⟨S131072x32, .f32⟩
  | 40 => ⟨S131072x32, .f32⟩
  | 41 => ⟨S131072x256, .f32⟩
  | 42 => ⟨S1x256, .f32⟩
  | 43 => ⟨S131072x256, .f32⟩
  | 44 => ⟨S131072x256, .f32⟩
  | 45 => ⟨S131072x256, .f32⟩
  | 46 => ⟨S131072x256, .f32⟩
  | 47 => ⟨S1x1x256x32, .f32⟩
  | 48 => ⟨S256x32, .f32⟩
  | 49 => ⟨S1x1x32, .f32⟩
  | 50 => ⟨S32, .f32⟩
  | 51 => ⟨S1x1x32x256, .f32⟩
  | 52 => ⟨S32x256, .f32⟩
  | 53 => ⟨S1x1x256, .f32⟩
  | 54 => ⟨S256, .f32⟩
  | 55 => ⟨S131072x32, .f32⟩
  | 56 => ⟨S1x32, .f32⟩
  | 57 => ⟨S131072x32, .f32⟩
  | 58 => ⟨S131072x32, .f32⟩
  | 59 => ⟨S131072x32, .f32⟩
  | 60 => ⟨S131072x256, .f32⟩
  | 61 => ⟨S1x256, .f32⟩
  | 62 => ⟨S131072x256, .f32⟩
  | 63 => ⟨S131072x256, .f32⟩
  | 64 => ⟨S131072x256, .f32⟩
  | 65 => ⟨S1x1x256x32, .f32⟩
  | 66 => ⟨S256x32, .f32⟩
  | 67 => ⟨S1x1x32, .f32⟩
  | 68 => ⟨S32, .f32⟩
  | 69 => ⟨S1x1x32x256, .f32⟩
  | 70 => ⟨S32x256, .f32⟩
  | 71 => ⟨S1x1x256, .f32⟩
  | 72 => ⟨S256, .f32⟩
  | 73 => ⟨S131072x32, .f32⟩
  | 74 => ⟨S1x32, .f32⟩
  | 75 => ⟨S131072x32, .f32⟩
  | 76 => ⟨S131072x32, .f32⟩
  | 77 => ⟨S131072x32, .f32⟩
  | 78 => ⟨S131072x256, .f32⟩
  | 79 => ⟨S1x256, .f32⟩
  | 80 => ⟨S131072x256, .f32⟩
  | 81 => ⟨S131072x256, .f32⟩
  | 82 => ⟨S131072x256, .f32⟩
  | 83 => ⟨S131072x256, .f32⟩
  | 84 => ⟨S1x1x256x32, .f32⟩
  | 85 => ⟨S256x32, .f32⟩
  | 86 => ⟨S1x1x32, .f32⟩
  | 87 => ⟨S32, .f32⟩
  | 88 => ⟨S1x1x32x256, .f32⟩
  | 89 => ⟨S32x256, .f32⟩
  | 90 => ⟨S1x1x256, .f32⟩
  | 91 => ⟨S256, .f32⟩
  | 92 => ⟨S131072x32, .f32⟩
  | 93 => ⟨S1x32, .f32⟩
  | 94 => ⟨S131072x32, .f32⟩
  | 95 => ⟨S131072x32, .f32⟩
  | 96 => ⟨S131072x32, .f32⟩
  | 97 => ⟨S131072x256, .f32⟩
  | 98 => ⟨S1x256, .f32⟩
  | 99 => ⟨S131072x256, .f32⟩
  | 100 => ⟨S131072x256, .f32⟩
  | 101 => ⟨S131072x256, .f32⟩
  | 102 => ⟨S131072x513, .f32⟩
  | _ => ⟨S131072x513, .f32⟩

abbrev hbmTy (i : Nat) : BufTy := match i / 128 with
  | 0 => hbmTy0_0 i
  | 1 => hbmTy0_1 i
  | _ => ⟨S131072x513, .f32⟩

abbrev bufTy : (tb : Table) → Fin (tcTables nBuf tb) → BufTy
  | .hbm, ⟨i, _⟩ => hbmTy i
  | _, _ => ⟨S131072x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩

abbrev nD : Nat := 1
abbrev τ : Topo := Topo.v7x

variable {F : FTy → Type} [FloatOps F]

class Facts₀ : Prop where
  slices_S131072x513_S131072x256_0_0 : S131072x513.Slices ![0, 0] S131072x256
  slices_S131072x513_S131072x256_0_256 : S131072x513.Slices ![0, 256] S131072x256
  slices_S131072x513_S131072x1_0_512 : S131072x513.Slices ![0, 512] S131072x1
  slices_S3x4x256x32_S1x1x256x32_0_1_0_0 : S3x4x256x32.Slices ![0, 1, 0, 0] S1x1x256x32
  shapeCasts_S1x1x256x32_S256x32 : S1x1x256x32.ShapeCasts S256x32
  slices_S3x4x32_S1x1x32_0_1_0 : S3x4x32.Slices ![0, 1, 0] S1x1x32
  shapeCasts_S1x1x32_S32 : S1x1x32.ShapeCasts S32
  slices_S3x4x32x256_S1x1x32x256_0_1_0_0 : S3x4x32x256.Slices ![0, 1, 0, 0] S1x1x32x256
  shapeCasts_S1x1x32x256_S32x256 : S1x1x32x256.ShapeCasts S32x256
  slices_S3x4x256_S1x1x256_0_1_0 : S3x4x256.Slices ![0, 1, 0] S1x1x256
  shapeCasts_S1x1x256_S256 : S1x1x256.ShapeCasts S256
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S3x4x256x32_S1x1x256x32_0_3_0_0 : S3x4x256x32.Slices ![0, 3, 0, 0] S1x1x256x32
  slices_S3x4x32_S1x1x32_0_3_0 : S3x4x32.Slices ![0, 3, 0] S1x1x32
  slices_S3x4x32x256_S1x1x32x256_0_3_0_0 : S3x4x32x256.Slices ![0, 3, 0, 0] S1x1x32x256
  slices_S3x4x256_S1x1x256_0_3_0 : S3x4x256.Slices ![0, 3, 0] S1x1x256
  slices_S3x4x256x32_S1x1x256x32_0_0_0_0 : S3x4x256x32.Slices ![0, 0, 0, 0] S1x1x256x32
  slices_S3x4x32_S1x1x32_0_0_0 : S3x4x32.Slices ![0, 0, 0] S1x1x32
  slices_S3x4x32x256_S1x1x32x256_0_0_0_0 : S3x4x32x256.Slices ![0, 0, 0, 0] S1x1x32x256
  slices_S3x4x256_S1x1x256_0_0_0 : S3x4x256.Slices ![0, 0, 0] S1x1x256
  slices_S3x4x256x32_S1x1x256x32_0_2_0_0 : S3x4x256x32.Slices ![0, 2, 0, 0] S1x1x256x32
  slices_S3x4x32_S1x1x32_0_2_0 : S3x4x32.Slices ![0, 2, 0] S1x1x32
  slices_S3x4x32x256_S1x1x32x256_0_2_0_0 : S3x4x32x256.Slices ![0, 2, 0, 0] S1x1x32x256
  slices_S3x4x256_S1x1x256_0_2_0 : S3x4x256.Slices ![0, 2, 0] S1x1x256
  slices_S3x4x256x32_S1x1x256x32_1_1_0_0 : S3x4x256x32.Slices ![1, 1, 0, 0] S1x1x256x32
  slices_S3x4x32_S1x1x32_1_1_0 : S3x4x32.Slices ![1, 1, 0] S1x1x32
  slices_S3x4x32x256_S1x1x32x256_1_1_0_0 : S3x4x32x256.Slices ![1, 1, 0, 0] S1x1x32x256
  slices_S3x4x256_S1x1x256_1_1_0 : S3x4x256.Slices ![1, 1, 0] S1x1x256
  slices_S3x4x256x32_S1x1x256x32_1_3_0_0 : S3x4x256x32.Slices ![1, 3, 0, 0] S1x1x256x32
  slices_S3x4x32_S1x1x32_1_3_0 : S3x4x32.Slices ![1, 3, 0] S1x1x32
  slices_S3x4x32x256_S1x1x32x256_1_3_0_0 : S3x4x32x256.Slices ![1, 3, 0, 0] S1x1x32x256
  slices_S3x4x256_S1x1x256_1_3_0 : S3x4x256.Slices ![1, 3, 0] S1x1x256
  slices_S3x4x256x32_S1x1x256x32_1_0_0_0 : S3x4x256x32.Slices ![1, 0, 0, 0] S1x1x256x32
  slices_S3x4x32_S1x1x32_1_0_0 : S3x4x32.Slices ![1, 0, 0] S1x1x32
  slices_S3x4x32x256_S1x1x32x256_1_0_0_0 : S3x4x32x256.Slices ![1, 0, 0, 0] S1x1x32x256
  slices_S3x4x256_S1x1x256_1_0_0 : S3x4x256.Slices ![1, 0, 0] S1x1x256
  slices_S3x4x256x32_S1x1x256x32_1_2_0_0 : S3x4x256x32.Slices ![1, 2, 0, 0] S1x1x256x32
  slices_S3x4x32_S1x1x32_1_2_0 : S3x4x32.Slices ![1, 2, 0] S1x1x32
  slices_S3x4x32x256_S1x1x32x256_1_2_0_0 : S3x4x32x256.Slices ![1, 2, 0, 0] S1x1x32x256
  slices_S3x4x256_S1x1x256_1_2_0 : S3x4x256.Slices ![1, 2, 0] S1x1x256
  slices_S3x4x256x32_S1x1x256x32_2_1_0_0 : S3x4x256x32.Slices ![2, 1, 0, 0] S1x1x256x32
  slices_S3x4x32_S1x1x32_2_1_0 : S3x4x32.Slices ![2, 1, 0] S1x1x32
  slices_S3x4x32x256_S1x1x32x256_2_1_0_0 : S3x4x32x256.Slices ![2, 1, 0, 0] S1x1x32x256
  slices_S3x4x256_S1x1x256_2_1_0 : S3x4x256.Slices ![2, 1, 0] S1x1x256
  slices_S3x4x256x32_S1x1x256x32_2_3_0_0 : S3x4x256x32.Slices ![2, 3, 0, 0] S1x1x256x32
  slices_S3x4x32_S1x1x32_2_3_0 : S3x4x32.Slices ![2, 3, 0] S1x1x32
  slices_S3x4x32x256_S1x1x32x256_2_3_0_0 : S3x4x32x256.Slices ![2, 3, 0, 0] S1x1x32x256
  slices_S3x4x256_S1x1x256_2_3_0 : S3x4x256.Slices ![2, 3, 0] S1x1x256
  slices_S3x4x256x32_S1x1x256x32_2_0_0_0 : S3x4x256x32.Slices ![2, 0, 0, 0] S1x1x256x32
  slices_S3x4x32_S1x1x32_2_0_0 : S3x4x32.Slices ![2, 0, 0] S1x1x32
  slices_S3x4x32x256_S1x1x32x256_2_0_0_0 : S3x4x32x256.Slices ![2, 0, 0, 0] S1x1x32x256
  slices_S3x4x256_S1x1x256_2_0_0 : S3x4x256.Slices ![2, 0, 0] S1x1x256
  slices_S3x4x256x32_S1x1x256x32_2_2_0_0 : S3x4x256x32.Slices ![2, 2, 0, 0] S1x1x256x32
  slices_S3x4x32_S1x1x32_2_2_0 : S3x4x32.Slices ![2, 2, 0] S1x1x32
  slices_S3x4x32x256_S1x1x32x256_2_2_0_0 : S3x4x32x256.Slices ![2, 2, 0, 0] S1x1x32x256
  slices_S3x4x256_S1x1x256_2_2_0 : S3x4x256.Slices ![2, 2, 0] S1x1x256
  concatenates_S131072x256_S131072x256_S131072x1_S131072x513_d1 : Shape.Concatenates [S131072x256, S131072x256, S131072x1] S131072x513 1
  dot_S131072x256_S256x32_S131072x32_1_0_0_1_n_n_wf : DotDims.WF S131072x256 S256x32 S131072x32 [1] [0] [0] [1] [] []
  dot_S131072x32_S32x256_S131072x256_1_0_0_1_n_n_wf : DotDims.WF S131072x32 S32x256 S131072x256 [1] [0] [0] [1] [] []

variable [Facts₀]

def dot_S131072x256_S256x32_S131072x32_1_0_0_1_n_n : DotDims S131072x256 S256x32 S131072x32 where
  lhsContracting := [1]
  rhsContracting := [0]
  lhsNonContracting := [0]
  rhsNonContracting := [1]
  lhsBatch := []
  rhsBatch := []
  wf := dot_S131072x256_S256x32_S131072x32_1_0_0_1_n_n_wf
def dot_S131072x32_S32x256_S131072x256_1_0_0_1_n_n : DotDims S131072x32 S32x256 S131072x256 where
  lhsContracting := [1]
  rhsContracting := [0]
  lhsNonContracting := [0]
  rhsNonContracting := [1]
  lhsBatch := []
  rhsBatch := []
  wf := dot_S131072x32_S32x256_S131072x256_1_0_0_1_n_n_wf

class Facts : Prop extends Facts₀ where

variable [Facts]
-- ==== Proof.Spec.lean ====
/-
  The coupling flow both programs compute, as one function of the argument arrays over the extended reals.

  A row of the input is (u₁, u₂, t): two halves of 256 entries and one pass-through coordinate. A layer j < 3
  holds four perceptrons 256 → 32 → 256 (slots 0..3) and applies two affine couplings,
      v₁ = u₁ · exp(mlp₁ u₂) + mlp₃ u₂ ,   v₂ = u₂ · exp(mlp₀ v₁) + mlp₂ v₁ ,
  and the flow is three layers; the result row is (u₁, u₂, t) after them. Every entry of a result row depends on
  its own input row and the weights only.

  The second form below (`fstep`) runs the scale and the shift perceptrons of one coupling as ONE perceptron with a
  64-unit hidden layer and 512 outputs: the first-layer weights side by side, the second-layer weights block
  diagonal. The two forms agree on all extended reals: the hidden sum over 64 units splits into two sums over 32,
  and in each the units of the other perceptron meet a zero weight, x · 0 = 0 for every extended real x.
-/
import Idealize.ShloMosaic.PureOps.Ideal
import Idealize.ShloMosaic.Lib.ValueIdx
import Mathlib.Algebra.BigOperators.Fin

noncomputable section

namespace Cert.Flow

open Idealize.ShloMosaic Idealize.ShloMosaic.ValueIdx

/-! ## One row through one perceptron -/

/-- Hidden unit `k`: tanh of the row against weight column `k`, plus the bias. -/
def hid {n : ℕ} (h : Fin 256 → EReal) (W : Fin 256 → Fin n → EReal) (b : Fin n → EReal) (k : Fin n) : EReal :=
  Ideal.tanh ((∑ q : Fin 256, h q * W q k) + b k)

/-- Output `c` of the perceptron 256 → 32 → 256 on the row `h`. -/
def mlp (h : Fin 256 → EReal) (W1 : Fin 256 → Fin 32 → EReal) (b1 : Fin 32 → EReal)
    (W2 : Fin 32 → Fin 256 → EReal) (b2 : Fin 256 → EReal) (c : Fin 256) : EReal :=
  (∑ k : Fin 32, hid h W1 b1 k * W2 k c) + b2 c

/-- The weights: layer `j < 3`, slot `a < 4`. -/
structure Params where
  W1 : Fin 3 → Fin 4 → Fin 256 → Fin 32 → EReal
  b1 : Fin 3 → Fin 4 → Fin 32 → EReal
  W2 : Fin 3 → Fin 4 → Fin 32 → Fin 256 → EReal
  b2 : Fin 3 → Fin 4 → Fin 256 → EReal

/-- The weights read out of the four argument arrays. -/
def Params.of (A1 : (⟨4, ![3, 4, 256, 32]⟩ : Shape).Idx → EReal) (A2 : (⟨3, ![3, 4, 32]⟩ : Shape).Idx → EReal)
    (A3 : (⟨4, ![3, 4, 32, 256]⟩ : Shape).Idx → EReal) (A4 : (⟨3, ![3, 4, 256]⟩ : Shape).Idx → EReal) : Params where
  W1 j a q k := A1 (ix4 j a q k)
  b1 j a k := A2 (ix3 j a k)
  W2 j a k c := A3 (ix4 j a k c)
  b2 j a c := A4 (ix3 j a c)

/-- Slot `a` of layer `j` on the row `h`. -/
def Params.mlp (P : Params) (j : Fin 3) (a : Fin 4) (h : Fin 256 → EReal) (c : Fin 256) : EReal :=
  Flow.mlp h (P.W1 j a) (P.b1 j a) (P.W2 j a) (P.b2 j a) c

/-! ## Couplings, layers, the flow -/

/-- One affine coupling: `u · exp(s h) + t h`, the scale `s` slot `a` and the shift `t` slot `b` of layer `j`. -/
def step (P : Params) (j : Fin 3) (a b : Fin 4) (u h : Fin 256 → EReal) (c : Fin 256) : EReal :=
  u c * Ideal.exp (P.mlp j a h c) + P.mlp j b h c

/-- Layer `j`: the first half through slots (1, 3) of the second, then the second through slots (0, 2) of the new first. -/
def layer (P : Params) (j : Fin 3) (u : (Fin 256 → EReal) × (Fin 256 → EReal)) : (Fin 256 → EReal) × (Fin 256 → EReal) :=
  (step P j 1 3 u.1 u.2, step P j 0 2 u.2 (step P j 1 3 u.1 u.2))

/-- The three layers. -/
def flow (P : Params) (u : (Fin 256 → EReal) × (Fin 256 → EReal)) : (Fin 256 → EReal) × (Fin 256 → EReal) :=
  layer P 2 (layer P 1 (layer P 0 u))

/-- Columns of a row of 513: the first half, the second half, the pass-through coordinate. -/
def colA (c : Fin 256) : Fin 513 := ⟨c.val, by omega⟩
def colB (c : Fin 256) : Fin 513 := ⟨256 + c.val, by omega⟩
def colT : Fin 513 := ⟨512, by omega⟩

/-- Every column is one of the three kinds. -/
theorem col_cases (c : Fin 513) : (∃ c', c = colA c') ∨ (∃ c', c = colB c') ∨ c = colT := by
  by_cases h1 : c.val < 256
  · exact Or.inl ⟨⟨c.val, h1⟩, Fin.ext rfl⟩
  · by_cases h2 : c.val < 512
    · exact Or.inr (Or.inl ⟨⟨c.val - 256, by omega⟩, Fin.ext (by show c.val = 256 + (c.val - 256); omega)⟩)
    · exact Or.inr (Or.inr (Fin.ext (by show c.val = 512; omega)))

/-- The two halves of a row. -/
def halves (x : Fin 513 → EReal) : (Fin 256 → EReal) × (Fin 256 → EReal) := (fun q => x (colA q), fun q => x (colB q))

/-- The result row of the input row `x`. -/
def out (P : Params) (x : Fin 513 → EReal) (c : Fin 513) : EReal :=
  if h1 : c.val < 256 then (flow P (halves x)).1 ⟨c.val, h1⟩
  else if h2 : c.val < 512 then (flow P (halves x)).2 ⟨c.val - 256, by omega⟩
  else x c

theorem out_colA (P : Params) (x : Fin 513 → EReal) (c : Fin 256) : out P x (colA c) = (flow P (halves x)).1 c := by
  unfold out; rw [dif_pos (show (colA c).val < 256 from c.isLt)]; rfl

theorem out_colB (P : Params) (x : Fin 513 → EReal) (c : Fin 256) : out P x (colB c) = (flow P (halves x)).2 c := by
  unfold out
  have h1 : ¬ (colB c).val < 256 := by show ¬ (256 + c.val < 256); omega
  have h2 : (colB c).val < 512 := by show 256 + c.val < 512; omega
  rw [dif_neg h1, dif_pos h2]
  exact congrArg _ (Fin.ext (by show 256 + c.val - 256 = c.val; omega))

theorem out_colT (P : Params) (x : Fin 513 → EReal) : out P x colT = x colT := by
  unfold out
  rw [dif_neg (show ¬ (colT.val < 256) by show ¬ (512 < 256); omega), dif_neg (show ¬ (colT.val < 512) by show ¬ (512 < 512); omega)]

/-- The whole result array: row `r` of it is the flow of row `r` of `X`. -/
def G (X : (⟨2, ![131072, 513]⟩ : Shape).Idx → EReal) (A1 : (⟨4, ![3, 4, 256, 32]⟩ : Shape).Idx → EReal)
    (A2 : (⟨3, ![3, 4, 32]⟩ : Shape).Idx → EReal) (A3 : (⟨4, ![3, 4, 32, 256]⟩ : Shape).Idx → EReal)
    (A4 : (⟨3, ![3, 4, 256]⟩ : Shape).Idx → EReal) : (⟨2, ![131072, 513]⟩ : Shape).Idx → EReal :=
  fun i => out (Params.of A1 A2 A3 A4) (fun c => X (ix2 (i 0) c)) (i 1)

/-! ## The fused coupling -/

/-- The two halves of 64 hidden units and of 512 outputs. -/
def l32 (k : Fin 32) : Fin 64 := ⟨k.val, by omega⟩
def r32 (k : Fin 32) : Fin 64 := ⟨32 + k.val, by omega⟩
def l256 (c : Fin 256) : Fin 512 := ⟨c.val, by omega⟩
def r256 (c : Fin 256) : Fin 512 := ⟨256 + c.val, by omega⟩

/-- Coupling `p` of a layer (0: the first half moves, 1: the second) takes its scale from slot `slotS p` and its shift from
    slot `slotT p`: (1, 3) then (0, 2). -/
def slotS : Fin 2 → Fin 4 := ![1, 0]
def slotT : Fin 2 → Fin 4 := ![3, 2]

/-- A sum over 64 is the sum over its two halves. -/
theorem sum64 (f : Fin 64 → EReal) : ∑ k : Fin 64, f k = ∑ k : Fin 32, f (l32 k) + ∑ k : Fin 32, f (r32 k) :=
  Fin.sum_univ_add (a := 32) (b := 32) (f : Fin (32 + 32) → EReal)

/-- One coupling through ONE perceptron with 64 hidden units and 512 outputs: outputs 0..255 the scale, 256..511 the shift. -/
def fstep (W1c : Fin 256 → Fin 64 → EReal) (b1c : Fin 64 → EReal) (W2c : Fin 64 → Fin 512 → EReal) (b2c : Fin 512 → EReal)
    (u h : Fin 256 → EReal) (c : Fin 256) : EReal :=
  u c * Ideal.exp ((∑ k : Fin 64, hid h W1c b1c k * W2c k (l256 c)) + b2c (l256 c))
    + ((∑ k : Fin 64, hid h W1c b1c k * W2c k (r256 c)) + b2c (r256 c))

/-- THE LAW. With the first-layer weights of slots `a`, `b` side by side and their second-layer weights block diagonal, the
    fused coupling is the coupling: each 64-term sum splits in two, the half that meets the zero block vanishes term by
    term (`x · 0 = 0` on all extended reals), and what is left is the perceptron of one slot. -/
theorem fstep_eq (P : Params) (j : Fin 3) (a b : Fin 4)
    (W1c : Fin 256 → Fin 64 → EReal) (b1c : Fin 64 → EReal) (W2c : Fin 64 → Fin 512 → EReal) (b2c : Fin 512 → EReal)
    (hW1l : ∀ q k, W1c q (l32 k) = P.W1 j a q k) (hW1r : ∀ q k, W1c q (r32 k) = P.W1 j b q k)
    (hb1l : ∀ k, b1c (l32 k) = P.b1 j a k) (hb1r : ∀ k, b1c (r32 k) = P.b1 j b k)
    (hW2ll : ∀ k c, W2c (l32 k) (l256 c) = P.W2 j a k c) (hW2lr : ∀ k c, W2c (l32 k) (r256 c) = 0)
    (hW2rl : ∀ k c, W2c (r32 k) (l256 c) = 0) (hW2rr : ∀ k c, W2c (r32 k) (r256 c) = P.W2 j b k c)
    (hb2l : ∀ c, b2c (l256 c) = P.b2 j a c) (hb2r : ∀ c, b2c (r256 c) = P.b2 j b c)
    (u h : Fin 256 → EReal) (c : Fin 256) :
    fstep W1c b1c W2c b2c u h c = step P j a b u h c := by
  have hl : ∀ k, hid h W1c b1c (l32 k) = hid h (P.W1 j a) (P.b1 j a) k := fun k => by
    unfold hid; rw [hb1l]; simp only [hW1l]
  have hr : ∀ k, hid h W1c b1c (r32 k) = hid h (P.W1 j b) (P.b1 j b) k := fun k => by
    unfold hid; rw [hb1r]; simp only [hW1r]
  unfold fstep step Params.mlp Flow.mlp
  rw [sum64, sum64]
  simp only [hl, hr, hW2ll, hW2lr, hW2rl, hW2rr, hb2l, hb2r, mul_zero, Finset.sum_const_zero, add_zero, zero_add]

end Cert.Flow

end
-- ==== Proof.RefFlow.lean ====
/-
  The reference program computes the coupling flow of the specification.

  Its result is three blocks side by side along the columns: the first half of every row after the three layers, the
  second half after them, and the last input column copied. The halves come out of six affine couplings applied in turn
  to whole arrays of rows, u · exp(s h) + t h, where s and t are perceptrons 256 → 32 → 256 whose weights are one
  (layer, slot) cell of the four weight arrays. Everything is row-wise: row r of a matrix product depends on row r of its
  left operand only, a bias is added to every row, tanh and exp act entry by entry. So a stage read at (r, c) is the
  specification's coupling of row r of its operands, and along the six stages the result at (r, c) is the specification's
  result row of input row r, at column c.

  In order: one perceptron on all rows, read at an entry; a weight cell read at an entry; one coupling read at an entry;
  the six stages; the three blocks; the statement about every execution.
-/
import proofs.«112143_j44229573214415_2_alg».proof.Proof.Gen.ReferenceIdeal.Run
import proofs.«112143_j44229573214415_2_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Idealize.ShloMosaic.StackMember

/-! ## One perceptron on every row -/

/-- The two matrix products of a perceptron are plain products: rows by columns, one contracted axis. -/
theorem dotA_eq : dot_S131072x256_S256x32_S131072x32_1_0_0_1_n_n = DotDims.plain 131072 256 32 := rfl
theorem dotB_eq : dot_S131072x32_S32x256_S131072x256_1_0_0_1_n_n = DotDims.plain 131072 32 256 := rfl

/-- The perceptron 256 → 32 → 256 applied to every row of `h`: the rows against `W1`, the bias `b1` added to each
    row, tanh, the hidden rows against `W2`, the bias `b2` added to each row. -/
def refMlp (h : FVec Ideal S131072x256 .f32) (W1 : FVec Ideal S256x32 .f32) (b1 : FVec Ideal S32 .f32)
    (W2 : FVec Ideal S32x256 .f32) (b2 : FVec Ideal S256 .f32) : FVec Ideal S131072x256 .f32 :=
  addf (Host.dotGeneral dot_S131072x32_S32x256_S131072x256_1_0_0_1_n_n none
      (Host.tanh (addf (Host.dotGeneral dot_S131072x256_S256x32_S131072x32_1_0_0_1_n_n none h W1)
        (broadcastInDim S131072x32 ![0, 1] bcast_S1x32_S131072x32_0_1 (broadcastInDim S1x32 ![1] bcast_S32_S1x32_1 b1)))) W2)
    (broadcastInDim S131072x256 ![0, 1] bcast_S1x256_S131072x256_0_1 (broadcastInDim S1x256 ![1] bcast_S256_S1x256_1 b2))

/-- A bias vector of 32 copied into every row reads, at `(r, k)`, its entry `k`. -/
theorem bias32_apply (b : FVec Ideal S32 .f32) (r : Fin 131072) (k : Fin 32) :
    broadcastInDim S131072x32 ![0, 1] bcast_S1x32_S131072x32_0_1 (broadcastInDim S1x32 ![1] bcast_S32_S1x32_1 b) (ix2 r k)
      = b (ix1 k) := by
  refine (broadcastInDim_apply _ _ _ (ix2 r k) (ix2 (0 : Fin 1) k) (fun a => ?_)).trans ?_
  · match a with
    | ⟨0, _⟩ => rfl
    | ⟨1, _⟩ => rfl
  · exact broadcastInDim_apply _ _ _ (ix2 (0 : Fin 1) k) (ix1 k) (fun a => by
      match a with
      | ⟨0, _⟩ => rfl)

/-- A bias vector of 256 copied into every row reads, at `(r, c)`, its entry `c`. -/
theorem bias256_apply (b : FVec Ideal S256 .f32) (r : Fin 131072) (c : Fin 256) :
    broadcastInDim S131072x256 ![0, 1] bcast_S1x256_S131072x256_0_1 (broadcastInDim S1x256 ![1] bcast_S256_S1x256_1 b) (ix2 r c)
      = b (ix1 c) := by
  refine (broadcastInDim_apply _ _ _ (ix2 r c) (ix2 (0 : Fin 1) c) (fun a => ?_)).trans ?_
  · match a with
    | ⟨0, _⟩ => rfl
    | ⟨1, _⟩ => rfl
  · exact broadcastInDim_apply _ _ _ (ix2 (0 : Fin 1) c) (ix1 c) (fun a => by
      match a with
      | ⟨0, _⟩ => rfl)

/-- The two transcendental functions read at an index. -/
theorem hostTanh_apply {s : Shape} (x : FVec Ideal s .f32) (i : s.Idx) : Host.tanh x i = Ideal.tanh (x i) := rfl
theorem hostExp_apply {s : Shape} (x : FVec Ideal s .f32) (i : s.Idx) : Host.exp x i = Ideal.exp (x i) := rfl

/-- Row `r` of the perceptron's result is the perceptron of row `r`. -/
theorem refMlp_apply (h : FVec Ideal S131072x256 .f32) (W1 : FVec Ideal S256x32 .f32) (b1 : FVec Ideal S32 .f32)
    (W2 : FVec Ideal S32x256 .f32) (b2 : FVec Ideal S256 .f32) (r : Fin 131072) (c : Fin 256) :
    refMlp h W1 b1 W2 b2 (ix2 r c)
      = Cert.Flow.mlp (fun q => h (ix2 r q)) (fun q k => W1 (ix2 q k)) (fun k => b1 (ix1 k)) (fun k c => W2 (ix2 k c))
          (fun c => b2 (ix1 c)) c := by
  unfold refMlp Cert.Flow.mlp Cert.Flow.hid
  rw [addf_apply, bias256_apply, dotB_eq, dotGeneral_plain_apply]
  refine congrArg (· + b2 (ix1 c)) (Finset.sum_congr rfl fun k _ => ?_)
  refine congrArg (· * W2 (ix2 k c)) ?_
  rw [hostTanh_apply, addf_apply, bias32_apply, dotA_eq, dotGeneral_plain_apply]

/-! ## The weights of one slot, cut out of the argument arrays -/

/-- First-layer weights of slot `an` of layer `jn`, read at `(q, k)`. -/
theorem sliceW1_apply (jn an : ℕ) (hj : jn < 3) (ha : an < 4) (A : S3x4x256x32.Idx → EReal)
    (hs : S3x4x256x32.Slices ![jn, an, 0, 0] S1x1x256x32) (hc : S1x1x256x32.ShapeCasts S256x32) (q : Fin 256) (k : Fin 32) :
    shapeCast S256x32 (extractStridedSlice S1x1x256x32 ![jn, an, 0, 0] A hs) hc (ix2 q k) = A (ix4 ⟨jn, hj⟩ ⟨an, ha⟩ q k) := by
  refine (shapeCast_apply _ hc (ix2 q k) (ix4 (0 : Fin 1) (0 : Fin 1) q k) ?_).trans ?_
  · rw [Shape.rowMajor_val_four, Shape.rowMajor_val_two]
    show ((0 * 1 + 0) * 256 + q.val) * 32 + k.val = q.val * 32 + k.val
    omega
  · exact extractStridedSlice_apply _ A hs _ _ (fun ax => by
      match ax with
      | ⟨0, _⟩ => rfl
      | ⟨1, _⟩ => rfl
      | ⟨2, _⟩ => exact (Nat.zero_add _).symm
      | ⟨3, _⟩ => exact (Nat.zero_add _).symm)

/-- First-layer bias of slot `an` of layer `jn`, read at `k`. -/
theorem sliceB1_apply (jn an : ℕ) (hj : jn < 3) (ha : an < 4) (A : S3x4x32.Idx → EReal)
    (hs : S3x4x32.Slices ![jn, an, 0] S1x1x32) (hc : S1x1x32.ShapeCasts S32) (k : Fin 32) :
    shapeCast S32 (extractStridedSlice S1x1x32 ![jn, an, 0] A hs) hc (ix1 k) = A (ix3 ⟨jn, hj⟩ ⟨an, ha⟩ k) := by
  refine (shapeCast_apply _ hc (ix1 k) (ix3 (0 : Fin 1) (0 : Fin 1) k) ?_).trans ?_
  · rw [Shape.rowMajor_val_three, Shape.rowMajor_val_one]
    show (0 * 1 + 0) * 32 + k.val = k.val
    omega
  · exact extractStridedSlice_apply _ A hs _ _ (fun ax => by
      match ax with
      | ⟨0, _⟩ => rfl
      | ⟨1, _⟩ => rfl
      | ⟨2, _⟩ => exact (Nat.zero_add _).symm)

/-- Second-layer weights of slot `an` of layer `jn`, read at `(k, c)`. -/
theorem sliceW2_apply (jn an : ℕ) (hj : jn < 3) (ha : an < 4) (A : S3x4x32x256.Idx → EReal)
    (hs : S3x4x32x256.Slices ![jn, an, 0, 0] S1x1x32x256) (hc : S1x1x32x256.ShapeCasts S32x256) (k : Fin 32) (c : Fin 256) :
    shapeCast S32x256 (extractStridedSlice S1x1x32x256 ![jn, an, 0, 0] A hs) hc (ix2 k c) = A (ix4 ⟨jn, hj⟩ ⟨an, ha⟩ k c) := by
  refine (shapeCast_apply _ hc (ix2 k c) (ix4 (0 : Fin 1) (0 : Fin 1) k c) ?_).trans ?_
  · rw [Shape.rowMajor_val_four, Shape.rowMajor_val_two]
    show ((0 * 1 + 0) * 32 + k.val) * 256 + c.val = k.val * 256 + c.val
    omega
  · exact extractStridedSlice_apply _ A hs _ _ (fun ax => by
      match ax with
      | ⟨0, _⟩ => rfl
      | ⟨1, _⟩ => rfl
      | ⟨2, _⟩ => exact (Nat.zero_add _).symm
      | ⟨3, _⟩ => exact (Nat.zero_add _).symm)

/-- Second-layer bias of slot `an` of layer `jn`, read at `c`. -/
theorem sliceB2_apply (jn an : ℕ) (hj : jn < 3) (ha : an < 4) (A : S3x4x256.Idx → EReal)
    (hs : S3x4x256.Slices ![jn, an, 0] S1x1x256) (hc : S1x1x256.ShapeCasts S256) (c : Fin 256) :
    shapeCast S256 (extractStridedSlice S1x1x256 ![jn, an, 0] A hs) hc (ix1 c) = A (ix3 ⟨jn, hj⟩ ⟨an, ha⟩ c) := by
  refine (shapeCast_apply _ hc (ix1 c) (ix3 (0 : Fin 1) (0 : Fin 1) c) ?_).trans ?_
  · rw [Shape.rowMajor_val_three, Shape.rowMajor_val_one]
    show (0 * 1 + 0) * 256 + c.val = c.val
    omega
  · exact extractStridedSlice_apply _ A hs _ _ (fun ax => by
      match ax with
      | ⟨0, _⟩ => rfl
      | ⟨1, _⟩ => rfl
      | ⟨2, _⟩ => exact (Nat.zero_add _).symm)

/-- The perceptron of slot `an` of layer `jn` on every row of `h`, its weights cut out of the four weight arrays. -/
def slotMlp (jn an : ℕ) (A1 : S3x4x256x32.Idx → EReal) (A2 : S3x4x32.Idx → EReal) (A3 : S3x4x32x256.Idx → EReal)
    (A4 : S3x4x256.Idx → EReal) (hs1 : S3x4x256x32.Slices ![jn, an, 0, 0] S1x1x256x32) (hs2 : S3x4x32.Slices ![jn, an, 0] S1x1x32)
    (hs3 : S3x4x32x256.Slices ![jn, an, 0, 0] S1x1x32x256) (hs4 : S3x4x256.Slices ![jn, an, 0] S1x1x256)
    (h : FVec Ideal S131072x256 .f32) : FVec Ideal S131072x256 .f32 :=
  refMlp h (shapeCast _ (extractStridedSlice S1x1x256x32 ![jn, an, 0, 0] A1 hs1) shapeCasts_S1x1x256x32_S256x32)
    (shapeCast _ (extractStridedSlice S1x1x32 ![jn, an, 0] A2 hs2) shapeCasts_S1x1x32_S32)
    (shapeCast _ (extractStridedSlice S1x1x32x256 ![jn, an, 0, 0] A3 hs3) shapeCasts_S1x1x32x256_S32x256)
    (shapeCast _ (extractStridedSlice S1x1x256 ![jn, an, 0] A4 hs4) shapeCasts_S1x1x256_S256)

/-- Row `r` of it is the specification's perceptron of that slot on row `r`. -/
theorem slotMlp_apply (jn an : ℕ) (hj : jn < 3) (ha : an < 4) (A1 : S3x4x256x32.Idx → EReal) (A2 : S3x4x32.Idx → EReal)
    (A3 : S3x4x32x256.Idx → EReal) (A4 : S3x4x256.Idx → EReal) (hs1 : S3x4x256x32.Slices ![jn, an, 0, 0] S1x1x256x32)
    (hs2 : S3x4x32.Slices ![jn, an, 0] S1x1x32) (hs3 : S3x4x32x256.Slices ![jn, an, 0, 0] S1x1x32x256)
    (hs4 : S3x4x256.Slices ![jn, an, 0] S1x1x256) (h : FVec Ideal S131072x256 .f32) (r : Fin 131072) (c : Fin 256) :
    slotMlp jn an A1 A2 A3 A4 hs1 hs2 hs3 hs4 h (ix2 r c)
      = (Cert.Flow.Params.of A1 A2 A3 A4).mlp ⟨jn, hj⟩ ⟨an, ha⟩ (fun q => h (ix2 r q)) c := by
  unfold slotMlp
  rw [refMlp_apply]
  unfold Cert.Flow.Params.mlp
  congr 1
  · exact funext fun q => funext fun k => sliceW1_apply jn an hj ha A1 hs1 _ q k
  · exact funext fun k => sliceB1_apply jn an hj ha A2 hs2 _ k
  · exact funext fun k => funext fun c => sliceW2_apply jn an hj ha A3 hs3 _ k c
  · exact funext fun c => sliceB2_apply jn an hj ha A4 hs4 _ c

/-- One affine coupling on every row, read at `(r, c)`: the coupling of the rows. `ur`, `hr` name row `r` of the two
    operands. -/
theorem coupling_apply (jn an bn : ℕ) (hj : jn < 3) (ha : an < 4) (hb : bn < 4) (A1 : S3x4x256x32.Idx → EReal)
    (A2 : S3x4x32.Idx → EReal) (A3 : S3x4x32x256.Idx → EReal) (A4 : S3x4x256.Idx → EReal)
    (ha1 : S3x4x256x32.Slices ![jn, an, 0, 0] S1x1x256x32) (ha2 : S3x4x32.Slices ![jn, an, 0] S1x1x32)
    (ha3 : S3x4x32x256.Slices ![jn, an, 0, 0] S1x1x32x256) (ha4 : S3x4x256.Slices ![jn, an, 0] S1x1x256)
    (hb1 : S3x4x256x32.Slices ![jn, bn, 0, 0] S1x1x256x32) (hb2 : S3x4x32.Slices ![jn, bn, 0] S1x1x32)
    (hb3 : S3x4x32x256.Slices ![jn, bn, 0, 0] S1x1x32x256) (hb4 : S3x4x256.Slices ![jn, bn, 0] S1x1x256)
    (u h : FVec Ideal S131072x256 .f32) (r : Fin 131072) (ur hr : Fin 256 → EReal)
    (hu : ∀ q, u (ix2 r q) = ur q) (hh : ∀ q, h (ix2 r q) = hr q) (c : Fin 256) :
    addf (mulf u (Host.exp (slotMlp jn an A1 A2 A3 A4 ha1 ha2 ha3 ha4 h))) (slotMlp jn bn A1 A2 A3 A4 hb1 hb2 hb3 hb4 h) (ix2 r c)
      = Cert.Flow.step (Cert.Flow.Params.of A1 A2 A3 A4) ⟨jn, hj⟩ ⟨an, ha⟩ ⟨bn, hb⟩ ur hr c := by
  rw [addf_apply, mulf_apply, hostExp_apply, slotMlp_apply jn an hj ha, slotMlp_apply jn bn hj hb, hu c,
    show (fun q => h (ix2 r q)) = hr from funext hh]
  rfl

/-! ## The reference's stages, row by row

`V0` is the contents of the buffers at launch. Row `r` of the input is `(u₁, u₂, t)`; each stage below is one affine
coupling applied to every row, so its row `r` is that coupling of row `r` of its operands. -/

section Stages
variable (V0 : Valuation τ sig (Elt Ideal))

/-- The five argument arrays at launch. -/
abbrev argX : S131072x513.Idx → EReal := V0 (Proc.devRef .tc main_arg0)
abbrev argW1 : S3x4x256x32.Idx → EReal := V0 (Proc.devRef .tc main_arg1)
abbrev argB1 : S3x4x32.Idx → EReal := V0 (Proc.devRef .tc main_arg2)
abbrev argW2 : S3x4x32x256.Idx → EReal := V0 (Proc.devRef .tc main_arg3)
abbrev argB2 : S3x4x256.Idx → EReal := V0 (Proc.devRef .tc main_arg4)

/-- The weights as the specification reads them. -/
abbrev params : Cert.Flow.Params := Cert.Flow.Params.of (argW1 V0) (argB1 V0) (argW2 V0) (argB2 V0)

/-- The two halves of row `r` of the input. -/
abbrev rowHalves (r : Fin 131072) : (Fin 256 → EReal) × (Fin 256 → EReal) :=
  Cert.Flow.halves fun c => argX V0 (ix2 r c)

/-- The first half of the input rows. -/
theorem firstHalf_apply (r : Fin 131072) (q : Fin 256) :
    extractStridedSlice S131072x256 ![0, 0] (argX V0) slices_S131072x513_S131072x256_0_0 (ix2 r q) = (rowHalves V0 r).1 q :=
  extractStridedSlice_apply _ _ _ _ (ix2 r (Cert.Flow.colA q)) (fun ax => by
    match ax with
    | ⟨0, _⟩ => exact (Nat.zero_add _).symm
    | ⟨1, _⟩ => exact (Nat.zero_add _).symm)

/-- The second half of the input rows. -/
theorem res_main_v1_apply (r : Fin 131072) (q : Fin 256) : res_main_v1 V0 (ix2 r q) = (rowHalves V0 r).2 q := by
  unfold res_main_v1
  exact extractStridedSlice_apply _ _ _ _ (ix2 r (Cert.Flow.colB q)) (fun ax => by
    match ax with
    | ⟨0, _⟩ => exact (Nat.zero_add _).symm
    | ⟨1, _⟩ => rfl)

/-- Layer 0, first coupling. -/
theorem res_main_v39_apply (r : Fin 131072) (c : Fin 256) :
    res_main_v39 V0 (ix2 r c) = (Cert.Flow.layer (params V0) 0 (rowHalves V0 r)).1 c := by
  unfold res_main_v39
  exact coupling_apply 0 1 3 (by omega) (by omega) (by omega) (argW1 V0) (argB1 V0) (argW2 V0) (argB2 V0) _ _ _ _ _ _ _ _ _ _ r _ _
    (fun q => firstHalf_apply V0 r q) (fun q => res_main_v1_apply V0 r q) c

/-- Layer 0, second coupling. -/
theorem res_main_v76_apply (r : Fin 131072) (c : Fin 256) :
    res_main_v76 V0 (ix2 r c) = (Cert.Flow.layer (params V0) 0 (rowHalves V0 r)).2 c := by
  unfold res_main_v76
  exact coupling_apply 0 0 2 (by omega) (by omega) (by omega) (argW1 V0) (argB1 V0) (argW2 V0) (argB2 V0) _ _ _ _ _ _ _ _ _ _ r _ _
    (fun q => res_main_v1_apply V0 r q) (fun q => res_main_v39_apply V0 r q) c

/-- Layer 1, first coupling. -/
theorem res_main_v113_apply (r : Fin 131072) (c : Fin 256) :
    res_main_v113 V0 (ix2 r c)
      = (Cert.Flow.layer (params V0) 1 (Cert.Flow.layer (params V0) 0 (rowHalves V0 r))).1 c := by
  unfold res_main_v113
  exact coupling_apply 1 1 3 (by omega) (by omega) (by omega) (argW1 V0) (argB1 V0) (argW2 V0) (argB2 V0) _ _ _ _ _ _ _ _ _ _ r _ _
    (fun q => res_main_v39_apply V0 r q) (fun q => res_main_v76_apply V0 r q) c

/-- Layer 1, second coupling. -/
theorem res_main_v150_apply (r : Fin 131072) (c : Fin 256) :
    res_main_v150 V0 (ix2 r c)
      = (Cert.Flow.layer (params V0) 1 (Cert.Flow.layer (params V0) 0 (rowHalves V0 r))).2 c := by
  unfold res_main_v150
  exact coupling_apply 1 0 2 (by omega) (by omega) (by omega) (argW1 V0) (argB1 V0) (argW2 V0) (argB2 V0) _ _ _ _ _ _ _ _ _ _ r _ _
    (fun q => res_main_v76_apply V0 r q) (fun q => res_main_v113_apply V0 r q) c

/-- Layer 2, first coupling: the first half of the result rows. -/
theorem res_main_v187_apply (r : Fin 131072) (c : Fin 256) :
    res_main_v187 V0 (ix2 r c) = (Cert.Flow.flow (params V0) (rowHalves V0 r)).1 c := by
  unfold res_main_v187
  exact coupling_apply 2 1 3 (by omega) (by omega) (by omega) (argW1 V0) (argB1 V0) (argW2 V0) (argB2 V0) _ _ _ _ _ _ _ _ _ _ r _ _
    (fun q => res_main_v113_apply V0 r q) (fun q => res_main_v150_apply V0 r q) c

/-- Layer 2, second coupling: the second half of the result rows. -/
theorem lastCoupling_apply (r : Fin 131072) (c : Fin 256) :
    addf (mulf (res_main_v150 V0) (Host.exp (slotMlp 2 0 (argW1 V0) (argB1 V0) (argW2 V0) (argB2 V0)
        slices_S3x4x256x32_S1x1x256x32_2_0_0_0 slices_S3x4x32_S1x1x32_2_0_0 slices_S3x4x32x256_S1x1x32x256_2_0_0_0
        slices_S3x4x256_S1x1x256_2_0_0 (res_main_v187 V0))))
      (slotMlp 2 2 (argW1 V0) (argB1 V0) (argW2 V0) (argB2 V0)
        slices_S3x4x256x32_S1x1x256x32_2_2_0_0 slices_S3x4x32_S1x1x32_2_2_0 slices_S3x4x32x256_S1x1x32x256_2_2_0_0
        slices_S3x4x256_S1x1x256_2_2_0 (res_main_v187 V0)) (ix2 r c)
      = (Cert.Flow.flow (params V0) (rowHalves V0 r)).2 c :=
  coupling_apply 2 0 2 (by omega) (by omega) (by omega) (argW1 V0) (argB1 V0) (argW2 V0) (argB2 V0) _ _ _ _ _ _ _ _ _ _ r _ _
    (fun q => res_main_v150_apply V0 r q) (fun q => res_main_v187_apply V0 r q) c

/-! ## The result array -/

/-- The reference's result is the specification's flow of the argument arrays: the three pieces laid side by side
    are the two halves after the three layers and the untouched last column. -/
theorem result_eq :
    val4 V0 (Proc.devRef .tc main_v225) = Cert.Flow.G (argX V0) (argW1 V0) (argB1 V0) (argW2 V0) (argB2 V0) := by
  refine (val4_main_v225 V0).trans ?_
  funext i
  obtain ⟨r, col, rfl⟩ : ∃ (r : Fin 131072) (col : Fin 513), i = ix2 r col := ⟨i 0, i 1, eq_ix2 i⟩
  show _ = Cert.Flow.out (params V0) (fun c => argX V0 (ix2 r c)) col
  rcases Cert.Flow.col_cases col with ⟨c, rfl⟩ | ⟨c, rfl⟩ | rfl
  · rw [Cert.Flow.out_colA]
    refine (concatenate_apply_piece _ _ _ (ix2 r (Cert.Flow.colA c)) 0 (by show (0 : ℕ) < 3; omega) S131072x256 (res_main_v187 V0) rfl rfl 0 rfl
      (ix2 r c) (fun b hb => ?_) ?_).trans (res_main_v187_apply V0 r c)
    · match b with
      | ⟨0, _⟩ => rfl
      | ⟨1, _⟩ => exact absurd rfl hb
    · show 0 + c.val = c.val
      omega
  · rw [Cert.Flow.out_colB]
    refine (concatenate_apply_piece _ _ _ (ix2 r (Cert.Flow.colB c)) 1 (by show (1 : ℕ) < 3; omega) S131072x256 _ rfl rfl 256 rfl
      (ix2 r c) (fun b hb => ?_) ?_).trans (lastCoupling_apply V0 r c)
    · match b with
      | ⟨0, _⟩ => rfl
      | ⟨1, _⟩ => exact absurd rfl hb
    · rfl
  · rw [Cert.Flow.out_colT]
    refine (concatenate_apply_piece _ _ _ (ix2 r Cert.Flow.colT) 2 (by show (2 : ℕ) < 3; omega) S131072x1 _ rfl rfl 512 rfl
      (ix2 r (0 : Fin 1)) (fun b hb => ?_) ?_).trans ?_
    · match b with
      | ⟨0, _⟩ => rfl
      | ⟨1, _⟩ => exact absurd rfl hb
    · rfl
    · exact extractStridedSlice_apply _ _ _ _ (ix2 r Cert.Flow.colT) (fun ax => by
        match ax with
        | ⟨0, _⟩ => exact (Nat.zero_add _).symm
        | ⟨1, _⟩ => rfl)

end Stages

/-! ## The run -/

/-- Every weakly fair execution of the reference ends with the result buffer at the specification's flow of the five
    argument arrays as they were at launch, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v225)
          = Cert.Flow.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((val4_main_v225 (launchContents m c)).symm.trans (result_eq (launchContents m c))), (h c).2⟩)
    (Cert.ReferenceIdeal.Value.run (F := Ideal) m ρ)

end Cert.ReferenceIdeal.RefValue

end
-- ==== Proof.KernelBody.lean ====
/-
  The kernel body's arithmetic on one block of 2048 rows, read entry by entry.

  Every value the body computes is built from two shapes: the 64-unit hidden layer of a fused perceptron,
  tanh(h · W₁ + b₁), and the coupling it feeds, u · exp(s) + t with (s | t) = hidden · W₂ + b₂ cut at column 256.
  At the exact values a change of float format is the identity and a block product onto a zero accumulator is the
  plain sum over the contracted axis, so entry (r, c) of a coupling is Cert.Flow.fstep of row r of its operands.
-/
import proofs.«112143_j44229573214415_2_alg».proof.Proof.Gen.KernelIdeal.Skeleton
import proofs.«112143_j44229573214415_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Flow

/-! ## The two block products as sums over the contracted axis -/

/-- [2048, 256] × [256, 64]: entry (r, k) sums over the 256 shared coordinates. -/
theorem dot256 (L : FVec Ideal S2048x256 .bf16) (R : FVec Ideal S256x64 .bf16) (r : Fin 2048) (k : Fin 64) :
    ∑ q : dot_S2048x256_S256x64_S2048x64_1_0_0_1_n_n.contr.Idx,
        L (dot_S2048x256_S256x64_S2048x64_1_0_0_1_n_n.lhsIdx (ix2 r k) q) * R (dot_S2048x256_S256x64_S2048x64_1_0_0_1_n_n.rhsIdx (ix2 r k) q)
      = ∑ q : Fin 256, L (ix2 r q) * R (ix2 q k) := by
  refine ((contrEquiv1 dot_S2048x256_S256x64_S2048x64_1_0_0_1_n_n 256 rfl rfl).symm.sum_comp _).symm.trans
    (Finset.sum_congr rfl fun q _ => ?_)
  have e1 : dot_S2048x256_S256x64_S2048x64_1_0_0_1_n_n.lhsIdx (ix2 r k)
      ((contrEquiv1 dot_S2048x256_S256x64_S2048x64_1_0_0_1_n_n 256 rfl rfl).symm q) = ix2 r q := by
    funext a; apply Fin.ext
    match a with
    | ⟨0, _⟩ => rfl
    | ⟨1, _⟩ => exact (DotDims.lhsIdx_val_of_single _ rfl _ _).trans (contrEquiv1_symm_val _ 256 rfl rfl q)
  have e2 : dot_S2048x256_S256x64_S2048x64_1_0_0_1_n_n.rhsIdx (ix2 r k)
      ((contrEquiv1 dot_S2048x256_S256x64_S2048x64_1_0_0_1_n_n 256 rfl rfl).symm q) = ix2 q k := by
    funext a; apply Fin.ext
    match a with
    | ⟨0, _⟩ => exact (DotDims.rhsIdx_val_of_single _ rfl _ _).trans (contrEquiv1_symm_val _ 256 rfl rfl q)
    | ⟨1, _⟩ => rfl
  rw [e1, e2]

/-- [2048, 64] × [64, 512]: entry (r, c) sums over the 64 hidden units. -/
theorem dot64 (L : FVec Ideal S2048x64 .bf16) (R : FVec Ideal S64x512 .bf16) (r : Fin 2048) (c : Fin 512) :
    ∑ q : dot_S2048x64_S64x512_S2048x512_1_0_0_1_n_n.contr.Idx,
        L (dot_S2048x64_S64x512_S2048x512_1_0_0_1_n_n.lhsIdx (ix2 r c) q) * R (dot_S2048x64_S64x512_S2048x512_1_0_0_1_n_n.rhsIdx (ix2 r c) q)
      = ∑ k : Fin 64, L (ix2 r k) * R (ix2 k c) := by
  refine ((contrEquiv1 dot_S2048x64_S64x512_S2048x512_1_0_0_1_n_n 64 rfl rfl).symm.sum_comp _).symm.trans
    (Finset.sum_congr rfl fun q _ => ?_)
  have e1 : dot_S2048x64_S64x512_S2048x512_1_0_0_1_n_n.lhsIdx (ix2 r c)
      ((contrEquiv1 dot_S2048x64_S64x512_S2048x512_1_0_0_1_n_n 64 rfl rfl).symm q) = ix2 r q := by
    funext a; apply Fin.ext
    match a with
    | ⟨0, _⟩ => rfl
    | ⟨1, _⟩ => exact (DotDims.lhsIdx_val_of_single _ rfl _ _).trans (contrEquiv1_symm_val _ 64 rfl rfl q)
  have e2 : dot_S2048x64_S64x512_S2048x512_1_0_0_1_n_n.rhsIdx (ix2 r c)
      ((contrEquiv1 dot_S2048x64_S64x512_S2048x512_1_0_0_1_n_n 64 rfl rfl).symm q) = ix2 q c := by
    funext a; apply Fin.ext
    match a with
    | ⟨0, _⟩ => exact (DotDims.rhsIdx_val_of_single _ rfl _ _).trans (contrEquiv1_symm_val _ 64 rfl rfl q)
    | ⟨1, _⟩ => rfl
  rw [e1, e2]

/-! ## The hidden layer and the coupling on a block -/

/-- The fused perceptron's hidden layer on a block: tanh(h · W + b), the bias one row over all 2048. -/
def hidden (h : FVec Ideal S2048x256 .f32) (W : FVec Ideal S256x64 .bf16) (b : FVec Ideal S64 .f32) : FVec Ideal S2048x64 .bf16 :=
  truncf .bf16 (tanh (addf (matmul dot_S2048x256_S256x64_S2048x64_1_0_0_1_n_n none (truncf .bf16 h bitsLt_bf16_f32) W
      (constant S2048x64 .f32 0x00000000#32))
    (broadcastTo S2048x64 (shapeCast S1x64 b shapeCasts_S64_S1x64) broadcasts_S1x64_S2048x64))) bitsLt_bf16_f32

/-- The 512 pre-activations of the second layer: hid · W₂ + b₂, the bias one row over all 2048. -/
def pre (W2 : FVec Ideal S64x512 .bf16) (b2 : FVec Ideal S512 .f32) (hd : FVec Ideal S2048x64 .bf16) : FVec Ideal S2048x512 .f32 :=
  addf (matmul dot_S2048x64_S64x512_S2048x512_1_0_0_1_n_n none hd W2 (constant S2048x512 .f32 0x00000000#32))
    (broadcastTo S2048x512 (shapeCast S1x512 b2 shapeCasts_S512_S1x512) broadcasts_S1x512_S2048x512)

/-- The coupling a hidden layer feeds: (s | t) = hid · W₂ + b₂ cut at column 256, then u · exp(s) + t. -/
def finish (u : FVec Ideal S2048x256 .f32) (W2 : FVec Ideal S64x512 .bf16) (b2 : FVec Ideal S512 .f32)
    (hd : FVec Ideal S2048x64 .bf16) : FVec Ideal S2048x256 .f32 :=
  addf (mulf u (exp (extractStridedSlice S2048x256 ![0, 0] (pre W2 b2 hd) slices_S2048x512_o0_0_S2048x256)))
    (extractStridedSlice S2048x256 ![0, 256] (pre W2 b2 hd) slices_S2048x512_o0_256_S2048x256)

/-- One whole coupling on a block. -/
def cpl (u h : FVec Ideal S2048x256 .f32) (W1 : FVec Ideal S256x64 .bf16) (b1 : FVec Ideal S64 .f32)
    (W2 : FVec Ideal S64x512 .bf16) (b2 : FVec Ideal S512 .f32) : FVec Ideal S2048x256 .f32 :=
  finish u W2 b2 (hidden h W1 b1)

/-- Hidden unit (r, k) is Cert.Flow.hid of row r. -/
theorem hidden_apply (h : FVec Ideal S2048x256 .f32) (W : FVec Ideal S256x64 .bf16) (b : FVec Ideal S64 .f32)
    (r : Fin 2048) (k : Fin 64) :
    hidden h W b (ix2 r k) = Flow.hid (fun q => h (ix2 r q)) (fun q k => W (ix2 q k)) (fun k => b (ix1 k)) k := by
  unfold hidden Flow.hid
  show Ideal.tanh (FloatOps.matmul dot_S2048x256_S256x64_S2048x64_1_0_0_1_n_n none (truncf .bf16 h bitsLt_bf16_f32) W
      (constant S2048x64 .f32 0x00000000#32) (ix2 r k)
    + broadcastTo S2048x64 (shapeCast S1x64 b shapeCasts_S64_S1x64) broadcasts_S1x64_S2048x64 (ix2 r k)) = _
  rw [Ideal.matmul_constant_zero_apply, dot256, broadcastTo_1b_ab_apply, shapeCast_a_1a_apply]
  rfl

/-- The 512 pre-activations at (r, c): the sum over the 64 hidden units plus the bias. -/
theorem pre_apply (W2 : FVec Ideal S64x512 .bf16) (b2 : FVec Ideal S512 .f32) (hd : FVec Ideal S2048x64 .bf16)
    (r : Fin 2048) (c : Fin 512) :
    pre W2 b2 hd (ix2 r c) = (∑ k : Fin 64, hd (ix2 r k) * W2 (ix2 k c)) + b2 (ix1 c) := by
  unfold pre
  show FloatOps.matmul dot_S2048x64_S64x512_S2048x512_1_0_0_1_n_n none hd W2 (constant S2048x512 .f32 0x00000000#32) (ix2 r c)
    + broadcastTo S2048x512 (shapeCast S1x512 b2 shapeCasts_S512_S1x512) broadcasts_S1x512_S2048x512 (ix2 r c) = _
  rw [Ideal.matmul_constant_zero_apply, dot64, broadcastTo_1b_ab_apply, shapeCast_a_1a_apply]

/-- Entry (r, c) of a coupling's result. -/
theorem finish_apply (u : FVec Ideal S2048x256 .f32) (W2 : FVec Ideal S64x512 .bf16) (b2 : FVec Ideal S512 .f32)
    (hd : FVec Ideal S2048x64 .bf16) (r : Fin 2048) (c : Fin 256) :
    finish u W2 b2 hd (ix2 r c)
      = u (ix2 r c) * Ideal.exp ((∑ k : Fin 64, hd (ix2 r k) * W2 (ix2 k (l256 c))) + b2 (ix1 (l256 c)))
        + ((∑ k : Fin 64, hd (ix2 r k) * W2 (ix2 k (r256 c))) + b2 (ix1 (r256 c))) := by
  unfold finish
  show u (ix2 r c) * Ideal.exp (extractStridedSlice S2048x256 ![0, 0] (pre W2 b2 hd) slices_S2048x512_o0_0_S2048x256 (ix2 r c))
    + extractStridedSlice S2048x256 ![0, 256] (pre W2 b2 hd) slices_S2048x512_o0_256_S2048x256 (ix2 r c) = _
  rw [slice2_axis1_apply 0 _ _ r c (l256 c) (by show c.val = 0 + c.val; omega),
    slice2_axis1_apply 256 _ _ r c (r256 c) rfl, pre_apply, pre_apply]

/-- Entry (r, c) of one whole coupling is the fused coupling of row r. -/
theorem cpl_apply (u h : FVec Ideal S2048x256 .f32) (W1 : FVec Ideal S256x64 .bf16) (b1 : FVec Ideal S64 .f32)
    (W2 : FVec Ideal S64x512 .bf16) (b2 : FVec Ideal S512 .f32) (r : Fin 2048) (c : Fin 256) :
    cpl u h W1 b1 W2 b2 (ix2 r c)
      = Flow.fstep (fun q k => W1 (ix2 q k)) (fun k => b1 (ix1 k)) (fun k c => W2 (ix2 k c)) (fun c => b2 (ix1 c))
          (fun q => u (ix2 r q)) (fun q => h (ix2 r q)) c := by
  unfold cpl Flow.fstep
  rw [finish_apply]
  simp only [hidden_apply]

end Cert.KernelIdeal.Body

end
-- ==== Proof.KernelBlock.lean ====
/-
  What the kernel body leaves in its output block, as one function of the blocks it loads.

  The body loads the two halves and the last column of its 2048 rows, and for each of the six couplings the fused
  weights of that coupling (a [1, 1, …] cut of each weight array with its two unit axes dropped); it runs the six
  couplings one after another and stores the two final halves and the untouched last column. So row r of the block it
  leaves is the flow of row r of the block it loaded — given that the fused weight arrays hold, side by side and block
  diagonally, the weights of the two slots of each coupling (the hypothesis `Fused` below).
-/
import proofs.«112143_j44229573214415_2_alg».proof.Proof.KernelBody
import proofs.«112143_j44229573214415_2_alg».proof.Proof.Gen.KernelIdeal.Frame
import Idealize.ShloMosaic.Lib.Tactic

set_option maxRecDepth 16384

noncomputable section

namespace Cert.KernelIdeal.Block

open Cert.KernelIdeal Cert.KernelIdeal.Gen Cert.KernelIdeal.Body Cert.Flow
open Idealize.ShloMosaic Idealize.ShloMosaic.ValueIdx Idealize.ShloMosaic.TcCoe Idealize.ShloMosaic.Tactic Idealize.SL.Sem

/-! ## The loaded cuts of the weight arrays, entry by entry -/

/-- First-layer weights of coupling (j, p): entry (q, k) of the cut is entry (j, p, q, k) of the array. -/
theorem ld_w1 (x1 : Vec Ideal S3x2x256x64 .bf16) (jn pn : ℕ) (hj : jn < 3) (hp : pn < 2)
    (inb : ∀ a, (![jn, pn, 0, 0] : Fin 4 → Nat) a + S1x1x256x64.size a ≤ S3x2x256x64.size a) (q : Fin 256) (k : Fin 64) :
    shapeCast S256x64 (View.ld (Val := Elt Ideal) x1 (Rect.unit (s := S3x2x256x64) ![jn, pn, 0, 0] S1x1x256x64.size inb))
        shapeCasts_S1x1x256x64_S256x64 (ix2 q k)
      = x1 (ix4 (⟨jn, hj⟩ : Fin 3) (⟨pn, hp⟩ : Fin 2) q k) := by
  refine (shapeCast_apply (s := S1x1x256x64) _ shapeCasts_S1x1x256x64_S256x64 (ix2 q k) (ix4 (0 : Fin 1) (0 : Fin 1) q k) ?_).trans ?_
  · rw [Shape.rowMajor_val_four, Shape.rowMajor_val_two]
    show ((0 * 1 + 0) * 256 + q.val) * 64 + k.val = q.val * 64 + k.val
    omega
  · show x1 _ = x1 _
    congr 1
    funext a; apply Fin.ext
    match a with
    | ⟨0, _⟩ => show jn + 1 * 0 = jn; omega
    | ⟨1, _⟩ => show pn + 1 * 0 = pn; omega
    | ⟨2, _⟩ => show 0 + 1 * q.val = q.val; omega
    | ⟨3, _⟩ => show 0 + 1 * k.val = k.val; omega

/-- First-layer bias of coupling (j, p). -/
theorem ld_b1 (x2 : Vec Ideal S3x2x64 .f32) (jn pn : ℕ) (hj : jn < 3) (hp : pn < 2)
    (inb : ∀ a, (![jn, pn, 0] : Fin 3 → Nat) a + S1x1x64.size a ≤ S3x2x64.size a) (k : Fin 64) :
    shapeCast S64 (View.ld (Val := Elt Ideal) x2 (Rect.unit (s := S3x2x64) ![jn, pn, 0] S1x1x64.size inb))
        shapeCasts_S1x1x64_S64 (ix1 k)
      = x2 (ix3 (⟨jn, hj⟩ : Fin 3) (⟨pn, hp⟩ : Fin 2) k) := by
  refine (shapeCast_apply (s := S1x1x64) _ shapeCasts_S1x1x64_S64 (ix1 k) (ix3 (0 : Fin 1) (0 : Fin 1) k) ?_).trans ?_
  · rw [Shape.rowMajor_val_three, Shape.rowMajor_val_one]
    show (0 * 1 + 0) * 64 + k.val = k.val
    omega
  · show x2 _ = x2 _
    congr 1
    funext a; apply Fin.ext
    match a with
    | ⟨0, _⟩ => show jn + 1 * 0 = jn; omega
    | ⟨1, _⟩ => show pn + 1 * 0 = pn; omega
    | ⟨2, _⟩ => show 0 + 1 * k.val = k.val; omega

/-- Second-layer weights of coupling (j, p). -/
theorem ld_w2 (x3 : Vec Ideal S3x2x64x512 .bf16) (jn pn : ℕ) (hj : jn < 3) (hp : pn < 2)
    (inb : ∀ a, (![jn, pn, 0, 0] : Fin 4 → Nat) a + S1x1x64x512.size a ≤ S3x2x64x512.size a) (k : Fin 64) (d : Fin 512) :
    shapeCast S64x512 (View.ld (Val := Elt Ideal) x3 (Rect.unit (s := S3x2x64x512) ![jn, pn, 0, 0] S1x1x64x512.size inb))
        shapeCasts_S1x1x64x512_S64x512 (ix2 k d)
      = x3 (ix4 (⟨jn, hj⟩ : Fin 3) (⟨pn, hp⟩ : Fin 2) k d) := by
  refine (shapeCast_apply (s := S1x1x64x512) _ shapeCasts_S1x1x64x512_S64x512 (ix2 k d) (ix4 (0 : Fin 1) (0 : Fin 1) k d) ?_).trans ?_
  · rw [Shape.rowMajor_val_four, Shape.rowMajor_val_two]
    show ((0 * 1 + 0) * 64 + k.val) * 512 + d.val = k.val * 512 + d.val
    omega
  · show x3 _ = x3 _
    congr 1
    funext a; apply Fin.ext
    match a with
    | ⟨0, _⟩ => show jn + 1 * 0 = jn; omega
    | ⟨1, _⟩ => show pn + 1 * 0 = pn; omega
    | ⟨2, _⟩ => show 0 + 1 * k.val = k.val; omega
    | ⟨3, _⟩ => show 0 + 1 * d.val = d.val; omega

/-- Second-layer bias of coupling (j, p). -/
theorem ld_b2 (x4 : Vec Ideal S3x2x512 .f32) (jn pn : ℕ) (hj : jn < 3) (hp : pn < 2)
    (inb : ∀ a, (![jn, pn, 0] : Fin 3 → Nat) a + S1x1x512.size a ≤ S3x2x512.size a) (d : Fin 512) :
    shapeCast S512 (View.ld (Val := Elt Ideal) x4 (Rect.unit (s := S3x2x512) ![jn, pn, 0] S1x1x512.size inb))
        shapeCasts_S1x1x512_S512 (ix1 d)
      = x4 (ix3 (⟨jn, hj⟩ : Fin 3) (⟨pn, hp⟩ : Fin 2) d) := by
  refine (shapeCast_apply (s := S1x1x512) _ shapeCasts_S1x1x512_S512 (ix1 d) (ix3 (0 : Fin 1) (0 : Fin 1) d) ?_).trans ?_
  · rw [Shape.rowMajor_val_three, Shape.rowMajor_val_one]
    show (0 * 1 + 0) * 512 + d.val = d.val
    omega
  · show x4 _ = x4 _
    congr 1
    funext a; apply Fin.ext
    match a with
    | ⟨0, _⟩ => show jn + 1 * 0 = jn; omega
    | ⟨1, _⟩ => show pn + 1 * 0 = pn; omega
    | ⟨2, _⟩ => show 0 + 1 * d.val = d.val; omega

/-! ## The fused weight arrays hold the slots' weights -/

/-- The four fused arrays against the weights `P`: coupling p of layer j has, in its first 32 hidden units, slot
    `slotS p` (feeding outputs 0..255 only) and in its last 32 slot `slotT p` (feeding outputs 256..511 only). -/
structure Fused (P : Params) (x1 : Vec Ideal S3x2x256x64 .bf16) (x2 : Vec Ideal S3x2x64 .f32)
    (x3 : Vec Ideal S3x2x64x512 .bf16) (x4 : Vec Ideal S3x2x512 .f32) : Prop where
  w1l : ∀ (j : Fin 3) (p : Fin 2) (q : Fin 256) (k : Fin 32), x1 (ix4 j p q (l32 k)) = P.W1 j (slotS p) q k
  w1r : ∀ (j : Fin 3) (p : Fin 2) (q : Fin 256) (k : Fin 32), x1 (ix4 j p q (r32 k)) = P.W1 j (slotT p) q k
  b1l : ∀ (j : Fin 3) (p : Fin 2) (k : Fin 32), x2 (ix3 j p (l32 k)) = P.b1 j (slotS p) k
  b1r : ∀ (j : Fin 3) (p : Fin 2) (k : Fin 32), x2 (ix3 j p (r32 k)) = P.b1 j (slotT p) k
  w2ll : ∀ (j : Fin 3) (p : Fin 2) (k : Fin 32) (d : Fin 256), x3 (ix4 j p (l32 k) (l256 d)) = P.W2 j (slotS p) k d
  w2lr : ∀ (j : Fin 3) (p : Fin 2) (k : Fin 32) (d : Fin 256), x3 (ix4 j p (l32 k) (r256 d)) = 0
  w2rl : ∀ (j : Fin 3) (p : Fin 2) (k : Fin 32) (d : Fin 256), x3 (ix4 j p (r32 k) (l256 d)) = 0
  w2rr : ∀ (j : Fin 3) (p : Fin 2) (k : Fin 32) (d : Fin 256), x3 (ix4 j p (r32 k) (r256 d)) = P.W2 j (slotT p) k d
  b2l : ∀ (j : Fin 3) (p : Fin 2) (d : Fin 256), x4 (ix3 j p (l256 d)) = P.b2 j (slotS p) d
  b2r : ∀ (j : Fin 3) (p : Fin 2) (d : Fin 256), x4 (ix3 j p (r256 d)) = P.b2 j (slotT p) d

/-- One coupling of the body on a block, with the cuts it loads: coupling (j, p) on the halves `u` (moved) and `h` (read). -/
def cplAt (x1 : Vec Ideal S3x2x256x64 .bf16) (x2 : Vec Ideal S3x2x64 .f32) (x3 : Vec Ideal S3x2x64x512 .bf16)
    (x4 : Vec Ideal S3x2x512 .f32) (jn pn : ℕ)
    (i1 : ∀ a, (![jn, pn, 0, 0] : Fin 4 → Nat) a + S1x1x256x64.size a ≤ S3x2x256x64.size a)
    (i2 : ∀ a, (![jn, pn, 0] : Fin 3 → Nat) a + S1x1x64.size a ≤ S3x2x64.size a)
    (i3 : ∀ a, (![jn, pn, 0, 0] : Fin 4 → Nat) a + S1x1x64x512.size a ≤ S3x2x64x512.size a)
    (i4 : ∀ a, (![jn, pn, 0] : Fin 3 → Nat) a + S1x1x512.size a ≤ S3x2x512.size a)
    (u h : FVec Ideal S2048x256 .f32) : FVec Ideal S2048x256 .f32 :=
  cpl u h
    (shapeCast S256x64 (View.ld (Val := Elt Ideal) x1 (Rect.unit (s := S3x2x256x64) ![jn, pn, 0, 0] S1x1x256x64.size i1)) shapeCasts_S1x1x256x64_S256x64)
    (shapeCast S64 (View.ld (Val := Elt Ideal) x2 (Rect.unit (s := S3x2x64) ![jn, pn, 0] S1x1x64.size i2)) shapeCasts_S1x1x64_S64)
    (shapeCast S64x512 (View.ld (Val := Elt Ideal) x3 (Rect.unit (s := S3x2x64x512) ![jn, pn, 0, 0] S1x1x64x512.size i3)) shapeCasts_S1x1x64x512_S64x512)
    (shapeCast S512 (View.ld (Val := Elt Ideal) x4 (Rect.unit (s := S3x2x512) ![jn, pn, 0] S1x1x512.size i4)) shapeCasts_S1x1x512_S512)

/-- Entry (r, c) of coupling (j, p) on a block is the coupling of slots (slotS p, slotT p) of layer j on row r:
    the fused form read entry by entry, then the law that splits the 64 hidden units. -/
theorem cplAt_apply (P : Params) (x1 : Vec Ideal S3x2x256x64 .bf16) (x2 : Vec Ideal S3x2x64 .f32)
    (x3 : Vec Ideal S3x2x64x512 .bf16) (x4 : Vec Ideal S3x2x512 .f32) (hF : Fused P x1 x2 x3 x4)
    (jn pn : ℕ) (hj : jn < 3) (hp : pn < 2) (i1 i2 i3 i4)
    (u h : FVec Ideal S2048x256 .f32) (ur hr : Fin 256 → EReal) (r : Fin 2048)
    (hu : ∀ q, u (ix2 r q) = ur q) (hh : ∀ q, h (ix2 r q) = hr q) (c : Fin 256) :
    cplAt x1 x2 x3 x4 jn pn i1 i2 i3 i4 u h (ix2 r c)
      = Flow.step P ⟨jn, hj⟩ (slotS ⟨pn, hp⟩) (slotT ⟨pn, hp⟩) ur hr c := by
  unfold cplAt
  rw [cpl_apply]
  simp only [ld_w1 x1 jn pn hj hp, ld_b1 x2 jn pn hj hp, ld_w2 x3 jn pn hj hp, ld_b2 x4 jn pn hj hp, hu, hh]
  exact fstep_eq P ⟨jn, hj⟩ (slotS ⟨pn, hp⟩) (slotT ⟨pn, hp⟩) _ _ _ _
    (hF.w1l _ _) (hF.w1r _ _) (hF.b1l _ _) (hF.b1r _ _) (hF.w2ll _ _) (hF.w2lr _ _) (hF.w2rl _ _) (hF.w2rr _ _)
    (hF.b2l _ _) (hF.b2r _ _) ur hr c

/-! ## The six couplings on a block, and the block the body leaves -/

section Chain

variable (x0 : Vec Ideal S2048x513 .f32) (x1 : Vec Ideal S3x2x256x64 .bf16) (x2 : Vec Ideal S3x2x64 .f32)
  (x3 : Vec Ideal S3x2x64x512 .bf16) (x4 : Vec Ideal S3x2x512 .f32)

/-- The first half, the second half and the last column of the loaded rows. -/
def U1 : FVec Ideal S2048x256 .f32 :=
  View.ld (Val := Elt Ideal) x0 (Rect.unit (s := S2048x513) ![0, 0] S2048x256.size inb_S2048x513_S2048x256_0_0)
def U2 : FVec Ideal S2048x256 .f32 :=
  View.ld (Val := Elt Ideal) x0 (Rect.unit (s := S2048x513) ![0, 256] S2048x256.size inb_S2048x513_S2048x256_0_256)
def T0 : FVec Ideal S2048x1 .f32 :=
  View.ld (Val := Elt Ideal) x0 (Rect.unit (s := S2048x513) ![0, 512] S2048x1.size inb_S2048x513_S2048x1_0_512)

theorem U1_apply (r : Fin 2048) (q : Fin 256) : U1 x0 (ix2 r q) = x0 (ix2 r (colA q)) := by
  show x0 _ = x0 _
  congr 1
  funext a; apply Fin.ext
  match a with
  | ⟨0, _⟩ => show 0 + 1 * r.val = r.val; omega
  | ⟨1, _⟩ => show 0 + 1 * q.val = q.val; omega

theorem U2_apply (r : Fin 2048) (q : Fin 256) : U2 x0 (ix2 r q) = x0 (ix2 r (colB q)) := by
  show x0 _ = x0 _
  congr 1
  funext a; apply Fin.ext
  match a with
  | ⟨0, _⟩ => show 0 + 1 * r.val = r.val; omega
  | ⟨1, _⟩ => show 256 + 1 * q.val = 256 + q.val; omega

theorem T0_apply (r : Fin 2048) (q : Fin 1) : T0 x0 (ix2 r q) = x0 (ix2 r colT) := by
  show x0 _ = x0 _
  congr 1
  funext a; apply Fin.ext
  match a with
  | ⟨0, _⟩ => show 0 + 1 * r.val = r.val; omega
  | ⟨1, _⟩ => show 512 + 1 * q.val = 512; omega

/-- The halves after each coupling, in the body's order: (a₁, b₁) after layer 0, (a₂, b₂) after layer 1, (a₃, b₃) at the end. -/
def a1 : FVec Ideal S2048x256 .f32 :=
  cplAt x1 x2 x3 x4 0 0 inb_S3x2x256x64_S1x1x256x64_0_0_0_0 inb_S3x2x64_S1x1x64_0_0_0 inb_S3x2x64x512_S1x1x64x512_0_0_0_0
    inb_S3x2x512_S1x1x512_0_0_0 (U1 x0) (U2 x0)
def b1 : FVec Ideal S2048x256 .f32 :=
  cplAt x1 x2 x3 x4 0 1 inb_S3x2x256x64_S1x1x256x64_0_1_0_0 inb_S3x2x64_S1x1x64_0_1_0 inb_S3x2x64x512_S1x1x64x512_0_1_0_0
    inb_S3x2x512_S1x1x512_0_1_0 (U2 x0) (a1 x0 x1 x2 x3 x4)
def a2 : FVec Ideal S2048x256 .f32 :=
  cplAt x1 x2 x3 x4 1 0 inb_S3x2x256x64_S1x1x256x64_1_0_0_0 inb_S3x2x64_S1x1x64_1_0_0 inb_S3x2x64x512_S1x1x64x512_1_0_0_0
    inb_S3x2x512_S1x1x512_1_0_0 (a1 x0 x1 x2 x3 x4) (b1 x0 x1 x2 x3 x4)
def b2 : FVec Ideal S2048x256 .f32 :=
  cplAt x1 x2 x3 x4 1 1 inb_S3x2x256x64_S1x1x256x64_1_1_0_0 inb_S3x2x64_S1x1x64_1_1_0 inb_S3x2x64x512_S1x1x64x512_1_1_0_0
    inb_S3x2x512_S1x1x512_1_1_0 (b1 x0 x1 x2 x3 x4) (a2 x0 x1 x2 x3 x4)
def a3 : FVec Ideal S2048x256 .f32 :=
  cplAt x1 x2 x3 x4 2 0 inb_S3x2x256x64_S1x1x256x64_2_0_0_0 inb_S3x2x64_S1x1x64_2_0_0 inb_S3x2x64x512_S1x1x64x512_2_0_0_0
    inb_S3x2x512_S1x1x512_2_0_0 (a2 x0 x1 x2 x3 x4) (b2 x0 x1 x2 x3 x4)
def b3 : FVec Ideal S2048x256 .f32 :=
  cplAt x1 x2 x3 x4 2 1 inb_S3x2x256x64_S1x1x256x64_2_1_0_0 inb_S3x2x64_S1x1x64_2_1_0 inb_S3x2x64x512_S1x1x64x512_2_1_0_0
    inb_S3x2x512_S1x1x512_2_1_0 (b2 x0 x1 x2 x3 x4) (a3 x0 x1 x2 x3 x4)

variable (P : Params) (hF : Fused P x1 x2 x3 x4)
include hF

/-- Row r of the loaded block, and its two halves. -/
abbrev row (r : Fin 2048) : Fin 513 → EReal := fun cc => x0 (ix2 r cc)

theorem a1_apply (r : Fin 2048) (c : Fin 256) :
    a1 x0 x1 x2 x3 x4 (ix2 r c) = (layer P 0 (halves (row x0 r))).1 c := by
  unfold a1
  refine (cplAt_apply P x1 x2 x3 x4 hF 0 0 (by omega) (by omega) inb_S3x2x256x64_S1x1x256x64_0_0_0_0 inb_S3x2x64_S1x1x64_0_0_0 inb_S3x2x64x512_S1x1x64x512_0_0_0_0 inb_S3x2x512_S1x1x512_0_0_0
    (U1 x0) (U2 x0) (halves (row x0 r)).1 (halves (row x0 r)).2 r (U1_apply x0 r) (U2_apply x0 r) c).trans ?_
  rfl

theorem b1_apply (r : Fin 2048) (c : Fin 256) :
    b1 x0 x1 x2 x3 x4 (ix2 r c) = (layer P 0 (halves (row x0 r))).2 c := by
  unfold b1
  refine (cplAt_apply P x1 x2 x3 x4 hF 0 1 (by omega) (by omega) inb_S3x2x256x64_S1x1x256x64_0_1_0_0 inb_S3x2x64_S1x1x64_0_1_0 inb_S3x2x64x512_S1x1x64x512_0_1_0_0 inb_S3x2x512_S1x1x512_0_1_0
    (U2 x0) (a1 x0 x1 x2 x3 x4) (halves (row x0 r)).2 (layer P 0 (halves (row x0 r))).1 r (U2_apply x0 r) (a1_apply x0 x1 x2 x3 x4 P hF r) c).trans ?_
  rfl

theorem a2_apply (r : Fin 2048) (c : Fin 256) :
    a2 x0 x1 x2 x3 x4 (ix2 r c) = (layer P 1 (layer P 0 (halves (row x0 r)))).1 c := by
  unfold a2
  refine (cplAt_apply P x1 x2 x3 x4 hF 1 0 (by omega) (by omega) inb_S3x2x256x64_S1x1x256x64_1_0_0_0 inb_S3x2x64_S1x1x64_1_0_0 inb_S3x2x64x512_S1x1x64x512_1_0_0_0 inb_S3x2x512_S1x1x512_1_0_0
    (a1 x0 x1 x2 x3 x4) (b1 x0 x1 x2 x3 x4) (layer P 0 (halves (row x0 r))).1 (layer P 0 (halves (row x0 r))).2 r (a1_apply x0 x1 x2 x3 x4 P hF r) (b1_apply x0 x1 x2 x3 x4 P hF r) c).trans ?_
  rfl

theorem b2_apply (r : Fin 2048) (c : Fin 256) :
    b2 x0 x1 x2 x3 x4 (ix2 r c) = (layer P 1 (layer P 0 (halves (row x0 r)))).2 c := by
  unfold b2
  refine (cplAt_apply P x1 x2 x3 x4 hF 1 1 (by omega) (by omega) inb_S3x2x256x64_S1x1x256x64_1_1_0_0 inb_S3x2x64_S1x1x64_1_1_0 inb_S3x2x64x512_S1x1x64x512_1_1_0_0 inb_S3x2x512_S1x1x512_1_1_0
    (b1 x0 x1 x2 x3 x4) (a2 x0 x1 x2 x3 x4) (layer P 0 (halves (row x0 r))).2 (layer P 1 (layer P 0 (halves (row x0 r)))).1 r (b1_apply x0 x1 x2 x3 x4 P hF r) (a2_apply x0 x1 x2 x3 x4 P hF r) c).trans ?_
  rfl

theorem a3_apply (r : Fin 2048) (c : Fin 256) :
    a3 x0 x1 x2 x3 x4 (ix2 r c) = (flow P (halves (row x0 r))).1 c := by
  unfold a3
  refine (cplAt_apply P x1 x2 x3 x4 hF 2 0 (by omega) (by omega) inb_S3x2x256x64_S1x1x256x64_2_0_0_0 inb_S3x2x64_S1x1x64_2_0_0 inb_S3x2x64x512_S1x1x64x512_2_0_0_0 inb_S3x2x512_S1x1x512_2_0_0
    (a2 x0 x1 x2 x3 x4) (b2 x0 x1 x2 x3 x4) (layer P 1 (layer P 0 (halves (row x0 r)))).1 (layer P 1 (layer P 0 (halves (row x0 r)))).2 r (a2_apply x0 x1 x2 x3 x4 P hF r) (b2_apply x0 x1 x2 x3 x4 P hF r) c).trans ?_
  rfl

theorem b3_apply (r : Fin 2048) (c : Fin 256) :
    b3 x0 x1 x2 x3 x4 (ix2 r c) = (flow P (halves (row x0 r))).2 c := by
  unfold b3
  refine (cplAt_apply P x1 x2 x3 x4 hF 2 1 (by omega) (by omega) inb_S3x2x256x64_S1x1x256x64_2_1_0_0 inb_S3x2x64_S1x1x64_2_1_0 inb_S3x2x64x512_S1x1x64x512_2_1_0_0 inb_S3x2x512_S1x1x512_2_1_0
    (b2 x0 x1 x2 x3 x4) (a3 x0 x1 x2 x3 x4) (layer P 1 (layer P 0 (halves (row x0 r)))).2 (flow P (halves (row x0 r))).1 r (b2_apply x0 x1 x2 x3 x4 P hF r) (a3_apply x0 x1 x2 x3 x4 P hF r) c).trans ?_
  rfl

end Chain

end Cert.KernelIdeal.Block

end
-- ==== Proof.KernelOut.lean ====
/-
  The block the kernel body leaves, whole: three stores — the first half after the six couplings into columns 0..255,
  the second half into columns 256..511, the last column as loaded into column 512 — and every entry of the block is
  under exactly the store that gives it the flow's value there.
-/
import proofs.«112143_j44229573214415_2_alg».proof.Proof.KernelBlock

set_option maxRecDepth 16384

noncomputable section

namespace Cert.KernelIdeal.Block

open Cert.KernelIdeal Cert.KernelIdeal.Gen Cert.KernelIdeal.Body Cert.Flow
open Idealize.ShloMosaic Idealize.ShloMosaic.ValueIdx Idealize.ShloMosaic.TcCoe Idealize.ShloMosaic.Tactic Idealize.SL.Sem

/-- Row r of the block the body leaves is the flow of row r of the block it loaded. -/
def blockG (P : Params) (x0 : Vec Ideal S2048x513 .f32) : S2048x513.Idx → EReal :=
  fun y => Flow.out P (fun cc => x0 (ix2 (y 0) cc)) (y 1)

theorem emb_colT (r : Fin 2048) (q : Fin 1) :
    (Rect.unit (s := S2048x513) ![0, 512] S2048x1.size inb_S2048x513_S2048x1_0_512).emb (ix2 r q) = ix2 r colT := by
  funext a; apply Fin.ext
  match a with
  | ⟨0, _⟩ => show 0 + 1 * r.val = r.val; omega
  | ⟨1, _⟩ => show 512 + 1 * q.val = 512; omega

theorem emb_colB (r : Fin 2048) (cc : Fin 256) :
    (Rect.unit (s := S2048x513) ![0, 256] S2048x256.size inb_S2048x513_S2048x256_0_256).emb (ix2 r cc) = ix2 r (colB cc) := by
  funext a; apply Fin.ext
  match a with
  | ⟨0, _⟩ => show 0 + 1 * r.val = r.val; omega
  | ⟨1, _⟩ => show 256 + 1 * cc.val = 256 + cc.val; omega

theorem emb_colA (r : Fin 2048) (cc : Fin 256) :
    (Rect.unit (s := S2048x513) ![0, 0] S2048x256.size inb_S2048x513_S2048x256_0_0).emb (ix2 r cc) = ix2 r (colA cc) := by
  funext a; apply Fin.ext
  match a with
  | ⟨0, _⟩ => show 0 + 1 * r.val = r.val; omega
  | ⟨1, _⟩ => show 0 + 1 * cc.val = cc.val; omega

/-- The block the body leaves in its output's staging buffer, from the blocks it loaded. -/
theorem out_eq (P : Params) (c : Dev nD) (i : grid0.Coords)
    (arg1 : Memref sig .tc .vmem S2048x513 .f32) (harg1 : arg1.IsWhole) (arg2 : Memref sig .tc .vmem S3x2x256x64 .bf16) (harg2 : arg2.IsWhole)
    (arg3 : Memref sig .tc .vmem S3x2x64 .f32) (harg3 : arg3.IsWhole) (arg4 : Memref sig .tc .vmem S3x2x64x512 .bf16) (harg4 : arg4.IsWhole)
    (arg5 : Memref sig .tc .vmem S3x2x512 .f32) (harg5 : arg5.IsWhole) (arg6 : Memref sig .tc .vmem S2048x513 .f32) (harg6 : arg6.IsWhole)
    (x0 : Vec Ideal S2048x513 .f32) (x1 : Vec Ideal S3x2x256x64 .bf16) (x2 : Vec Ideal S3x2x64 .f32)
    (x3 : Vec Ideal S3x2x64x512 .bf16) (x4 : Vec Ideal S3x2x512 .f32) (hF : Fused P x1 x2 x3 x4) :
    out0_A_5 (F := Ideal) c i arg1 harg1 arg2 harg2 arg3 harg3 arg4 harg4 arg5 harg5 arg6 harg6 x0 x1 x2 x3 x4 = blockG P x0 := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces (blockG P x0) _ ?_ y
    (cover0_A_5 c i arg1 harg1 arg2 harg2 arg3 harg3 arg4 harg4 arg5 harg5 arg6 harg6 x0 x1 x2 x3 x4 y)
  unfold kernelRun0_A
  dsimp only
  sl_unfold_words
  simp only [View.readAt_eq_ld, harg1.read_unread, harg2.read_unread, harg3.read_unread, harg4.read_unread, harg5.read_unread]
  intro p hp x
  rcases List.mem_cons.mp hp with rfl | hp
  · obtain ⟨r, q, rfl⟩ : ∃ (r : Fin 2048) (q : Fin 1), x = ix2 r q := ⟨x 0, x 1, eq_ix2 x⟩
    show T0 x0 (ix2 r q) = blockG P x0 ((Rect.unit (s := S2048x513) ![0, 512] S2048x1.size inb_S2048x513_S2048x1_0_512).emb (ix2 r q))
    rw [emb_colT, T0_apply]
    exact (out_colT P (fun cc => x0 (ix2 r cc))).symm
  rcases List.mem_cons.mp hp with rfl | hp
  · obtain ⟨r, cc, rfl⟩ : ∃ (r : Fin 2048) (cc : Fin 256), x = ix2 r cc := ⟨x 0, x 1, eq_ix2 x⟩
    show b3 x0 x1 x2 x3 x4 (ix2 r cc)
      = blockG P x0 ((Rect.unit (s := S2048x513) ![0, 256] S2048x256.size inb_S2048x513_S2048x256_0_256).emb (ix2 r cc))
    rw [emb_colB, b3_apply x0 x1 x2 x3 x4 P hF]
    exact (out_colB P _ cc).symm
  rcases List.mem_cons.mp hp with rfl | hp
  · obtain ⟨r, cc, rfl⟩ : ∃ (r : Fin 2048) (cc : Fin 256), x = ix2 r cc := ⟨x 0, x 1, eq_ix2 x⟩
    show a3 x0 x1 x2 x3 x4 (ix2 r cc)
      = blockG P x0 ((Rect.unit (s := S2048x513) ![0, 0] S2048x256.size inb_S2048x513_S2048x256_0_0).emb (ix2 r cc))
    rw [emb_colA, a3_apply x0 x1 x2 x3 x4 P hF]
    exact (out_colA P _ cc).symm
  · exact absurd hp List.not_mem_nil

end Cert.KernelIdeal.Block

end
-- ==== Proof.KernelArray.lean ====
/-
  From the blocks to the whole result array.

  The kernel walks the 131072 input rows in 64 steps of 2048 rows. At step t it loads rows 2048 t … 2048 t + 2047 (all
  513 columns) and the four fused weight arrays whole, turns every loaded row into the flow of that row, and writes the
  2048 result rows back to the same rows of the result array. Every row of the result array belongs to exactly one step
  (row i to step i / 2048), and every step writes back; so the result array ends holding, row by row, the flow of the
  input array — provided the fused weight arrays hold the slots' weights, which is the hypothesis carried through.
-/
import proofs.«112143_j44229573214415_2_alg».proof.Proof.KernelOut
import proofs.«112143_j44229573214415_2_alg».proof.Proof.Gen.KernelIdeal.Value

set_option maxRecDepth 16384

noncomputable section

namespace Cert.KernelIdeal.Arr

open Cert.KernelIdeal Cert.KernelIdeal.Gen Cert.Flow
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## What the run is compared with -/

/-- The weights as they are at launch on core `c`. -/
abbrev PP (c : Dev nD) : Params :=
  Params.of (m ((c : Thread nD τ).loc main_arg1)) (m ((c : Thread nD τ).loc main_arg2))
    (m ((c : Thread nD τ).loc main_arg3)) (m ((c : Thread nD τ).loc main_arg4))

/-- The flow of the whole input array under those weights: what the result array ends holding. -/
abbrev GG (c : Dev nD) : S131072x513.Idx → EReal :=
  Cert.Flow.G (m ((c : Thread nD τ).loc main_arg0)) (m ((c : Thread nD τ).loc main_arg1))
    (m ((c : Thread nD τ).loc main_arg2)) (m ((c : Thread nD τ).loc main_arg3)) (m ((c : Thread nD τ).loc main_arg4))

/-! ## Where the blocks lie -/

/-- The block indices over the 64 grid points: the input rows and the result rows move with the point, 2048 rows a
    point, all 513 columns; each weight array is one block, the whole array, at every point. -/
theorem idx_facts : ∀ t : Fin cfg0.N, t.val < 64
    ∧ win0_0.index t (0 : Fin 2) = t.val ∧ win0_0.index t (1 : Fin 2) = 0
    ∧ win0_5.index t (0 : Fin 2) = t.val ∧ win0_5.index t (1 : Fin 2) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 3) = 0 ∧ win0_2.index t (1 : Fin 3) = 0 ∧ win0_2.index t (2 : Fin 3) = 0
    ∧ win0_3.index t (0 : Fin 4) = 0 ∧ win0_3.index t (1 : Fin 4) = 0 ∧ win0_3.index t (2 : Fin 4) = 0 ∧ win0_3.index t (3 : Fin 4) = 0
    ∧ win0_4.index t (0 : Fin 3) = 0 ∧ win0_4.index t (1 : Fin 3) = 0 ∧ win0_4.index t (2 : Fin 3) = 0 :=
  (by decide +kernel : ∀ t : Fin grid0.N, _)

/-- Every one of the 64 row blocks is some point's. -/
theorem idx_onto : ∀ q : Fin 64, ∃ t : Fin cfg0.N, win0_5.index t (0 : Fin 2) = q.val ∧ win0_5.index t (1 : Fin 2) = 0 :=
  (by decide +kernel : ∀ q : Fin 64, ∃ t : Fin grid0.N, win0_5.index t (0 : Fin 2) = q.val ∧ win0_5.index t (1 : Fin 2) = 0)

/-! ## The blocks the body loads -/

/-- The first-layer weights' block is the whole array. -/
theorem iblk1_eq (c : Dev nD) (t : Fin cfg0.N) : (iblk m c 1 t : S3x2x256x64.Idx → EReal) = V m c main_v57 := by
  obtain ⟨-, -, -, -, -, e0, e1, e2, e3, -⟩ := idx_facts t
  funext y
  unfold iblk
  rw [View.read_apply]
  show V m c main_v57 _ = V m c main_v57 y
  congr 1
  funext a; apply Fin.ext
  match a with
  | ⟨0, _⟩ => show win0_1.index t (0 : Fin 4) * 3 + 1 * (y 0).val = (y 0).val; omega
  | ⟨1, _⟩ => show win0_1.index t (1 : Fin 4) * 2 + 1 * (y 1).val = (y 1).val; omega
  | ⟨2, _⟩ => show win0_1.index t (2 : Fin 4) * 256 + 1 * (y 2).val = (y 2).val; omega
  | ⟨3, _⟩ => show win0_1.index t (3 : Fin 4) * 64 + 1 * (y 3).val = (y 3).val; omega

/-- The first-layer biases' block is the whole array. -/
theorem iblk2_eq (c : Dev nD) (t : Fin cfg0.N) : (iblk m c 2 t : S3x2x64.Idx → EReal) = V m c main_v50 := by
  obtain ⟨-, -, -, -, -, -, -, -, -, e0, e1, e2, -⟩ := idx_facts t
  funext y
  unfold iblk
  rw [View.read_apply]
  show V m c main_v50 _ = V m c main_v50 y
  congr 1
  funext a; apply Fin.ext
  match a with
  | ⟨0, _⟩ => show win0_2.index t (0 : Fin 3) * 3 + 1 * (y 0).val = (y 0).val; omega
  | ⟨1, _⟩ => show win0_2.index t (1 : Fin 3) * 2 + 1 * (y 1).val = (y 1).val; omega
  | ⟨2, _⟩ => show win0_2.index t (2 : Fin 3) * 64 + 1 * (y 2).val = (y 2).val; omega

/-- The second-layer weights' block is the whole array. -/
theorem iblk3_eq (c : Dev nD) (t : Fin cfg0.N) : (iblk m c 3 t : S3x2x64x512.Idx → EReal) = V m c main_v58 := by
  obtain ⟨-, -, -, -, -, -, -, -, -, -, -, -, e0, e1, e2, e3, -⟩ := idx_facts t
  funext y
  unfold iblk
  rw [View.read_apply]
  show V m c main_v58 _ = V m c main_v58 y
  congr 1
  funext a; apply Fin.ext
  match a with
  | ⟨0, _⟩ => show win0_3.index t (0 : Fin 4) * 3 + 1 * (y 0).val = (y 0).val; omega
  | ⟨1, _⟩ => show win0_3.index t (1 : Fin 4) * 2 + 1 * (y 1).val = (y 1).val; omega
  | ⟨2, _⟩ => show win0_3.index t (2 : Fin 4) * 64 + 1 * (y 2).val = (y 2).val; omega
  | ⟨3, _⟩ => show win0_3.index t (3 : Fin 4) * 512 + 1 * (y 3).val = (y 3).val; omega

/-- The second-layer biases' block is the whole array. -/
theorem iblk4_eq (c : Dev nD) (t : Fin cfg0.N) : (iblk m c 4 t : S3x2x512.Idx → EReal) = V m c main_v56 := by
  obtain ⟨-, -, -, -, -, -, -, -, -, -, -, -, -, -, -, -, e0, e1, e2⟩ := idx_facts t
  funext y
  unfold iblk
  rw [View.read_apply]
  show V m c main_v56 _ = V m c main_v56 y
  congr 1
  funext a; apply Fin.ext
  match a with
  | ⟨0, _⟩ => show win0_4.index t (0 : Fin 3) * 3 + 1 * (y 0).val = (y 0).val; omega
  | ⟨1, _⟩ => show win0_4.index t (1 : Fin 3) * 2 + 1 * (y 1).val = (y 1).val; omega
  | ⟨2, _⟩ => show win0_4.index t (2 : Fin 3) * 512 + 1 * (y 2).val = (y 2).val; omega

/-- The input's block at point `t` is rows `2048 t … 2048 t + 2047` of the input as launched, all columns. -/
theorem iblk0_apply (c : Dev nD) (t : Fin cfg0.N) (y : S2048x513.Idx) (i : S131072x513.Idx)
    (h0 : (i 0).val = t.val * 2048 + (y 0).val) (h1 : (i 1).val = (y 1).val) :
    (iblk m c 0 t : S2048x513.Idx → EReal) y = m ((c : Thread nD τ).loc main_arg0) i := by
  obtain ⟨-, e0, e1, -⟩ := idx_facts t
  unfold iblk
  rw [View.read_apply]
  show V m c main_arg0 _ = _
  rw [V_main_arg0]
  congr 1
  funext a; apply Fin.ext
  match a with
  | ⟨0, _⟩ => show win0_0.index t (0 : Fin 2) * 2048 + 1 * (y 0).val = (i 0).val; omega
  | ⟨1, _⟩ => show win0_0.index t (1 : Fin 2) * 513 + 1 * (y 1).val = (i 1).val; omega

/-! ## What each point writes back -/

/-- Point `t` writes back block `t` of the flow of the input: the body turns each row it loaded into the flow of that
    row, the rows it loaded are rows `2048 t …` of the input, and it writes them back to the same rows. -/
theorem flushed_eq (c : Dev nD)
    (hV : Block.Fused (PP m c) (V m c main_v57) (V m c main_v50) (V m c main_v58) (V m c main_v56)) (t : Fin cfg0.N) :
    (dats m 0 c).flushed 5 t = ((cfg0.win 5).blk t).view.read (Elt Ideal) (GG m c) := by
  have hF : Block.Fused (PP m c) (iblk m c 1 t) (iblk m c 2 t) (iblk m c 3 t) (iblk m c 4 t) := by
    rw [iblk1_eq m c t, iblk2_eq m c t, iblk3_eq m c t, iblk4_eq m c t]; exact hV
  obtain ⟨-, -, -, e0, e1, -⟩ := idx_facts t
  rw [Cert.KernelIdeal.Value.flushed5_A,
    Block.out_eq (PP m c) c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t) hF]
  funext j
  show Block.blockG (PP m c) (iblk m c 0 t) ((cfg0.win 5).xinj (grid0.coords t) j) = GG m c (((cfg0.win 5).blk t).view.emb j)
  refine congrArg₂ (Flow.out (PP m c)) (funext fun cc => ?_) (Fin.ext ?_)
  · refine iblk0_apply m c t _ _ ?_ rfl
    show win0_5.index t (0 : Fin 2) * 2048 + 1 * (j 0).val = t.val * 2048 + (j 0).val
    omega
  · show (j 1).val = win0_5.index t (1 : Fin 2) * 513 + 1 * (j 1).val
    omega

/-! ## The blocks fill the array -/

/-- An index of the result array is in point `t`'s block iff each coordinate is in the block's range on its axis. -/
theorem mem_blk (t : Fin cfg0.N) (i : S131072x513.Idx) :
    i ∈ ((cfg0.win 5).blk t).view.set ↔ ∀ a : Fin 2, win0_5.index t a * S2048x513.size a ≤ (i a).val
      ∧ (i a).val < win0_5.index t a * S2048x513.size a + S2048x513.size a := by
  show i ∈ ((View.whole main_v59).slice (win0_5.rect t)).set ↔ _
  rw [View.set_slice_whole, Rect.mem_set_unit]
  exact Iff.rfl

/-- Every index of the result array is in the block of the point its row falls to: 131072 rows are 64 blocks of 2048,
    and a block holds all 513 columns. Every point writes its block back. -/
theorem cover (i : S131072x513.Idx) :
    ∃ t : Fin cfg0.N, (cfg0.win 5).flush t = true ∧ i ∈ ((cfg0.win 5).blk t).view.set := by
  have hi0 : (i 0).val < 131072 := (i 0).isLt
  have hi1 : (i 1).val < 513 := (i 1).isLt
  obtain ⟨t, q0, q1⟩ := idx_onto ⟨(i 0).val / 2048, by omega⟩
  have q0' : win0_5.index t (0 : Fin 2) = (i 0).val / 2048 := q0
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 513 ≤ (i 1).val ∧ (i 1).val < win0_5.index t (1 : Fin 2) * 513 + 513
    omega

/-- The result array after the run is the flow of the input array. -/
theorem final (c : Dev nD)
    (hV : Block.Fused (PP m c) (V m c main_v57) (V m c main_v50) (V m c main_v58) (V m c main_v56)) :
    (dats m 0 c).arrAt 5 cfg0.N = GG m c :=
  (dats m 0 c).arrAt_eq_of_cover 5 (GG m c) (fun t _ => flushed_eq m c hV t) (fun i => cover i)

/-! ## The run -/

/-- Given that the four fused weight arrays the host prepares hold the slots' weights, every weakly fair execution of
    the kernel's program ends with the result array at the flow of the input array under the weights as launched, and
    the five arguments unchanged. -/
theorem run (hV : ∀ c : Dev nD, Block.Fused (PP m c) (V m c main_v57) (V m c main_v50) (V m c main_v58) (V m c main_v56)) :
    θ_run defs (onTc (τ := τ) (main (F := Ideal))) ⟨m, fun _ => 0, ρ⟩ fun r => ∀ c : Dev nD,
      r.2.mem ((c : Thread nD τ).loc main_v59)
          = Cert.Flow.G (m ((c : Thread nD τ).loc main_arg0)) (m ((c : Thread nD τ).loc main_arg1))
              (m ((c : Thread nD τ).loc main_arg2)) (m ((c : Thread nD τ).loc main_arg3))
              (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hV c)), (h c).2⟩)
    (Cert.KernelIdeal.Value.run_blocks m ρ)

end Cert.KernelIdeal.Arr

end
-- ==== Proof.FusedFirst.lean ====
/-
  The fused first-layer weights the kernel's host operations build, entry by entry.

  For coupling p of layer j the array [3, 2, 256, 64] holds a matrix 256 × 64: its hidden units 0..31 are the first-layer
  weights of the scale slot, its hidden units 32..63 those of the shift slot. It is built by cutting the two slots out
  of the weight array, laying them side by side along the hidden units, and stacking the two couplings along a new
  axis; the last change of float format is the identity on exact values.
-/
import proofs.«112143_j44229573214415_2_alg».proof.Proof.Gen.KernelIdeal.Frame.Runs
import proofs.«112143_j44229573214415_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.FusedFirst

open Cert.KernelIdeal Cert.KernelIdeal.Gen Cert.Flow
open Idealize.ShloMosaic Idealize.ShloMosaic.ValueIdx Idealize.ShloMosaic.TcCoe Idealize.SL.Sem

/-! ## The pieces, on arrays -/

/-- Slot `an` of the first-layer weights, the slot axis dropped: [3, 256, 32]. -/
def slot (A : FVec Ideal S3x4x256x32 .f32) (an : ℕ) (hs : S3x4x256x32.Slices ![0, an, 0, 0] S3x1x256x32) : FVec Ideal S3x256x32 .f32 :=
  shapeCast S3x256x32 (extractStridedSlice S3x1x256x32 ![0, an, 0, 0] A hs) shapeCasts_S3x1x256x32_S3x256x32

/-- Two slots side by side along the hidden units: `X` in units 0..31, `Y` in units 32..63. -/
def beside (X Y : FVec Ideal S3x256x32 .f32) : FVec Ideal S3x256x64 .f32 :=
  concatenate S3x256x64 2 [⟨S3x256x32, X⟩, ⟨S3x256x32, Y⟩] concatenates_S3x256x32_S3x256x32_S3x256x64_d2

/-- The two couplings of every layer stacked along a new axis; -/
def stack (D0 D1 : FVec Ideal S3x256x64 .f32) : FVec Ideal S3x2x256x64 .f32 :=
  concatenate S3x2x256x64 1
    [⟨S3x1x256x64, broadcastInDim S3x1x256x64 ![0, 2, 3] bcast_S3x256x64_S3x1x256x64_0_2_3 D0⟩,
     ⟨S3x1x256x64, broadcastInDim S3x1x256x64 ![0, 2, 3] bcast_S3x256x64_S3x1x256x64_0_2_3 D1⟩]
    concatenates_S3x1x256x64_S3x1x256x64_S3x2x256x64_d1

/-- and the stack in the kernel's operand format (the same exact values). -/
def pair (D0 D1 : FVec Ideal S3x256x64 .f32) : FVec Ideal S3x2x256x64 .bf16 :=
  truncf .bf16 (stack D0 D1) bitsLt_bf16_f32

/-! ## The pieces, entry by entry -/

theorem slot_apply (A : FVec Ideal S3x4x256x32 .f32) (an : ℕ) (ha : an < 4) (hs : S3x4x256x32.Slices ![0, an, 0, 0] S3x1x256x32)
    (j : Fin 3) (q : Fin 256) (k : Fin 32) : slot A an hs (ix3 j q k) = A (ix4 j ⟨an, ha⟩ q k) := by
  unfold slot
  refine (shapeCast_apply (s := S3x1x256x32) _ shapeCasts_S3x1x256x32_S3x256x32 (ix3 j q k) (ix4 j (0 : Fin 1) q k) ?_).trans ?_
  · rw [Shape.rowMajor_val_four, Shape.rowMajor_val_three]
    show ((j.val * 1 + 0) * 256 + q.val) * 32 + k.val = (j.val * 256 + q.val) * 32 + k.val
    omega
  · exact extractStridedSlice_apply _ _ _ _ _ (fun ax => by
      match ax with
      | ⟨0, _⟩ => show j.val = 0 + j.val; omega
      | ⟨1, _⟩ => show an = an + 0; omega
      | ⟨2, _⟩ => show q.val = 0 + q.val; omega
      | ⟨3, _⟩ => show k.val = 0 + k.val; omega)

/-- Hidden units 0..31: `X`. -/
theorem beside_l (X Y : FVec Ideal S3x256x32 .f32) (j : Fin 3) (q : Fin 256) (k : Fin 32) :
    beside X Y (ix3 j q (l32 k)) = X (ix3 j q k) := by
  unfold beside
  exact concatenate_pair_apply_left (t := S3x256x64) (s₁ := S3x256x32) (s₂ := S3x256x32) 2 _ _ _ (ix3 j q (l32 k)) rfl
    (ix3 j q k) (fun b => by match b with | ⟨0, _⟩ => rfl | ⟨1, _⟩ => rfl | ⟨2, _⟩ => rfl)

/-- Hidden units 32..63: `Y`. -/
theorem beside_r (X Y : FVec Ideal S3x256x32 .f32) (j : Fin 3) (q : Fin 256) (k : Fin 32) :
    beside X Y (ix3 j q (r32 k)) = Y (ix3 j q k) := by
  unfold beside
  exact concatenate_pair_apply_right (t := S3x256x64) (s₁ := S3x256x32) (s₂ := S3x256x32) 2 _ _ _ (ix3 j q (r32 k)) rfl rfl
    (ix3 j q k) (fun b hb => by match b with | ⟨0, _⟩ => rfl | ⟨1, _⟩ => rfl | ⟨2, _⟩ => exact absurd rfl hb)
    (by show k.val + 32 = 32 + k.val; omega)

/-- Coupling 0 of the stack is the first matrix, coupling 1 the second. -/
theorem pair_apply0 (D0 D1 : FVec Ideal S3x256x64 .f32) (j : Fin 3) (q : Fin 256) (k : Fin 64) :
    pair D0 D1 (ix4 j (0 : Fin 2) q k) = D0 (ix3 j q k) := by
  show stack D0 D1 (ix4 j (0 : Fin 2) q k) = _
  unfold stack
  refine (concatenate_pair_apply_left (t := S3x2x256x64) (s₁ := S3x1x256x64) (s₂ := S3x1x256x64) 1 _ _ _ (ix4 j (0 : Fin 2) q k) rfl
    (ix4 j (0 : Fin 1) q k) (fun b => by match b with | ⟨0, _⟩ => rfl | ⟨1, _⟩ => rfl | ⟨2, _⟩ => rfl | ⟨3, _⟩ => rfl)).trans ?_
  exact broadcastInDim_apply (s := S3x256x64) _ bcast_S3x256x64_S3x1x256x64_0_2_3 D0 (ix4 j (0 : Fin 1) q k) (ix3 j q k)
    (fun a => by match a with | ⟨0, _⟩ => rfl | ⟨1, _⟩ => rfl | ⟨2, _⟩ => rfl)

theorem pair_apply1 (D0 D1 : FVec Ideal S3x256x64 .f32) (j : Fin 3) (q : Fin 256) (k : Fin 64) :
    pair D0 D1 (ix4 j (1 : Fin 2) q k) = D1 (ix3 j q k) := by
  show stack D0 D1 (ix4 j (1 : Fin 2) q k) = _
  unfold stack
  refine (concatenate_pair_apply_right (t := S3x2x256x64) (s₁ := S3x1x256x64) (s₂ := S3x1x256x64) 1 _ _ _ (ix4 j (1 : Fin 2) q k) rfl rfl
    (ix4 j (0 : Fin 1) q k) (fun b hb => by match b with | ⟨0, _⟩ => rfl | ⟨1, _⟩ => exact absurd rfl hb | ⟨2, _⟩ => rfl | ⟨3, _⟩ => rfl)
    (by show 0 + 1 = 1; rfl)).trans ?_
  exact broadcastInDim_apply (s := S3x256x64) _ bcast_S3x256x64_S3x1x256x64_0_2_3 D1 (ix4 j (0 : Fin 1) q k) (ix3 j q k)
    (fun a => by match a with | ⟨0, _⟩ => rfl | ⟨1, _⟩ => rfl | ⟨2, _⟩ => rfl)

/-! ## The array the region finds -/

section Memory

variable (m : (ℓ : Loc nD τ sig) → Buf (Elt Ideal) ℓ) (c : Dev nD)

/-- Two-piece concatenations with equal pieces are equal. -/
theorem concat_congr {α : Type} {t s₁ s₂ : Shape} {a : Fin t.rank} {x₁ x₁' : s₁.Idx → α} {x₂ x₂' : s₂.Idx → α}
    {h : Shape.Concatenates [s₁, s₂] t a} (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

/-- The first-layer weight array as launched. -/
abbrev A1 : FVec Ideal S3x4x256x32 .f32 := m ((c : Thread nD τ).loc main_arg1)

theorem v2_eq : (V m c main_v2 : S3x256x32.Idx → EReal) = slot (A1 m c) 1 slices_S3x4x256x32_S3x1x256x32_0_1_0_0 := by
  dsimp only [Gen.V, Gen.hostOps0]; after_results_simp; rfl
theorem v4_eq : (V m c main_v4 : S3x256x32.Idx → EReal) = slot (A1 m c) 3 slices_S3x4x256x32_S3x1x256x32_0_3_0_0 := by
  dsimp only [Gen.V, Gen.hostOps0]; after_results_simp; rfl
theorem v24_eq : (V m c main_v24 : S3x256x32.Idx → EReal) = slot (A1 m c) 0 slices_S3x4x256x32_S3x1x256x32_0_0_0_0 := by
  dsimp only [Gen.V, Gen.hostOps0]; after_results_simp; rfl
theorem v26_eq : (V m c main_v26 : S3x256x32.Idx → EReal) = slot (A1 m c) 2 slices_S3x4x256x32_S3x1x256x32_0_2_0_0 := by
  dsimp only [Gen.V, Gen.hostOps0]; after_results_simp; rfl

/-- Each stage in terms of the stages before it. -/
theorem v5_st : (V m c main_v5 : S3x256x64.Idx → EReal) = concatenate S3x256x64 2 [⟨S3x256x32, V m c main_v2⟩, ⟨S3x256x32, V m c main_v4⟩] concatenates_S3x256x32_S3x256x32_S3x256x64_d2 := by
  dsimp only [Gen.V, Gen.hostOps0]; after_results_simp; try rfl
theorem v27_st : (V m c main_v27 : S3x256x64.Idx → EReal) = concatenate S3x256x64 2 [⟨S3x256x32, V m c main_v24⟩, ⟨S3x256x32, V m c main_v26⟩] concatenates_S3x256x32_S3x256x32_S3x256x64_d2 := by
  dsimp only [Gen.V, Gen.hostOps0]; after_results_simp; try rfl
theorem v45_st : (V m c main_v45 : S3x1x256x64.Idx → EReal) = broadcastInDim (s := S3x256x64) S3x1x256x64 ![0, 2, 3] bcast_S3x256x64_S3x1x256x64_0_2_3 (V m c main_v5) := by
  dsimp only [Gen.V, Gen.hostOps0]; after_results_simp; try rfl
theorem v46_st : (V m c main_v46 : S3x1x256x64.Idx → EReal) = broadcastInDim (s := S3x256x64) S3x1x256x64 ![0, 2, 3] bcast_S3x256x64_S3x1x256x64_0_2_3 (V m c main_v27) := by
  dsimp only [Gen.V, Gen.hostOps0]; after_results_simp; try rfl
theorem v47_st : (V m c main_v47 : S3x2x256x64.Idx → EReal) = concatenate S3x2x256x64 1 [⟨S3x1x256x64, V m c main_v45⟩, ⟨S3x1x256x64, V m c main_v46⟩] concatenates_S3x1x256x64_S3x1x256x64_S3x2x256x64_d1 := by
  dsimp only [Gen.V, Gen.hostOps0]; after_results_simp; try rfl
theorem v57_st : @Eq (S3x2x256x64.Idx → EReal) (V m c main_v57)
    (truncf (F := Ideal) (s := S3x2x256x64) .bf16 (V m c main_v47) bitsLt_bf16_f32) := by
  dsimp only [Gen.V, Gen.hostOps0]; after_results_simp; try rfl

/-- The side-by-side matrix of one coupling of every layer. -/
theorem v5_eq : (V m c main_v5 : S3x256x64.Idx → EReal)
    = beside (slot (A1 m c) 1 slices_S3x4x256x32_S3x1x256x32_0_1_0_0) (slot (A1 m c) 3 slices_S3x4x256x32_S3x1x256x32_0_3_0_0) :=
  (v5_st m c).trans (concat_congr (v2_eq m c) (v4_eq m c))

theorem v27_eq : (V m c main_v27 : S3x256x64.Idx → EReal)
    = beside (slot (A1 m c) 0 slices_S3x4x256x32_S3x1x256x32_0_0_0_0) (slot (A1 m c) 2 slices_S3x4x256x32_S3x1x256x32_0_2_0_0) :=
  (v27_st m c).trans (concat_congr (v24_eq m c) (v26_eq m c))

/-- The whole fused first-layer array: coupling 0 slots (1, 3), coupling 1 slots (0, 2). -/
theorem v57_eq : (V m c main_v57 : S3x2x256x64.Idx → EReal)
    = pair (beside (slot (A1 m c) 1 slices_S3x4x256x32_S3x1x256x32_0_1_0_0) (slot (A1 m c) 3 slices_S3x4x256x32_S3x1x256x32_0_3_0_0))
        (beside (slot (A1 m c) 0 slices_S3x4x256x32_S3x1x256x32_0_0_0_0) (slot (A1 m c) 2 slices_S3x4x256x32_S3x1x256x32_0_2_0_0)) :=
  (v57_st m c).trans (congrArg (fun X : S3x2x256x64.Idx → EReal => truncf (F := Ideal) (s := S3x2x256x64) .bf16 X bitsLt_bf16_f32)
    ((v47_st m c).trans (concat_congr
      ((v45_st m c).trans (congrArg (broadcastInDim (s := S3x256x64) S3x1x256x64 ![0, 2, 3] bcast_S3x256x64_S3x1x256x64_0_2_3) (v5_eq m c)))
      ((v46_st m c).trans (congrArg (broadcastInDim (s := S3x256x64) S3x1x256x64 ![0, 2, 3] bcast_S3x256x64_S3x1x256x64_0_2_3) (v27_eq m c))))))

/-! ## The two halves of every coupling's matrix -/

theorem w1_l (j : Fin 3) (p : Fin 2) (q : Fin 256) (k : Fin 32) :
    (V m c main_v57 : S3x2x256x64.Idx → EReal) (ix4 j p q (l32 k)) = A1 m c (ix4 j (slotS p) q k) := by
  rw [v57_eq]
  match p with
  | ⟨0, _⟩ => exact (pair_apply0 _ _ j _ _).trans ((beside_l _ _ j q k).trans (slot_apply _ 1 (by omega) _ j q k))
  | ⟨1, _⟩ => exact (pair_apply1 _ _ j _ _).trans ((beside_l _ _ j q k).trans (slot_apply _ 0 (by omega) _ j q k))

theorem w1_r (j : Fin 3) (p : Fin 2) (q : Fin 256) (k : Fin 32) :
    (V m c main_v57 : S3x2x256x64.Idx → EReal) (ix4 j p q (r32 k)) = A1 m c (ix4 j (slotT p) q k) := by
  rw [v57_eq]
  match p with
  | ⟨0, _⟩ => exact (pair_apply0 _ _ j _ _).trans ((beside_r _ _ j q k).trans (slot_apply _ 3 (by omega) _ j q k))
  | ⟨1, _⟩ => exact (pair_apply1 _ _ j _ _).trans ((beside_r _ _ j q k).trans (slot_apply _ 2 (by omega) _ j q k))

end Memory

end Cert.KernelIdeal.FusedFirst

end
-- ==== Proof.FusedWeights.lean ====
/-
  The fused weights the kernel's host operations build, read index by index.

  Before its one region the program cuts each of the four weight arrays (layer j < 3, slot a < 4) into its slots, and for
  each coupling p < 2 puts the scale slot and the shift slot of that coupling side by side: the first-layer weights and
  both bias vectors along their last axis. The two couplings are then stacked along a new axis. Read at an index, every
  one of these steps only moves a coordinate: a slice adds its offset, dropping or inserting a unit axis changes no
  row-major position, a concatenation sends the first half of an axis to its first piece and the second half to its
  second piece, and a change of float format is the identity on extended reals. Composing them, the left half of the
  fused array at coupling p is the scale slot of p and the right half is its shift slot.
-/
import proofs.«112143_j44229573214415_2_alg».proof.Proof.Gen.KernelIdeal.Frame.Runs
import proofs.«112143_j44229573214415_2_alg».proof.Proof.Spec
import Idealize.ShloMosaic.Lib.ValueLayout

noncomputable section

namespace Cert.KernelIdeal.Fused

open Idealize.ShloMosaic Idealize.ShloMosaic.TcCoe Idealize.ShloMosaic.Tactic Idealize.ShloMosaic.ValueIdx
open Cert.KernelIdeal Cert.KernelIdeal.Gen

/-! ## The layout operations, read at an index -/

section Pieces

variable {α : Type}

/-- Two concatenations of two pieces agree when the pieces do. -/
theorem concat_pair_eq {t s₁ s₂ : Shape} {a : Fin t.rank} {x₁ x₁' : s₁.Idx → α} {x₂ x₂' : s₂.Idx → α}
    {h : Shape.Concatenates [s₁, s₂] t a} (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

/-- Slot `a` of a `3×4×n` array: the slice `[0:3, a:a+1, 0:n]` with its unit axis dropped. -/
abbrev slot3 {n : ℕ} (A : (⟨3, ![3, 4, n]⟩ : Shape).Idx → α) (a : ℕ)
    (hs : (⟨3, ![3, 4, n]⟩ : Shape).Slices ![0, a, 0] ⟨3, ![3, 1, n]⟩)
    (hc : (⟨3, ![3, 1, n]⟩ : Shape).ShapeCasts ⟨2, ![3, n]⟩) : (⟨2, ![3, n]⟩ : Shape).Idx → α :=
  shapeCast ⟨2, ![3, n]⟩ (extractStridedSlice ⟨3, ![3, 1, n]⟩ ![0, a, 0] A hs) hc

/-- Slot `a` at `(j, k)` is the array at `(j, a, k)`. -/
theorem slot3_apply {n : ℕ} (A : (⟨3, ![3, 4, n]⟩ : Shape).Idx → α) (a : ℕ) (ha : a < 4)
    (hs : (⟨3, ![3, 4, n]⟩ : Shape).Slices ![0, a, 0] ⟨3, ![3, 1, n]⟩)
    (hc : (⟨3, ![3, 1, n]⟩ : Shape).ShapeCasts ⟨2, ![3, n]⟩) (j : Fin 3) (k : Fin n) :
    slot3 A a hs hc (ix2 j k) = A (ix3 j ⟨a, ha⟩ k) := by
  refine (shapeCast_apply _ hc (ix2 j k) (ix3 j (0 : Fin 1) k) ?_).trans ?_
  · rw [Shape.rowMajor_val_three, Shape.rowMajor_val_two]
    show (j.val * 1 + 0) * n + k.val = j.val * n + k.val
    rw [Nat.mul_one, Nat.add_zero]
  · exact extractStridedSlice_apply _ A hs _ _ (fun b => by
      match b with
      | ⟨0, _⟩ => show j.val = 0 + j.val; omega
      | ⟨1, _⟩ => show a = a + 0; omega
      | ⟨2, _⟩ => show k.val = 0 + k.val; omega)

/-- Two `3×n` arrays side by side along the last axis, read in the left half … -/
theorem side2_left {n N : ℕ} (x y : (⟨2, ![3, n]⟩ : Shape).Idx → α)
    (h : Shape.Concatenates [⟨2, ![3, n]⟩, ⟨2, ![3, n]⟩] ⟨2, ![3, N]⟩ 1) (j : Fin 3) (k : Fin n) (k' : Fin N)
    (hk : k'.val = k.val) :
    concatenate ⟨2, ![3, N]⟩ 1 [⟨⟨2, ![3, n]⟩, x⟩, ⟨⟨2, ![3, n]⟩, y⟩] h (ix2 j k') = x (ix2 j k) :=
  concatenate_pair_apply_left 1 x y h _ rfl _ (fun b => by
    match b with
    | ⟨0, _⟩ => rfl
    | ⟨1, _⟩ => exact hk.symm)

/-- … and in the right half. -/
theorem side2_right {n N : ℕ} (x y : (⟨2, ![3, n]⟩ : Shape).Idx → α)
    (h : Shape.Concatenates [⟨2, ![3, n]⟩, ⟨2, ![3, n]⟩] ⟨2, ![3, N]⟩ 1) (j : Fin 3) (k : Fin n) (k' : Fin N)
    (hk : k'.val = n + k.val) :
    concatenate ⟨2, ![3, N]⟩ 1 [⟨⟨2, ![3, n]⟩, x⟩, ⟨⟨2, ![3, n]⟩, y⟩] h (ix2 j k') = y (ix2 j k) :=
  concatenate_pair_apply_right 1 x y h _ rfl rfl _ (fun b hb => by
    match b with
    | ⟨0, _⟩ => rfl
    | ⟨1, _⟩ => exact absurd rfl hb)
    (by show k.val + n = k'.val; omega)

/-- A unit axis inserted after the first: `[3, n] → [3, 1, n]`. -/
theorem lift2_apply {n : ℕ} (x : (⟨2, ![3, n]⟩ : Shape).Idx → α)
    (h : (⟨2, ![3, n]⟩ : Shape).BroadcastsInDim ⟨3, ![3, 1, n]⟩ ![0, 2]) (j : Fin 3) (u : Fin 1) (k : Fin n) :
    broadcastInDim ⟨3, ![3, 1, n]⟩ ![0, 2] h x (ix3 j u k) = x (ix2 j k) :=
  broadcastInDim_apply _ h x _ _ (fun a => by
    match a with
    | ⟨0, _⟩ =>
      show j.val = if (3 : ℕ) = 1 then 0 else j.val
      rw [if_neg (by decide)]
    | ⟨1, _⟩ =>
      show k.val = if n = 1 then 0 else k.val
      by_cases hn : n = 1
      · rw [if_pos hn]; have := k.isLt; omega
      · rw [if_neg hn])

/-- Two `3×1×n` arrays stacked along the unit axis: row 0 is the first … -/
theorem pair3_fst {n : ℕ} (x y : (⟨3, ![3, 1, n]⟩ : Shape).Idx → α)
    (h : Shape.Concatenates [⟨3, ![3, 1, n]⟩, ⟨3, ![3, 1, n]⟩] ⟨3, ![3, 2, n]⟩ 1) (j : Fin 3) (k : Fin n) :
    concatenate ⟨3, ![3, 2, n]⟩ 1 [⟨⟨3, ![3, 1, n]⟩, x⟩, ⟨⟨3, ![3, 1, n]⟩, y⟩] h (ix3 j (0 : Fin 2) k)
      = x (ix3 j (0 : Fin 1) k) :=
  concatenate_pair_apply_left 1 x y h _ rfl _ (fun b => by
    match b with
    | ⟨0, _⟩ => rfl
    | ⟨1, _⟩ => rfl
    | ⟨2, _⟩ => rfl)

/-- … and row 1 the second. -/
theorem pair3_snd {n : ℕ} (x y : (⟨3, ![3, 1, n]⟩ : Shape).Idx → α)
    (h : Shape.Concatenates [⟨3, ![3, 1, n]⟩, ⟨3, ![3, 1, n]⟩] ⟨3, ![3, 2, n]⟩ 1) (j : Fin 3) (k : Fin n) :
    concatenate ⟨3, ![3, 2, n]⟩ 1 [⟨⟨3, ![3, 1, n]⟩, x⟩, ⟨⟨3, ![3, 1, n]⟩, y⟩] h (ix3 j (1 : Fin 2) k)
      = y (ix3 j (0 : Fin 1) k) :=
  concatenate_pair_apply_right 1 x y h _ rfl rfl _ (fun b hb => by
    match b with
    | ⟨0, _⟩ => rfl
    | ⟨1, _⟩ => exact absurd rfl hb
    | ⟨2, _⟩ => rfl)
    (by show (0 : Fin 1).val + 1 = (1 : Fin 2).val; rfl)

end Pieces

/-! ## The argument arrays, and the first biases -/

variable (m : (ℓ : Loc nD τ sig) → Buf (Elt Ideal) ℓ) (c : Dev nD)

/-- The four weight arrays as launched. -/
abbrev A1 : S3x4x256x32.Idx → EReal := m ((c : Thread nD τ).loc main_arg1)
abbrev A2 : S3x4x32.Idx → EReal := m ((c : Thread nD τ).loc main_arg2)
abbrev A3 : S3x4x32x256.Idx → EReal := m ((c : Thread nD τ).loc main_arg3)
abbrev A4 : S3x4x256.Idx → EReal := m ((c : Thread nD τ).loc main_arg4)

/-- The first biases as the region finds them: for each coupling, two slots side by side, the two couplings stacked. -/
theorem v50_eq : (V m c main_v50 : S3x2x64.Idx → EReal) =
    concatenate S3x2x64 1
      [⟨S3x1x64, broadcastInDim S3x1x64 ![0, 2] bcast_S3x64_S3x1x64_0_2
          (concatenate S3x64 1
            [⟨S3x32, slot3 (A2 m c) 1 slices_S3x4x32_S3x1x32_0_1_0 shapeCasts_S3x1x32_S3x32⟩,
             ⟨S3x32, slot3 (A2 m c) 3 slices_S3x4x32_S3x1x32_0_3_0 shapeCasts_S3x1x32_S3x32⟩]
            concatenates_S3x32_S3x32_S3x64_d1)⟩,
       ⟨S3x1x64, broadcastInDim S3x1x64 ![0, 2] bcast_S3x64_S3x1x64_0_2
          (concatenate S3x64 1
            [⟨S3x32, slot3 (A2 m c) 0 slices_S3x4x32_S3x1x32_0_0_0 shapeCasts_S3x1x32_S3x32⟩,
             ⟨S3x32, slot3 (A2 m c) 2 slices_S3x4x32_S3x1x32_0_2_0 shapeCasts_S3x1x32_S3x32⟩]
            concatenates_S3x32_S3x32_S3x64_d1)⟩]
      concatenates_S3x1x64_S3x1x64_S3x2x64_d1 := by
  dsimp only [Gen.V, Gen.hostOps0]
  after_results_simp
  refine concat_pair_eq ?_ ?_
  · after_results_simp
    refine congrArg (broadcastInDim (s := S3x64) S3x1x64 ![0, 2] bcast_S3x64_S3x1x64_0_2) (concat_pair_eq ?_ ?_)
    · after_results_simp
      rfl
    · after_results_simp
      rfl
  · after_results_simp
    refine congrArg (broadcastInDim (s := S3x64) S3x1x64 ![0, 2] bcast_S3x64_S3x1x64_0_2) (concat_pair_eq ?_ ?_)
    · after_results_simp
      rfl
    · after_results_simp
      rfl

theorem b1_l (j : Fin 3) (p : Fin 2) (k : Fin 32) :
    (V m c main_v50 : S3x2x64.Idx → EReal) (ix3 j p (Flow.l32 k)) = A2 m c (ix3 j (Flow.slotS p) k) := by
  refine (congrFun (v50_eq m c) _).trans ?_
  fin_cases p
  · exact (pair3_fst _ _ _ j _).trans ((lift2_apply _ _ j 0 _).trans
      ((side2_left _ _ _ j k (Flow.l32 k) rfl).trans (slot3_apply _ 1 (by omega) _ _ j k)))
  · exact (pair3_snd _ _ _ j _).trans ((lift2_apply _ _ j 0 _).trans
      ((side2_left _ _ _ j k (Flow.l32 k) rfl).trans (slot3_apply _ 0 (by omega) _ _ j k)))

theorem b1_r (j : Fin 3) (p : Fin 2) (k : Fin 32) :
    (V m c main_v50 : S3x2x64.Idx → EReal) (ix3 j p (Flow.r32 k)) = A2 m c (ix3 j (Flow.slotT p) k) := by
  refine (congrFun (v50_eq m c) _).trans ?_
  fin_cases p
  · exact (pair3_fst _ _ _ j _).trans ((lift2_apply _ _ j 0 _).trans
      ((side2_right _ _ _ j k (Flow.r32 k) rfl).trans (slot3_apply _ 3 (by omega) _ _ j k)))
  · exact (pair3_snd _ _ _ j _).trans ((lift2_apply _ _ j 0 _).trans
      ((side2_right _ _ _ j k (Flow.r32 k) rfl).trans (slot3_apply _ 2 (by omega) _ _ j k)))

/-! ## The second biases -/

/-- The second biases as the region finds them: the same arrangement over 256 entries. -/
theorem v56_eq : (V m c main_v56 : S3x2x512.Idx → EReal) =
    concatenate S3x2x512 1
      [⟨S3x1x512, broadcastInDim S3x1x512 ![0, 2] bcast_S3x512_S3x1x512_0_2
          (concatenate S3x512 1
            [⟨S3x256, slot3 (A4 m c) 1 slices_S3x4x256_S3x1x256_0_1_0 shapeCasts_S3x1x256_S3x256⟩,
             ⟨S3x256, slot3 (A4 m c) 3 slices_S3x4x256_S3x1x256_0_3_0 shapeCasts_S3x1x256_S3x256⟩]
            concatenates_S3x256_S3x256_S3x512_d1)⟩,
       ⟨S3x1x512, broadcastInDim S3x1x512 ![0, 2] bcast_S3x512_S3x1x512_0_2
          (concatenate S3x512 1
            [⟨S3x256, slot3 (A4 m c) 0 slices_S3x4x256_S3x1x256_0_0_0 shapeCasts_S3x1x256_S3x256⟩,
             ⟨S3x256, slot3 (A4 m c) 2 slices_S3x4x256_S3x1x256_0_2_0 shapeCasts_S3x1x256_S3x256⟩]
            concatenates_S3x256_S3x256_S3x512_d1)⟩]
      concatenates_S3x1x512_S3x1x512_S3x2x512_d1 := by
  dsimp only [Gen.V, Gen.hostOps0]
  after_results_simp
  refine concat_pair_eq ?_ ?_
  · after_results_simp
    refine congrArg (broadcastInDim (s := S3x512) S3x1x512 ![0, 2] bcast_S3x512_S3x1x512_0_2) (concat_pair_eq ?_ ?_)
    · after_results_simp
      rfl
    · after_results_simp
      rfl
  · after_results_simp
    refine congrArg (broadcastInDim (s := S3x512) S3x1x512 ![0, 2] bcast_S3x512_S3x1x512_0_2) (concat_pair_eq ?_ ?_)
    · after_results_simp
      rfl
    · after_results_simp
      rfl

theorem b2_l (j : Fin 3) (p : Fin 2) (d : Fin 256) :
    (V m c main_v56 : S3x2x512.Idx → EReal) (ix3 j p (Flow.l256 d)) = A4 m c (ix3 j (Flow.slotS p) d) := by
  refine (congrFun (v56_eq m c) _).trans ?_
  fin_cases p
  · exact (pair3_fst _ _ _ j _).trans ((lift2_apply _ _ j 0 _).trans
      ((side2_left _ _ _ j d (Flow.l256 d) rfl).trans (slot3_apply _ 1 (by omega) _ _ j d)))
  · exact (pair3_snd _ _ _ j _).trans ((lift2_apply _ _ j 0 _).trans
      ((side2_left _ _ _ j d (Flow.l256 d) rfl).trans (slot3_apply _ 0 (by omega) _ _ j d)))

theorem b2_r (j : Fin 3) (p : Fin 2) (d : Fin 256) :
    (V m c main_v56 : S3x2x512.Idx → EReal) (ix3 j p (Flow.r256 d)) = A4 m c (ix3 j (Flow.slotT p) d) := by
  refine (congrFun (v56_eq m c) _).trans ?_
  fin_cases p
  · exact (pair3_fst _ _ _ j _).trans ((lift2_apply _ _ j 0 _).trans
      ((side2_right _ _ _ j d (Flow.r256 d) rfl).trans (slot3_apply _ 3 (by omega) _ _ j d)))
  · exact (pair3_snd _ _ _ j _).trans ((lift2_apply _ _ j 0 _).trans
      ((side2_right _ _ _ j d (Flow.r256 d) rfl).trans (slot3_apply _ 2 (by omega) _ _ j d)))

end Cert.KernelIdeal.Fused

end
-- ==== Proof.FusedSecond.lean ====
/-
  The fused second-layer weights the kernel's host operations build, entry by entry.

  For coupling p of layer j the array [3, 2, 64, 512] holds a block-diagonal matrix: rows 0..31 × columns 0..255 the
  second-layer weights of the scale slot, rows 32..63 × columns 256..511 those of the shift slot, and zero in the two
  other blocks. It is built by cutting a slot out of the weight array, laying it beside a block of zeros along the
  columns (zeros on the right for the scale slot, on the left for the shift slot), stacking the two along the rows,
  and stacking the two couplings along a new axis; the last change of float format is the identity on exact values.
-/
import proofs.«112143_j44229573214415_2_alg».proof.Proof.Gen.KernelIdeal.Frame.Runs
import proofs.«112143_j44229573214415_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.FusedSecond

open Cert.KernelIdeal Cert.KernelIdeal.Gen Cert.Flow
open Idealize.ShloMosaic Idealize.ShloMosaic.ValueIdx Idealize.ShloMosaic.TcCoe Idealize.SL.Sem

/-! ## The pieces, on arrays -/

/-- Slot `an` of the second-layer weights, the slot axis dropped: [3, 32, 256]. -/
def slot (A3 : FVec Ideal S3x4x32x256 .f32) (an : ℕ) (hs : S3x4x32x256.Slices ![0, an, 0, 0] S3x1x32x256) : FVec Ideal S3x32x256 .f32 :=
  shapeCast S3x32x256 (extractStridedSlice S3x1x32x256 ![0, an, 0, 0] A3 hs) shapeCasts_S3x1x32x256_S3x32x256

/-- The zero block. -/
def zeros : FVec Ideal S3x32x256 .f32 :=
  broadcastInDim S3x32x256 ![] bcast_S_S3x32x256 (constant (F := Ideal) S_ .f32 0x00000000#32)

/-- `X` and `Y` on the diagonal of a [64, 512] matrix per layer, zeros off it. -/
def diag (X Y : FVec Ideal S3x32x256 .f32) : FVec Ideal S3x64x512 .f32 :=
  concatenate S3x64x512 1
    [⟨S3x32x512, concatenate S3x32x512 2 [⟨S3x32x256, X⟩, ⟨S3x32x256, zeros⟩] concatenates_S3x32x256_S3x32x256_S3x32x512_d2⟩,
     ⟨S3x32x512, concatenate S3x32x512 2 [⟨S3x32x256, zeros⟩, ⟨S3x32x256, Y⟩] concatenates_S3x32x256_S3x32x256_S3x32x512_d2⟩]
    concatenates_S3x32x512_S3x32x512_S3x64x512_d1

/-- The two couplings of every layer stacked along a new axis; -/
def stack (D0 D1 : FVec Ideal S3x64x512 .f32) : FVec Ideal S3x2x64x512 .f32 :=
  concatenate S3x2x64x512 1
    [⟨S3x1x64x512, broadcastInDim S3x1x64x512 ![0, 2, 3] bcast_S3x64x512_S3x1x64x512_0_2_3 D0⟩,
     ⟨S3x1x64x512, broadcastInDim S3x1x64x512 ![0, 2, 3] bcast_S3x64x512_S3x1x64x512_0_2_3 D1⟩]
    concatenates_S3x1x64x512_S3x1x64x512_S3x2x64x512_d1

/-- and the stack in the kernel's operand format (the same exact values). -/
def pair (D0 D1 : FVec Ideal S3x64x512 .f32) : FVec Ideal S3x2x64x512 .bf16 :=
  truncf .bf16 (stack D0 D1) bitsLt_bf16_f32

/-! ## The pieces, entry by entry -/

theorem slot_apply (A3 : FVec Ideal S3x4x32x256 .f32) (an : ℕ) (ha : an < 4) (hs : S3x4x32x256.Slices ![0, an, 0, 0] S3x1x32x256)
    (j : Fin 3) (k : Fin 32) (d : Fin 256) : slot A3 an hs (ix3 j k d) = A3 (ix4 j ⟨an, ha⟩ k d) := by
  unfold slot
  refine (shapeCast_apply (s := S3x1x32x256) _ shapeCasts_S3x1x32x256_S3x32x256 (ix3 j k d) (ix4 j (0 : Fin 1) k d) ?_).trans ?_
  · rw [Shape.rowMajor_val_four, Shape.rowMajor_val_three]
    show ((j.val * 1 + 0) * 32 + k.val) * 256 + d.val = (j.val * 32 + k.val) * 256 + d.val
    omega
  · exact extractStridedSlice_apply _ _ _ _ _ (fun ax => by
      match ax with
      | ⟨0, _⟩ => show j.val = 0 + j.val; omega
      | ⟨1, _⟩ => show an = an + 0; omega
      | ⟨2, _⟩ => show k.val = 0 + k.val; omega
      | ⟨3, _⟩ => show d.val = 0 + d.val; omega)

theorem zeros_apply (i : S3x32x256.Idx) : zeros i = 0 := by
  unfold zeros
  refine (broadcastInDim_apply (s := S_) _ bcast_S_S3x32x256 _ i ix0 (fun a => a.elim0)).trans ?_
  exact Ideal.ofBits_zero_f32

/-- Upper left block: `X`. -/
theorem diag_ll (X Y : FVec Ideal S3x32x256 .f32) (j : Fin 3) (k : Fin 32) (d : Fin 256) :
    diag X Y (ix3 j (l32 k) (l256 d)) = X (ix3 j k d) := by
  unfold diag
  refine (concatenate_pair_apply_left (t := S3x64x512) (s₁ := S3x32x512) (s₂ := S3x32x512) 1 _ _ _ (ix3 j (l32 k) (l256 d)) rfl
    (ix3 j k (l256 d)) (fun b => by match b with | ⟨0, _⟩ => rfl | ⟨1, _⟩ => rfl | ⟨2, _⟩ => rfl)).trans ?_
  exact concatenate_pair_apply_left (t := S3x32x512) (s₁ := S3x32x256) (s₂ := S3x32x256) 2 _ _ _ (ix3 j k (l256 d)) rfl
    (ix3 j k d) (fun b => by match b with | ⟨0, _⟩ => rfl | ⟨1, _⟩ => rfl | ⟨2, _⟩ => rfl)

/-- Upper right block: zero. -/
theorem diag_lr (X Y : FVec Ideal S3x32x256 .f32) (j : Fin 3) (k : Fin 32) (d : Fin 256) :
    diag X Y (ix3 j (l32 k) (r256 d)) = 0 := by
  unfold diag
  refine (concatenate_pair_apply_left (t := S3x64x512) (s₁ := S3x32x512) (s₂ := S3x32x512) 1 _ _ _ (ix3 j (l32 k) (r256 d)) rfl
    (ix3 j k (r256 d)) (fun b => by match b with | ⟨0, _⟩ => rfl | ⟨1, _⟩ => rfl | ⟨2, _⟩ => rfl)).trans ?_
  refine (concatenate_pair_apply_right (t := S3x32x512) (s₁ := S3x32x256) (s₂ := S3x32x256) 2 _ _ _ (ix3 j k (r256 d)) rfl rfl
    (ix3 j k d) (fun b hb => by match b with | ⟨0, _⟩ => rfl | ⟨1, _⟩ => rfl | ⟨2, _⟩ => exact absurd rfl hb)
    (by show d.val + 256 = 256 + d.val; omega)).trans ?_
  exact zeros_apply _

/-- Lower left block: zero. -/
theorem diag_rl (X Y : FVec Ideal S3x32x256 .f32) (j : Fin 3) (k : Fin 32) (d : Fin 256) :
    diag X Y (ix3 j (r32 k) (l256 d)) = 0 := by
  unfold diag
  refine (concatenate_pair_apply_right (t := S3x64x512) (s₁ := S3x32x512) (s₂ := S3x32x512) 1 _ _ _ (ix3 j (r32 k) (l256 d)) rfl rfl
    (ix3 j k (l256 d)) (fun b hb => by match b with | ⟨0, _⟩ => rfl | ⟨1, _⟩ => exact absurd rfl hb | ⟨2, _⟩ => rfl)
    (by show k.val + 32 = 32 + k.val; omega)).trans ?_
  refine (concatenate_pair_apply_left (t := S3x32x512) (s₁ := S3x32x256) (s₂ := S3x32x256) 2 _ _ _ (ix3 j k (l256 d)) rfl
    (ix3 j k d) (fun b => by match b with | ⟨0, _⟩ => rfl | ⟨1, _⟩ => rfl | ⟨2, _⟩ => rfl)).trans ?_
  exact zeros_apply _

/-- Lower right block: `Y`. -/
theorem diag_rr (X Y : FVec Ideal S3x32x256 .f32) (j : Fin 3) (k : Fin 32) (d : Fin 256) :
    diag X Y (ix3 j (r32 k) (r256 d)) = Y (ix3 j k d) := by
  unfold diag
  refine (concatenate_pair_apply_right (t := S3x64x512) (s₁ := S3x32x512) (s₂ := S3x32x512) 1 _ _ _ (ix3 j (r32 k) (r256 d)) rfl rfl
    (ix3 j k (r256 d)) (fun b hb => by match b with | ⟨0, _⟩ => rfl | ⟨1, _⟩ => exact absurd rfl hb | ⟨2, _⟩ => rfl)
    (by show k.val + 32 = 32 + k.val; omega)).trans ?_
  exact concatenate_pair_apply_right (t := S3x32x512) (s₁ := S3x32x256) (s₂ := S3x32x256) 2 _ _ _ (ix3 j k (r256 d)) rfl rfl
    (ix3 j k d) (fun b hb => by match b with | ⟨0, _⟩ => rfl | ⟨1, _⟩ => rfl | ⟨2, _⟩ => exact absurd rfl hb)
    (by show d.val + 256 = 256 + d.val; omega)

/-- Coupling 0 of the stack is the first matrix, coupling 1 the second. -/
theorem pair_apply0 (D0 D1 : FVec Ideal S3x64x512 .f32) (j : Fin 3) (k : Fin 64) (d : Fin 512) :
    pair D0 D1 (ix4 j (0 : Fin 2) k d) = D0 (ix3 j k d) := by
  show stack D0 D1 (ix4 j (0 : Fin 2) k d) = _
  unfold stack
  refine (concatenate_pair_apply_left (t := S3x2x64x512) (s₁ := S3x1x64x512) (s₂ := S3x1x64x512) 1 _ _ _ (ix4 j (0 : Fin 2) k d) rfl
    (ix4 j (0 : Fin 1) k d) (fun b => by match b with | ⟨0, _⟩ => rfl | ⟨1, _⟩ => rfl | ⟨2, _⟩ => rfl | ⟨3, _⟩ => rfl)).trans ?_
  exact broadcastInDim_apply (s := S3x64x512) _ bcast_S3x64x512_S3x1x64x512_0_2_3 D0 (ix4 j (0 : Fin 1) k d) (ix3 j k d)
    (fun a => by match a with | ⟨0, _⟩ => rfl | ⟨1, _⟩ => rfl | ⟨2, _⟩ => rfl)

theorem pair_apply1 (D0 D1 : FVec Ideal S3x64x512 .f32) (j : Fin 3) (k : Fin 64) (d : Fin 512) :
    pair D0 D1 (ix4 j (1 : Fin 2) k d) = D1 (ix3 j k d) := by
  show stack D0 D1 (ix4 j (1 : Fin 2) k d) = _
  unfold stack
  refine (concatenate_pair_apply_right (t := S3x2x64x512) (s₁ := S3x1x64x512) (s₂ := S3x1x64x512) 1 _ _ _ (ix4 j (1 : Fin 2) k d) rfl rfl
    (ix4 j (0 : Fin 1) k d) (fun b hb => by match b with | ⟨0, _⟩ => rfl | ⟨1, _⟩ => exact absurd rfl hb | ⟨2, _⟩ => rfl | ⟨3, _⟩ => rfl)
    (by show 0 + 1 = 1; rfl)).trans ?_
  exact broadcastInDim_apply (s := S3x64x512) _ bcast_S3x64x512_S3x1x64x512_0_2_3 D1 (ix4 j (0 : Fin 1) k d) (ix3 j k d)
    (fun a => by match a with | ⟨0, _⟩ => rfl | ⟨1, _⟩ => rfl | ⟨2, _⟩ => rfl)

/-! ## The array the region finds -/

section Memory

variable (m : (ℓ : Loc nD τ sig) → Buf (Elt Ideal) ℓ) (c : Dev nD)

/-- Two-piece concatenations with equal pieces are equal. -/
theorem concat_congr {α : Type} {t s₁ s₂ : Shape} {a : Fin t.rank} {x₁ x₁' : s₁.Idx → α} {x₂ x₂' : s₂.Idx → α}
    {h : Shape.Concatenates [s₁, s₂] t a} (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

/-- The second-layer weight array as launched. -/
abbrev A3 : FVec Ideal S3x4x32x256 .f32 := m ((c : Thread nD τ).loc main_arg3)

theorem v0_eq : (V m c main_v0 : S3x32x256.Idx → EReal) = zeros := by
  dsimp only [Gen.V, Gen.hostOps0]; after_results_simp; rfl

theorem v12_eq : (V m c main_v12 : S3x32x256.Idx → EReal) = slot (A3 m c) 1 slices_S3x4x32x256_S3x1x32x256_0_1_0_0 := by
  dsimp only [Gen.V, Gen.hostOps0]; after_results_simp; rfl
theorem v15_eq : (V m c main_v15 : S3x32x256.Idx → EReal) = slot (A3 m c) 3 slices_S3x4x32x256_S3x1x32x256_0_3_0_0 := by
  dsimp only [Gen.V, Gen.hostOps0]; after_results_simp; rfl
theorem v34_eq : (V m c main_v34 : S3x32x256.Idx → EReal) = slot (A3 m c) 0 slices_S3x4x32x256_S3x1x32x256_0_0_0_0 := by
  dsimp only [Gen.V, Gen.hostOps0]; after_results_simp; rfl
theorem v37_eq : (V m c main_v37 : S3x32x256.Idx → EReal) = slot (A3 m c) 2 slices_S3x4x32x256_S3x1x32x256_0_2_0_0 := by
  dsimp only [Gen.V, Gen.hostOps0]; after_results_simp; rfl

/-- Each stage in terms of the stages before it. -/
theorem v13_st : (V m c main_v13 : S3x32x512.Idx → EReal) = concatenate S3x32x512 2 [⟨S3x32x256, V m c main_v12⟩, ⟨S3x32x256, V m c main_v0⟩] concatenates_S3x32x256_S3x32x256_S3x32x512_d2 := by
  dsimp only [Gen.V, Gen.hostOps0]; after_results_simp; try rfl
theorem v16_st : (V m c main_v16 : S3x32x512.Idx → EReal) = concatenate S3x32x512 2 [⟨S3x32x256, V m c main_v0⟩, ⟨S3x32x256, V m c main_v15⟩] concatenates_S3x32x256_S3x32x256_S3x32x512_d2 := by
  dsimp only [Gen.V, Gen.hostOps0]; after_results_simp; try rfl
theorem v17_st : (V m c main_v17 : S3x64x512.Idx → EReal) = concatenate S3x64x512 1 [⟨S3x32x512, V m c main_v13⟩, ⟨S3x32x512, V m c main_v16⟩] concatenates_S3x32x512_S3x32x512_S3x64x512_d1 := by
  dsimp only [Gen.V, Gen.hostOps0]; after_results_simp; try rfl
theorem v35_st : (V m c main_v35 : S3x32x512.Idx → EReal) = concatenate S3x32x512 2 [⟨S3x32x256, V m c main_v34⟩, ⟨S3x32x256, V m c main_v0⟩] concatenates_S3x32x256_S3x32x256_S3x32x512_d2 := by
  dsimp only [Gen.V, Gen.hostOps0]; after_results_simp; try rfl
theorem v38_st : (V m c main_v38 : S3x32x512.Idx → EReal) = concatenate S3x32x512 2 [⟨S3x32x256, V m c main_v0⟩, ⟨S3x32x256, V m c main_v37⟩] concatenates_S3x32x256_S3x32x256_S3x32x512_d2 := by
  dsimp only [Gen.V, Gen.hostOps0]; after_results_simp; try rfl
theorem v39_st : (V m c main_v39 : S3x64x512.Idx → EReal) = concatenate S3x64x512 1 [⟨S3x32x512, V m c main_v35⟩, ⟨S3x32x512, V m c main_v38⟩] concatenates_S3x32x512_S3x32x512_S3x64x512_d1 := by
  dsimp only [Gen.V, Gen.hostOps0]; after_results_simp; try rfl
theorem v51_st : (V m c main_v51 : S3x1x64x512.Idx → EReal) = broadcastInDim (s := S3x64x512) S3x1x64x512 ![0, 2, 3] bcast_S3x64x512_S3x1x64x512_0_2_3 (V m c main_v17) := by
  dsimp only [Gen.V, Gen.hostOps0]; after_results_simp; try rfl
theorem v52_st : (V m c main_v52 : S3x1x64x512.Idx → EReal) = broadcastInDim (s := S3x64x512) S3x1x64x512 ![0, 2, 3] bcast_S3x64x512_S3x1x64x512_0_2_3 (V m c main_v39) := by
  dsimp only [Gen.V, Gen.hostOps0]; after_results_simp; try rfl
theorem v53_st : (V m c main_v53 : S3x2x64x512.Idx → EReal) = concatenate S3x2x64x512 1 [⟨S3x1x64x512, V m c main_v51⟩, ⟨S3x1x64x512, V m c main_v52⟩] concatenates_S3x1x64x512_S3x1x64x512_S3x2x64x512_d1 := by
  dsimp only [Gen.V, Gen.hostOps0]; after_results_simp; try rfl
theorem v58_st : @Eq (S3x2x64x512.Idx → EReal) (V m c main_v58)
    (truncf (F := Ideal) (s := S3x2x64x512) .bf16 (V m c main_v53) bitsLt_bf16_f32) := by
  dsimp only [Gen.V, Gen.hostOps0]; after_results_simp; try rfl

/-- The block-diagonal matrix of one coupling of every layer. -/
theorem v17_eq : (V m c main_v17 : S3x64x512.Idx → EReal)
    = diag (slot (A3 m c) 1 slices_S3x4x32x256_S3x1x32x256_0_1_0_0) (slot (A3 m c) 3 slices_S3x4x32x256_S3x1x32x256_0_3_0_0) :=
  (v17_st m c).trans (concat_congr ((v13_st m c).trans (concat_congr (v12_eq m c) (v0_eq m c)))
    ((v16_st m c).trans (concat_congr (v0_eq m c) (v15_eq m c))))

theorem v39_eq : (V m c main_v39 : S3x64x512.Idx → EReal)
    = diag (slot (A3 m c) 0 slices_S3x4x32x256_S3x1x32x256_0_0_0_0) (slot (A3 m c) 2 slices_S3x4x32x256_S3x1x32x256_0_2_0_0) :=
  (v39_st m c).trans (concat_congr ((v35_st m c).trans (concat_congr (v34_eq m c) (v0_eq m c)))
    ((v38_st m c).trans (concat_congr (v0_eq m c) (v37_eq m c))))

/-- The whole fused second-layer array: coupling 0 slots (1, 3), coupling 1 slots (0, 2). -/
theorem v58_eq : (V m c main_v58 : S3x2x64x512.Idx → EReal)
    = pair (diag (slot (A3 m c) 1 slices_S3x4x32x256_S3x1x32x256_0_1_0_0) (slot (A3 m c) 3 slices_S3x4x32x256_S3x1x32x256_0_3_0_0))
        (diag (slot (A3 m c) 0 slices_S3x4x32x256_S3x1x32x256_0_0_0_0) (slot (A3 m c) 2 slices_S3x4x32x256_S3x1x32x256_0_2_0_0)) :=
  (v58_st m c).trans (congrArg (fun X : S3x2x64x512.Idx → EReal => truncf (F := Ideal) (s := S3x2x64x512) .bf16 X bitsLt_bf16_f32)
    ((v53_st m c).trans (concat_congr
      ((v51_st m c).trans (congrArg (broadcastInDim (s := S3x64x512) S3x1x64x512 ![0, 2, 3] bcast_S3x64x512_S3x1x64x512_0_2_3) (v17_eq m c)))
      ((v52_st m c).trans (congrArg (broadcastInDim (s := S3x64x512) S3x1x64x512 ![0, 2, 3] bcast_S3x64x512_S3x1x64x512_0_2_3) (v39_eq m c))))))

/-! ## The four blocks of every coupling's matrix -/

theorem w2_ll (j : Fin 3) (p : Fin 2) (k : Fin 32) (d : Fin 256) :
    (V m c main_v58 : S3x2x64x512.Idx → EReal) (ix4 j p (l32 k) (l256 d)) = A3 m c (ix4 j (slotS p) k d) := by
  rw [v58_eq]
  match p with
  | ⟨0, _⟩ => exact (pair_apply0 _ _ j _ _).trans ((diag_ll _ _ j k d).trans (slot_apply _ 1 (by omega) _ j k d))
  | ⟨1, _⟩ => exact (pair_apply1 _ _ j _ _).trans ((diag_ll _ _ j k d).trans (slot_apply _ 0 (by omega) _ j k d))

theorem w2_lr (j : Fin 3) (p : Fin 2) (k : Fin 32) (d : Fin 256) :
    (V m c main_v58 : S3x2x64x512.Idx → EReal) (ix4 j p (l32 k) (r256 d)) = (0 : EReal) := by
  rw [v58_eq]
  match p with
  | ⟨0, _⟩ => exact (pair_apply0 _ _ j _ _).trans (diag_lr _ _ j k d)
  | ⟨1, _⟩ => exact (pair_apply1 _ _ j _ _).trans (diag_lr _ _ j k d)

theorem w2_rl (j : Fin 3) (p : Fin 2) (k : Fin 32) (d : Fin 256) :
    (V m c main_v58 : S3x2x64x512.Idx → EReal) (ix4 j p (r32 k) (l256 d)) = (0 : EReal) := by
  rw [v58_eq]
  match p with
  | ⟨0, _⟩ => exact (pair_apply0 _ _ j _ _).trans (diag_rl _ _ j k d)
  | ⟨1, _⟩ => exact (pair_apply1 _ _ j _ _).trans (diag_rl _ _ j k d)

theorem w2_rr (j : Fin 3) (p : Fin 2) (k : Fin 32) (d : Fin 256) :
    (V m c main_v58 : S3x2x64x512.Idx → EReal) (ix4 j p (r32 k) (r256 d)) = A3 m c (ix4 j (slotT p) k d) := by
  rw [v58_eq]
  match p with
  | ⟨0, _⟩ => exact (pair_apply0 _ _ j _ _).trans ((diag_rr _ _ j k d).trans (slot_apply _ 3 (by omega) _ j k d))
  | ⟨1, _⟩ => exact (pair_apply1 _ _ j _ _).trans ((diag_rr _ _ j k d).trans (slot_apply _ 2 (by omega) _ j k d))

end Memory

end Cert.KernelIdeal.FusedSecond

end
-- ==== Proof.lean ====
/-
  The kernel and its reference compute one function of the argument arrays: the three-layer coupling flow of Cert.Flow,
  row by row.

  The kernel runs, on each block of 2048 rows, six affine couplings u ↦ u · exp(s h) + t h whose scale and shift
  perceptrons are fused into ONE perceptron with 64 hidden units and block-diagonal second-layer weights; the reference
  runs the two perceptrons of each coupling apart, on all 131072 rows at once. Over the extended reals the fused
  coupling is the coupling (Cert.Flow.fstep_eq: each 64-term sum splits into two 32-term sums, and the terms that meet
  a zero weight vanish, x · 0 = 0), a change of float format is the identity, and a block product onto a zero
  accumulator is the plain sum over the contracted axis. So both result arrays are Cert.Flow.G of the argument arrays,
  entry by entry; no finiteness of the inputs is used, and the idealization rewrote nothing.

  The modules: Spec — the flow and the law. RefFlow — the reference's result is G. KernelBody, KernelBlock,
  KernelOut — the block the kernel body leaves is the flow of the block it loads, given what the fused weight arrays
  hold. FusedFirst, FusedWeights, FusedSecond — the fused weight arrays hold the slots' weights side by side and block
  diagonally. KernelArray — from the 64 blocks to the result array.
-/
import proofs.«112143_j44229573214415_2_alg».proof.Defs
import proofs.«112143_j44229573214415_2_alg».proof.Proof.Gen.Kernel
import proofs.«112143_j44229573214415_2_alg».proof.Proof.Gen.Kernel.Skeleton
import proofs.«112143_j44229573214415_2_alg».proof.Proof.Gen.Kernel.Launch
import proofs.«112143_j44229573214415_2_alg».proof.Proof.Gen.Kernel.Points
import proofs.«112143_j44229573214415_2_alg».proof.Proof.Gen.Kernel.Frame
import proofs.«112143_j44229573214415_2_alg».proof.Proof.Gen.KernelIdeal
import proofs.«112143_j44229573214415_2_alg».proof.Proof.Gen.KernelIdeal.Skeleton
import proofs.«112143_j44229573214415_2_alg».proof.Proof.Gen.KernelIdeal.Launch
import proofs.«112143_j44229573214415_2_alg».proof.Proof.Gen.KernelIdeal.Points
import proofs.«112143_j44229573214415_2_alg».proof.Proof.Gen.KernelIdeal.Frame
import proofs.«112143_j44229573214415_2_alg».proof.Proof.Gen.ReferenceIdeal
import proofs.«112143_j44229573214415_2_alg».proof.Proof.Gen.Pre_finite_inputs
import proofs.«112143_j44229573214415_2_alg».proof.Proof.Gen.KernelIdeal.Value
import proofs.«112143_j44229573214415_2_alg».proof.Proof.Gen.ReferenceIdeal.Run
import proofs.«112143_j44229573214415_2_alg».proof.Proof.RefFlow
import proofs.«112143_j44229573214415_2_alg».proof.Proof.KernelArray
import proofs.«112143_j44229573214415_2_alg».proof.Proof.FusedFirst
import proofs.«112143_j44229573214415_2_alg».proof.Proof.FusedWeights
import proofs.«112143_j44229573214415_2_alg».proof.Proof.FusedSecond
import Idealize.ShloMosaic.Adequacy
import Idealize.ShloMosaic.Init

noncomputable section

namespace Cert.Proof

open Idealize.ShloMosaic Idealize.SL.Sem

/-- The three programs run, fault nowhere, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The four arrays the kernel's region stages whole hold, for coupling p of layer j, the first-layer weights of slots
    (slotS p, slotT p) side by side and their second-layer weights on the diagonal of a matrix that is zero elsewhere. -/
theorem fused (m : (ℓ : Loc Cert.KernelIdeal.nD Cert.KernelIdeal.τ Cert.KernelIdeal.sig) → Buf (Elt Ideal) ℓ)
    (c : Dev Cert.KernelIdeal.nD) :
    Cert.KernelIdeal.Block.Fused (Cert.KernelIdeal.Arr.PP m c)
      (Cert.KernelIdeal.Gen.V m c Cert.KernelIdeal.main_v57) (Cert.KernelIdeal.Gen.V m c Cert.KernelIdeal.main_v50)
      (Cert.KernelIdeal.Gen.V m c Cert.KernelIdeal.main_v58) (Cert.KernelIdeal.Gen.V m c Cert.KernelIdeal.main_v56) where
  w1l := Cert.KernelIdeal.FusedFirst.w1_l m c
  w1r := Cert.KernelIdeal.FusedFirst.w1_r m c
  b1l := Cert.KernelIdeal.Fused.b1_l m c
  b1r := Cert.KernelIdeal.Fused.b1_r m c
  w2ll := Cert.KernelIdeal.FusedSecond.w2_ll m c
  w2lr := Cert.KernelIdeal.FusedSecond.w2_lr m c
  w2rl := Cert.KernelIdeal.FusedSecond.w2_rl m c
  w2rr := Cert.KernelIdeal.FusedSecond.w2_rr m c
  b2l := Cert.KernelIdeal.Fused.b2_l m c
  b2r := Cert.KernelIdeal.Fused.b2_r m c

/-- From memories that agree on the arguments both programs end with the flow of the argument arrays in their result. -/
theorem algebraic : Cert.algebraic_KernelIdeal_ReferenceIdeal := by
  intro m ρ m' ρ' _ hagree
  refine ⟨fun c => Cert.KernelIdeal.Arr.GG m c, Cert.KernelIdeal.Arr.run m ρ (fused m), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
